-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16 : Shape := ⟨2, ![16384, 16]⟩
abbrev S16x300000x10 : Shape := ⟨3, ![16, 300000, 10]⟩
abbrev S300000x1 : Shape := ⟨2, ![300000, 1]⟩
abbrev S_ : Shape := ⟨0, ![]⟩

class Facts : Prop where
  bcast_S_S16x300000x10 : S_.BroadcastsInDim S16x300000x10 (![] : Fin 0 → Fin S16x300000x10.rank)
  reducesTo_S16x300000x10_S_d0_1_2 : S16x300000x10.ReducesTo [0, 1, 2] S_
  h_S_ : 0 < S_.numel
  bcast_S_S300000x1 : S_.BroadcastsInDim S300000x1 (![] : Fin 0 → Fin S300000x1.rank)
  reducesTo_S300000x1_S_d0_1 : S300000x1.ReducesTo [0, 1] S_

variable [Facts]

def fn {F : FTy → Type} [FloatOps F] (main_arg0 : IVec S16384x16 32) (main_arg1 : FVec F S16x300000x10 .f32) (main_arg2 : FVec F S300000x1 .f32) : IVec S_ 1 :=
  let main_v0 : FVec F S16x300000x10 .f32 := Host.absf main_arg1
  let main_cst : FVec F S_ .f32 := constant S_ .f32 0x7F800000#32
  let main_v1 : FVec F S16x300000x10 .f32 := broadcastInDim S16x300000x10 ![] bcast_S_S16x300000x10 main_cst
  let main_v2 : IVec S16x300000x10 1 := cmpf .olt main_v0 main_v1
  let main_c : IVec S_ 1 := constantI S_ 1 1#1
  let main_v3 : IVec S_ 1 := (fun x v => Host.reduce IntOp.andi x v reducesTo_S16x300000x10_S_d0_1_2 h_S_) main_v2 main_c
  let main_v4 : FVec F S300000x1 .f32 := Host.absf main_arg2
  let main_cst_0 : FVec F S_ .f32 := constant S_ .f32 0x7F800000#32
  let main_v5 : FVec F S300000x1 .f32 := broadcastInDim S300000x1 ![] bcast_S_S300000x1 main_cst_0
  let main_v6 : IVec S300000x1 1 := cmpf .olt main_v4 main_v5
  let main_c_1 : IVec S_ 1 := constantI S_ 1 1#1
  let main_v7 : IVec S_ 1 := (fun x v => Host.reduce IntOp.andi x v reducesTo_S300000x1_S_d0_1 h_S_) main_v6 main_c_1
  let main_v8 : IVec S_ 1 := andi main_v3 main_v7
  main_v8
-- ==== Kernel.lean ====
abbrev S16384x16 : Shape := ⟨2, ![16384, 16]⟩
abbrev S16x300000x10 : Shape := ⟨3, ![16, 300000, 10]⟩
abbrev S300000x1 : Shape := ⟨2, ![300000, 1]⟩
abbrev S262144 : Shape := ⟨1, ![262144]⟩
abbrev S300000x16x10 : Shape := ⟨3, ![300000, 16, 10]⟩
abbrev S_ : Shape := ⟨0, ![]⟩
abbrev S262144x1 : Shape := ⟨2, ![262144, 1]⟩
abbrev S262144x16x10 : Shape := ⟨3, ![262144, 16, 10]⟩
abbrev S16384x2560 : Shape := ⟨2, ![16384, 2560]⟩
abbrev S16384x16x1 : Shape := ⟨3, ![16384, 16, 1]⟩
abbrev S16384x1376 : Shape := ⟨2, ![16384, 1376]⟩
abbrev S512x2560 : Shape := ⟨2, ![512, 2560]⟩
abbrev S512x16 : Shape := ⟨2, ![512, 16]⟩
abbrev S512x1376 : Shape := ⟨2, ![512, 1376]⟩
abbrev S512x10 : Shape := ⟨2, ![512, 10]⟩

abbrev nBuf : Space → Nat
  | .hbm => 26
  | .vmem => 6
  | .smem => 0
  | _ => 0

abbrev bufTy : (tb : Table) → Fin (tcTables nBuf tb) → BufTy
  | .hbm, ⟨0, _⟩ => ⟨S16384x16, .i32⟩
  | .hbm, ⟨1, _⟩ => ⟨S16x300000x10, .f32⟩
  | .hbm, ⟨2, _⟩ => ⟨S300000x1, .f32⟩
  | .hbm, ⟨3, _⟩ => ⟨S262144, .i32⟩
  | .hbm, ⟨4, _⟩ => ⟨S300000x16x10, .f32⟩
  | .hbm, ⟨5, _⟩ => ⟨S_, .i32⟩
  | .hbm, ⟨6, _⟩ => ⟨S262144, .i32⟩
  | .hbm, ⟨7, _⟩ => ⟨S262144, .i1⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S262144x1, .i32⟩
  | .hbm, ⟨13, _⟩ => ⟨S262144x16x10, .f32⟩
  | .hbm, ⟨14, _⟩ => ⟨S16384x2560, .f32⟩
  | .hbm, ⟨15, _⟩ => ⟨S_, .i32⟩
  | .hbm, ⟨16, _⟩ => ⟨S16384x16, .i32⟩
  | .hbm, ⟨17, _⟩ => ⟨S16384x16, .i1⟩
  | .hbm, ⟨18, _⟩ => ⟨S_, .i32⟩
  | .hbm, ⟨19, _⟩ => ⟨S16384x16, .i32⟩
  | .hbm, ⟨20, _⟩ => ⟨S16384x16, .i32⟩
  | .hbm, ⟨21, _⟩ => ⟨S16384x16, .i32⟩
  | .hbm, ⟨22, _⟩ => ⟨S16384x16x1, .i32⟩
  | .hbm, ⟨23, _⟩ => ⟨S16384x16x1, .f32⟩
  | .hbm, ⟨24, _⟩ => ⟨S16384x16, .f32⟩
  | .hbm, ⟨25, _⟩ => ⟨S16384x1376, .f32⟩
  | .local _ .vmem, ⟨0, _⟩ => ⟨S512x2560, .f32⟩
  | .local _ .vmem, ⟨1, _⟩ => ⟨S512x2560, .f32⟩
  | .local _ .vmem, ⟨2, _⟩ => ⟨S512x16, .f32⟩
  | .local _ .vmem, ⟨3, _⟩ => ⟨S512x16, .f32⟩
  | .local _ .vmem, ⟨4, _⟩ => ⟨S512x1376, .f32⟩
  | .local _ .vmem, ⟨5, _⟩ => ⟨S512x1376, .f32⟩
  | _, _ => ⟨S16384x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1376 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16384x16_S262144 : S16384x16.ShapeCasts S262144
  transposes_S16x300000x10_S300000x16x10_1_0_2 : S16x300000x10.Transposes [1, 0, 2] S300000x16x10
  bcast_S_S262144 : S_.BroadcastsInDim S262144 (![] : Fin 0 → Fin S262144.rank)
  bcast_S262144_S262144x1_0 : S262144.BroadcastsInDim S262144x1 (![0] : Fin 1 → Fin S262144x1.rank)
  shapeCasts_S262144x16x10_S16384x2560 : S262144x16x10.ShapeCasts S16384x2560
  bcast_S_S16384x16 : S_.BroadcastsInDim S16384x16 (![] : Fin 0 → Fin S16384x16.rank)
  bcast_S16384x16_S16384x16x1_0_1 : S16384x16.BroadcastsInDim S16384x16x1 (![0, 1] : Fin 2 → Fin S16384x16x1.rank)
  shapeCasts_S16384x16x1_S16384x16 : S16384x16x1.ShapeCasts S16384x16
  inb_S512x2560_S512x2560_0_0 : ∀ a, (![0, 0] : Fin 2 → Nat) a + S512x2560.size a ≤ S512x2560.size a
  h_S512x2560 : 0 < S512x2560.numel
  shapeCasts_S512x2560_S512x2560 : S512x2560.ShapeCasts S512x2560
  slices_S512x2560_o0_10_S512x10 : S512x2560.Slices ![0, 10] S512x10
  slices_S512x2560_o0_160_S512x10 : S512x2560.Slices ![0, 160] S512x10
  slices_S512x2560_o0_20_S512x10 : S512x2560.Slices ![0, 20] S512x10
  slices_S512x2560_o0_320_S512x10 : S512x2560.Slices ![0, 320] S512x10
  slices_S512x2560_o0_30_S512x10 : S512x2560.Slices ![0, 30] S512x10
  slices_S512x2560_o0_480_S512x10 : S512x2560.Slices ![0, 480] S512x10
  slices_S512x2560_o0_40_S512x10 : S512x2560.Slices ![0, 40] S512x10
  slices_S512x2560_o0_640_S512x10 : S512x2560.Slices ![0, 640] S512x10
  slices_S512x2560_o0_50_S512x10 : S512x2560.Slices ![0, 50] S512x10
  slices_S512x2560_o0_800_S512x10 : S512x2560.Slices ![0, 800] S512x10
  slices_S512x2560_o0_60_S512x10 : S512x2560.Slices ![0, 60] S512x10
  slices_S512x2560_o0_960_S512x10 : S512x2560.Slices ![0, 960] S512x10
  slices_S512x2560_o0_70_S512x10 : S512x2560.Slices ![0, 70] S512x10
  slices_S512x2560_o0_1120_S512x10 : S512x2560.Slices ![0, 1120] S512x10
  slices_S512x2560_o0_80_S512x10 : S512x2560.Slices ![0, 80] S512x10
  slices_S512x2560_o0_1280_S512x10 : S512x2560.Slices ![0, 1280] S512x10
  slices_S512x2560_o0_90_S512x10 : S512x2560.Slices ![0, 90] S512x10
  slices_S512x2560_o0_1440_S512x10 : S512x2560.Slices ![0, 1440] S512x10
  slices_S512x2560_o0_100_S512x10 : S512x2560.Slices ![0, 100] S512x10
  slices_S512x2560_o0_1600_S512x10 : S512x2560.Slices ![0, 1600] S512x10
  slices_S512x2560_o0_110_S512x10 : S512x2560.Slices ![0, 110] S512x10
  slices_S512x2560_o0_1760_S512x10 : S512x2560.Slices ![0, 1760] S512x10
  slices_S512x2560_o0_120_S512x10 : S512x2560.Slices ![0, 120] S512x10
  slices_S512x2560_o0_1920_S512x10 : S512x2560.Slices ![0, 1920] S512x10
  slices_S512x2560_o0_130_S512x10 : S512x2560.Slices ![0, 130] S512x10
  slices_S512x2560_o0_2080_S512x10 : S512x2560.Slices ![0, 2080] S512x10
  slices_S512x2560_o0_140_S512x10 : S512x2560.Slices ![0, 140] S512x10
  slices_S512x2560_o0_2240_S512x10 : S512x2560.Slices ![0, 2240] S512x10
  slices_S512x2560_o0_150_S512x10 : S512x2560.Slices ![0, 150] S512x10
  slices_S512x2560_o0_2400_S512x10 : S512x2560.Slices ![0, 2400] S512x10
  slices_S512x2560_o0_180_S512x10 : S512x2560.Slices ![0, 180] S512x10
  slices_S512x2560_o0_330_S512x10 : S512x2560.Slices ![0, 330] S512x10
  slices_S512x2560_o0_190_S512x10 : S512x2560.Slices ![0, 190] S512x10
  slices_S512x2560_o0_490_S512x10 : S512x2560.Slices ![0, 490] S512x10
  slices_S512x2560_o0_200_S512x10 : S512x2560.Slices ![0, 200] S512x10
  slices_S512x2560_o0_650_S512x10 : S512x2560.Slices ![0, 650] S512x10
  slices_S512x2560_o0_210_S512x10 : S512x2560.Slices ![0, 210] S512x10
  slices_S512x2560_o0_810_S512x10 : S512x2560.Slices ![0, 810] S512x10
  slices_S512x2560_o0_220_S512x10 : S512x2560.Slices ![0, 220] S512x10
  slices_S512x2560_o0_970_S512x10 : S512x2560.Slices ![0, 970] S512x10
  slices_S512x2560_o0_230_S512x10 : S512x2560.Slices ![0, 230] S512x10
  slices_S512x2560_o0_1130_S512x10 : S512x2560.Slices ![0, 1130] S512x10
  slices_S512x2560_o0_240_S512x10 : S512x2560.Slices ![0, 240] S512x10
  slices_S512x2560_o0_1290_S512x10 : S512x2560.Slices ![0, 1290] S512x10
  slices_S512x2560_o0_250_S512x10 : S512x2560.Slices ![0, 250] S512x10
  slices_S512x2560_o0_1450_S512x10 : S512x2560.Slices ![0, 1450] S512x10
  slices_S512x2560_o0_260_S512x10 : S512x2560.Slices ![0, 260] S512x10
  slices_S512x2560_o0_1610_S512x10 : S512x2560.Slices ![0, 1610] S512x10
  slices_S512x2560_o0_270_S512x10 : S512x2560.Slices ![0, 270] S512x10
  slices_S512x2560_o0_1770_S512x10 : S512x2560.Slices ![0, 1770] S512x10
  slices_S512x2560_o0_280_S512x10 : S512x2560.Slices ![0, 280] S512x10
  slices_S512x2560_o0_1930_S512x10 : S512x2560.Slices ![0, 1930] S512x10
  slices_S512x2560_o0_290_S512x10 : S512x2560.Slices ![0, 290] S512x10
  slices_S512x2560_o0_2090_S512x10 : S512x2560.Slices ![0, 2090] S512x10
  slices_S512x2560_o0_300_S512x10 : S512x2560.Slices ![0, 300] S512x10
  slices_S512x2560_o0_2250_S512x10 : S512x2560.Slices ![0, 2250] S512x10
  slices_S512x2560_o0_310_S512x10 : S512x2560.Slices ![0, 310] S512x10
  slices_S512x2560_o0_2410_S512x10 : S512x2560.Slices ![0, 2410] S512x10
  slices_S512x2560_o0_350_S512x10 : S512x2560.Slices ![0, 350] S512x10
  slices_S512x2560_o0_500_S512x10 : S512x2560.Slices ![0, 500] S512x10
  slices_S512x2560_o0_360_S512x10 : S512x2560.Slices ![0, 360] S512x10
  slices_S512x2560_o0_660_S512x10 : S512x2560.Slices ![0, 660] S512x10
  slices_S512x2560_o0_370_S512x10 : S512x2560.Slices ![0, 370] S512x10
  slices_S512x2560_o0_820_S512x10 : S512x2560.Slices ![0, 820] S512x10
  slices_S512x2560_o0_380_S512x10 : S512x2560.Slices ![0, 380] S512x10
  slices_S512x2560_o0_980_S512x10 : S512x2560.Slices ![0, 980] S512x10
  slices_S512x2560_o0_390_S512x10 : S512x2560.Slices ![0, 390] S512x10
  slices_S512x2560_o0_1140_S512x10 : S512x2560.Slices ![0, 1140] S512x10
  slices_S512x2560_o0_400_S512x10 : S512x2560.Slices ![0, 400] S512x10
  slices_S512x2560_o0_1300_S512x10 : S512x2560.Slices ![0, 1300] S512x10
  slices_S512x2560_o0_410_S512x10 : S512x2560.Slices ![0, 410] S512x10
  slices_S512x2560_o0_1460_S512x10 : S512x2560.Slices ![0, 1460] S512x10
  slices_S512x2560_o0_420_S512x10 : S512x2560.Slices ![0, 420] S512x10
  slices_S512x2560_o0_1620_S512x10 : S512x2560.Slices ![0, 1620] S512x10
  slices_S512x2560_o0_430_S512x10 : S512x2560.Slices ![0, 430] S512x10
  slices_S512x2560_o0_1780_S512x10 : S512x2560.Slices ![0, 1780] S512x10
  slices_S512x2560_o0_440_S512x10 : S512x2560.Slices ![0, 440] S512x10
  slices_S512x2560_o0_1940_S512x10 : S512x2560.Slices ![0, 1940] S512x10
  slices_S512x2560_o0_450_S512x10 : S512x2560.Slices ![0, 450] S512x10
  slices_S512x2560_o0_2100_S512x10 : S512x2560.Slices ![0, 2100] S512x10
  slices_S512x2560_o0_460_S512x10 : S512x2560.Slices ![0, 460] S512x10
  slices_S512x2560_o0_2260_S512x10 : S512x2560.Slices ![0, 2260] S512x10
  slices_S512x2560_o0_470_S512x10 : S512x2560.Slices ![0, 470] S512x10
  slices_S512x2560_o0_2420_S512x10 : S512x2560.Slices ![0, 2420] S512x10
  slices_S512x2560_o0_520_S512x10 : S512x2560.Slices ![0, 520] S512x10
  slices_S512x2560_o0_670_S512x10 : S512x2560.Slices ![0, 670] S512x10
  slices_S512x2560_o0_530_S512x10 : S512x2560.Slices ![0, 530] S512x10
  slices_S512x2560_o0_830_S512x10 : S512x2560.Slices ![0, 830] S512x10
  slices_S512x2560_o0_540_S512x10 : S512x2560.Slices ![0, 540] S512x10
  slices_S512x2560_o0_990_S512x10 : S512x2560.Slices ![0, 990] S512x10
  slices_S512x2560_o0_550_S512x10 : S512x2560.Slices ![0, 550] S512x10
  slices_S512x2560_o0_1150_S512x10 : S512x2560.Slices ![0, 1150] S512x10
  slices_S512x2560_o0_560_S512x10 : S512x2560.Slices ![0, 560] S512x10
  slices_S512x2560_o0_1310_S512x10 : S512x2560.Slices ![0, 1310] S512x10
  slices_S512x2560_o0_570_S512x10 : S512x2560.Slices ![0, 570] S512x10
  slices_S512x2560_o0_1470_S512x10 : S512x2560.Slices ![0, 1470] S512x10
  slices_S512x2560_o0_580_S512x10 : S512x2560.Slices ![0, 580] S512x10
  slices_S512x2560_o0_1630_S512x10 : S512x2560.Slices ![0, 1630] S512x10
  slices_S512x2560_o0_590_S512x10 : S512x2560.Slices ![0, 590] S512x10
  slices_S512x2560_o0_1790_S512x10 : S512x2560.Slices ![0, 1790] S512x10
  slices_S512x2560_o0_600_S512x10 : S512x2560.Slices ![0, 600] S512x10
  slices_S512x2560_o0_1950_S512x10 : S512x2560.Slices ![0, 1950] S512x10
  slices_S512x2560_o0_610_S512x10 : S512x2560.Slices ![0, 610] S512x10
  slices_S512x2560_o0_2110_S512x10 : S512x2560.Slices ![0, 2110] S512x10
  slices_S512x2560_o0_620_S512x10 : S512x2560.Slices ![0, 620] S512x10
  slices_S512x2560_o0_2270_S512x10 : S512x2560.Slices ![0, 2270] S512x10
  slices_S512x2560_o0_630_S512x10 : S512x2560.Slices ![0, 630] S512x10
  slices_S512x2560_o0_2430_S512x10 : S512x2560.Slices ![0, 2430] S512x10
  slices_S512x2560_o0_690_S512x10 : S512x2560.Slices ![0, 690] S512x10
  slices_S512x2560_o0_840_S512x10 : S512x2560.Slices ![0, 840] S512x10
  slices_S512x2560_o0_700_S512x10 : S512x2560.Slices ![0, 700] S512x10
  slices_S512x2560_o0_1000_S512x10 : S512x2560.Slices ![0, 1000] S512x10
  slices_S512x2560_o0_710_S512x10 : S512x2560.Slices ![0, 710] S512x10
  slices_S512x2560_o0_1160_S512x10 : S512x2560.Slices ![0, 1160] S512x10
  slices_S512x2560_o0_720_S512x10 : S512x2560.Slices ![0, 720] S512x10
  slices_S512x2560_o0_1320_S512x10 : S512x2560.Slices ![0, 1320] S512x10
  slices_S512x2560_o0_730_S512x10 : S512x2560.Slices ![0, 730] S512x10
  slices_S512x2560_o0_1480_S512x10 : S512x2560.Slices ![0, 1480] S512x10
  slices_S512x2560_o0_740_S512x10 : S512x2560.Slices ![0, 740] S512x10
  slices_S512x2560_o0_1640_S512x10 : S512x2560.Slices ![0, 1640] S512x10
  slices_S512x2560_o0_750_S512x10 : S512x2560.Slices ![0, 750] S512x10
  slices_S512x2560_o0_1800_S512x10 : S512x2560.Slices ![0, 1800] S512x10
  slices_S512x2560_o0_760_S512x10 : S512x2560.Slices ![0, 760] S512x10
  slices_S512x2560_o0_1960_S512x10 : S512x2560.Slices ![0, 1960] S512x10
  slices_S512x2560_o0_770_S512x10 : S512x2560.Slices ![0, 770] S512x10
  slices_S512x2560_o0_2120_S512x10 : S512x2560.Slices ![0, 2120] S512x10
  slices_S512x2560_o0_780_S512x10 : S512x2560.Slices ![0, 780] S512x10
  slices_S512x2560_o0_2280_S512x10 : S512x2560.Slices ![0, 2280] S512x10
  slices_S512x2560_o0_790_S512x10 : S512x2560.Slices ![0, 790] S512x10
  slices_S512x2560_o0_2440_S512x10 : S512x2560.Slices ![0, 2440] S512x10
  slices_S512x2560_o0_860_S512x10 : S512x2560.Slices ![0, 860] S512x10
  slices_S512x2560_o0_1010_S512x10 : S512x2560.Slices ![0, 1010] S512x10
  slices_S512x2560_o0_870_S512x10 : S512x2560.Slices ![0, 870] S512x10
  slices_S512x2560_o0_1170_S512x10 : S512x2560.Slices ![0, 1170] S512x10
  slices_S512x2560_o0_880_S512x10 : S512x2560.Slices ![0, 880] S512x10
  slices_S512x2560_o0_1330_S512x10 : S512x2560.Slices ![0, 1330] S512x10
  slices_S512x2560_o0_890_S512x10 : S512x2560.Slices ![0, 890] S512x10
  slices_S512x2560_o0_1490_S512x10 : S512x2560.Slices ![0, 1490] S512x10
  slices_S512x2560_o0_900_S512x10 : S512x2560.Slices ![0, 900] S512x10
  slices_S512x2560_o0_1650_S512x10 : S512x2560.Slices ![0, 1650] S512x10
  slices_S512x2560_o0_910_S512x10 : S512x2560.Slices ![0, 910] S512x10
  slices_S512x2560_o0_1810_S512x10 : S512x2560.Slices ![0, 1810] S512x10
  slices_S512x2560_o0_920_S512x10 : S512x2560.Slices ![0, 920] S512x10
  slices_S512x2560_o0_1970_S512x10 : S512x2560.Slices ![0, 1970] S512x10
  slices_S512x2560_o0_930_S512x10 : S512x2560.Slices ![0, 930] S512x10
  slices_S512x2560_o0_2130_S512x10 : S512x2560.Slices ![0, 2130] S512x10
  slices_S512x2560_o0_940_S512x10 : S512x2560.Slices ![0, 940] S512x10
  slices_S512x2560_o0_2290_S512x10 : S512x2560.Slices ![0, 2290] S512x10
  slices_S512x2560_o0_950_S512x10 : S512x2560.Slices ![0, 950] S512x10
  slices_S512x2560_o0_2450_S512x10 : S512x2560.Slices ![0, 2450] S512x10
  slices_S512x2560_o0_1030_S512x10 : S512x2560.Slices ![0, 1030] S512x10
  slices_S512x2560_o0_1180_S512x10 : S512x2560.Slices ![0, 1180] S512x10
  slices_S512x2560_o0_1040_S512x10 : S512x2560.Slices ![0, 1040] S512x10
  slices_S512x2560_o0_1340_S512x10 : S512x2560.Slices ![0, 1340] S512x10
  slices_S512x2560_o0_1050_S512x10 : S512x2560.Slices ![0, 1050] S512x10
  slices_S512x2560_o0_1500_S512x10 : S512x2560.Slices ![0, 1500] S512x10
  slices_S512x2560_o0_1060_S512x10 : S512x2560.Slices ![0, 1060] S512x10
  slices_S512x2560_o0_1660_S512x10 : S512x2560.Slices ![0, 1660] S512x10
  slices_S512x2560_o0_1070_S512x10 : S512x2560.Slices ![0, 1070] S512x10
  slices_S512x2560_o0_1820_S512x10 : S512x2560.Slices ![0, 1820] S512x10
  slices_S512x2560_o0_1080_S512x10 : S512x2560.Slices ![0, 1080] S512x10
  slices_S512x2560_o0_1980_S512x10 : S512x2560.Slices ![0, 1980] S512x10
  slices_S512x2560_o0_1090_S512x10 : S512x2560.Slices ![0, 1090] S512x10
  slices_S512x2560_o0_2140_S512x10 : S512x2560.Slices ![0, 2140] S512x10
  slices_S512x2560_o0_1100_S512x10 : S512x2560.Slices ![0, 1100] S512x10
  slices_S512x2560_o0_2300_S512x10 : S512x2560.Slices ![0, 2300] S512x10
  slices_S512x2560_o0_1110_S512x10 : S512x2560.Slices ![0, 1110] S512x10
  slices_S512x2560_o0_2460_S512x10 : S512x2560.Slices ![0, 2460] S512x10
  slices_S512x2560_o0_1200_S512x10 : S512x2560.Slices ![0, 1200] S512x10
  slices_S512x2560_o0_1350_S512x10 : S512x2560.Slices ![0, 1350] S512x10
  slices_S512x2560_o0_1210_S512x10 : S512x2560.Slices ![0, 1210] S512x10
  slices_S512x2560_o0_1510_S512x10 : S512x2560.Slices ![0, 1510] S512x10
  slices_S512x2560_o0_1220_S512x10 : S512x2560.Slices ![0, 1220] S512x10
  slices_S512x2560_o0_1670_S512x10 : S512x2560.Slices ![0, 1670] S512x10
  slices_S512x2560_o0_1230_S512x10 : S512x2560.Slices ![0, 1230] S512x10
  slices_S512x2560_o0_1830_S512x10 : S512x2560.Slices ![0, 1830] S512x10
  slices_S512x2560_o0_1240_S512x10 : S512x2560.Slices ![0, 1240] S512x10
  slices_S512x2560_o0_1990_S512x10 : S512x2560.Slices ![0, 1990] S512x10
  slices_S512x2560_o0_1250_S512x10 : S512x2560.Slices ![0, 1250] S512x10
  slices_S512x2560_o0_2150_S512x10 : S512x2560.Slices ![0, 2150] S512x10
  slices_S512x2560_o0_1260_S512x10 : S512x2560.Slices ![0, 1260] S512x10
  slices_S512x2560_o0_2310_S512x10 : S512x2560.Slices ![0, 2310] S512x10
  slices_S512x2560_o0_1270_S512x10 : S512x2560.Slices ![0, 1270] S512x10
  slices_S512x2560_o0_2470_S512x10 : S512x2560.Slices ![0, 2470] S512x10
  slices_S512x2560_o0_1370_S512x10 : S512x2560.Slices ![0, 1370] S512x10
  slices_S512x2560_o0_1520_S512x10 : S512x2560.Slices ![0, 1520] S512x10
  slices_S512x2560_o0_1380_S512x10 : S512x2560.Slices ![0, 1380] S512x10
  slices_S512x2560_o0_1680_S512x10 : S512x2560.Slices ![0, 1680] S512x10
  slices_S512x2560_o0_1390_S512x10 : S512x2560.Slices ![0, 1390] S512x10
  slices_S512x2560_o0_1840_S512x10 : S512x2560.Slices ![0, 1840] S512x10
  slices_S512x2560_o0_1400_S512x10 : S512x2560.Slices ![0, 1400] S512x10
  slices_S512x2560_o0_2000_S512x10 : S512x2560.Slices ![0, 2000] S512x10
  slices_S512x2560_o0_1410_S512x10 : S512x2560.Slices ![0, 1410] S512x10
  slices_S512x2560_o0_2160_S512x10 : S512x2560.Slices ![0, 2160] S512x10
  slices_S512x2560_o0_1420_S512x10 : S512x2560.Slices ![0, 1420] S512x10
  slices_S512x2560_o0_2320_S512x10 : S512x2560.Slices ![0, 2320] S512x10
  slices_S512x2560_o0_1430_S512x10 : S512x2560.Slices ![0, 1430] S512x10
  slices_S512x2560_o0_2480_S512x10 : S512x2560.Slices ![0, 2480] S512x10
  slices_S512x2560_o0_1540_S512x10 : S512x2560.Slices ![0, 1540] S512x10
  slices_S512x2560_o0_1690_S512x10 : S512x2560.Slices ![0, 1690] S512x10
  slices_S512x2560_o0_1550_S512x10 : S512x2560.Slices ![0, 1550] S512x10
  slices_S512x2560_o0_1850_S512x10 : S512x2560.Slices ![0, 1850] S512x10
  slices_S512x2560_o0_1560_S512x10 : S512x2560.Slices ![0, 1560] S512x10
  slices_S512x2560_o0_2010_S512x10 : S512x2560.Slices ![0, 2010] S512x10
  slices_S512x2560_o0_1570_S512x10 : S512x2560.Slices ![0, 1570] S512x10
  slices_S512x2560_o0_2170_S512x10 : S512x2560.Slices ![0, 2170] S512x10
  slices_S512x2560_o0_1580_S512x10 : S512x2560.Slices ![0, 1580] S512x10
  slices_S512x2560_o0_2330_S512x10 : S512x2560.Slices ![0, 2330] S512x10
  slices_S512x2560_o0_1590_S512x10 : S512x2560.Slices ![0, 1590] S512x10
  slices_S512x2560_o0_2490_S512x10 : S512x2560.Slices ![0, 2490] S512x10
  slices_S512x2560_o0_1710_S512x10 : S512x2560.Slices ![0, 1710] S512x10
  slices_S512x2560_o0_1860_S512x10 : S512x2560.Slices ![0, 1860] S512x10
  slices_S512x2560_o0_1720_S512x10 : S512x2560.Slices ![0, 1720] S512x10
  slices_S512x2560_o0_2020_S512x10 : S512x2560.Slices ![0, 2020] S512x10
  slices_S512x2560_o0_1730_S512x10 : S512x2560.Slices ![0, 1730] S512x10
  slices_S512x2560_o0_2180_S512x10 : S512x2560.Slices ![0, 2180] S512x10
  slices_S512x2560_o0_1740_S512x10 : S512x2560.Slices ![0, 1740] S512x10
  slices_S512x2560_o0_2340_S512x10 : S512x2560.Slices ![0, 2340] S512x10
  slices_S512x2560_o0_1750_S512x10 : S512x2560.Slices ![0, 1750] S512x10
  slices_S512x2560_o0_2500_S512x10 : S512x2560.Slices ![0, 2500] S512x10
  slices_S512x2560_o0_1880_S512x10 : S512x2560.Slices ![0, 1880] S512x10
  slices_S512x2560_o0_2030_S512x10 : S512x2560.Slices ![0, 2030] S512x10
  slices_S512x2560_o0_1890_S512x10 : S512x2560.Slices ![0, 1890] S512x10
  slices_S512x2560_o0_2190_S512x10 : S512x2560.Slices ![0, 2190] S512x10
  slices_S512x2560_o0_1900_S512x10 : S512x2560.Slices ![0, 1900] S512x10
  slices_S512x2560_o0_2350_S512x10 : S512x2560.Slices ![0, 2350] S512x10
  slices_S512x2560_o0_1910_S512x10 : S512x2560.Slices ![0, 1910] S512x10
  slices_S512x2560_o0_2510_S512x10 : S512x2560.Slices ![0, 2510] S512x10
  slices_S512x2560_o0_2050_S512x10 : S512x2560.Slices ![0, 2050] S512x10
  slices_S512x2560_o0_2200_S512x10 : S512x2560.Slices ![0, 2200] S512x10
  slices_S512x2560_o0_2060_S512x10 : S512x2560.Slices ![0, 2060] S512x10
  slices_S512x2560_o0_2360_S512x10 : S512x2560.Slices ![0, 2360] S512x10
  slices_S512x2560_o0_2070_S512x10 : S512x2560.Slices ![0, 2070] S512x10
  slices_S512x2560_o0_2520_S512x10 : S512x2560.Slices ![0, 2520] S512x10
  slices_S512x2560_o0_2220_S512x10 : S512x2560.Slices ![0, 2220] S512x10
  slices_S512x2560_o0_2370_S512x10 : S512x2560.Slices ![0, 2370] S512x10
  slices_S512x2560_o0_2230_S512x10 : S512x2560.Slices ![0, 2230] S512x10
  slices_S512x2560_o0_2530_S512x10 : S512x2560.Slices ![0, 2530] S512x10
  slices_S512x2560_o0_2390_S512x10 : S512x2560.Slices ![0, 2390] S512x10
  slices_S512x2560_o0_2540_S512x10 : S512x2560.Slices ![0, 2540] S512x10
  slices_S512x2560_o0_0_S512x10 : S512x2560.Slices ![0, 0] S512x10
  slices_S512x2560_o0_170_S512x10 : S512x2560.Slices ![0, 170] S512x10
  slices_S512x2560_o0_340_S512x10 : S512x2560.Slices ![0, 340] S512x10
  slices_S512x2560_o0_510_S512x10 : S512x2560.Slices ![0, 510] S512x10
  slices_S512x2560_o0_680_S512x10 : S512x2560.Slices ![0, 680] S512x10
  slices_S512x2560_o0_850_S512x10 : S512x2560.Slices ![0, 850] S512x10
  slices_S512x2560_o0_1020_S512x10 : S512x2560.Slices ![0, 1020] S512x10
  slices_S512x2560_o0_1190_S512x10 : S512x2560.Slices ![0, 1190] S512x10
  slices_S512x2560_o0_1360_S512x10 : S512x2560.Slices ![0, 1360] S512x10
  slices_S512x2560_o0_1530_S512x10 : S512x2560.Slices ![0, 1530] S512x10
  slices_S512x2560_o0_1700_S512x10 : S512x2560.Slices ![0, 1700] S512x10
  slices_S512x2560_o0_1870_S512x10 : S512x2560.Slices ![0, 1870] S512x10
  slices_S512x2560_o0_2040_S512x10 : S512x2560.Slices ![0, 2040] S512x10
  slices_S512x2560_o0_2210_S512x10 : S512x2560.Slices ![0, 2210] S512x10
  slices_S512x2560_o0_2380_S512x10 : S512x2560.Slices ![0, 2380] S512x10
  slices_S512x2560_o0_2550_S512x10 : S512x2560.Slices ![0, 2550] S512x10
  inb_S512x16_S512x16_0_0 : ∀ a, (![0, 0] : Fin 2 → Nat) a + S512x16.size a ≤ S512x16.size a
  h_S512x16 : 0 < S512x16.numel
  shapeCasts_S512x16_S512x16 : S512x16.ShapeCasts S512x16
  concatenates_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x10_S512x16_S512x1376_d1 : Shape.Concatenates (S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x10 :: S512x16 :: []) S512x1376 1
  inb_S512x1376_S512x1376_0_0 : ∀ a, (![0, 0] : Fin 2 → Nat) a + S512x1376.size a ≤ S512x1376.size a
  h_S512x1376 : 0 < S512x1376.numel
  gather_S300000x16x10_S262144x1_S262144x16x10_12_0_n_n_0_1_11610_wf : GatherDims.WF S300000x16x10 S262144x1 S262144x16x10 [1, 2] [0] [] [0] [] 1 ![1, 16, 10]
  gather_S300000x1_S16384x16x1_S16384x16x1_2_0_n_n_0_2_11_wf : GatherDims.WF S300000x1 S16384x16x1 S16384x16x1 [2] [0] [] [0] [] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2560.size a ≤ S16384x2560.size a
  hwx0_0 : ∀ i : grid0.Coords, EltTy.bits .f32 = 32 ∨ (Rect.block (s := S16384x2560) S512x2560.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S16384x16.size a
  hwx0_1 : ∀ i : grid0.Coords, EltTy.bits .f32 = 32 ∨ (Rect.block (s := S16384x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1376.size a ≤ S16384x1376.size a
  hwx0_2 : ∀ i : grid0.Coords, EltTy.bits .f32 = 32 ∨ (Rect.block (s := S16384x1376) S512x1376.size (cc0_transform_2 i) (hinb0_2 i)).WholeWords (EltTy.packing .f32)

variable [Facts₀]

def gather_S300000x16x10_S262144x1_S262144x16x10_12_0_n_n_0_1_11610 : GatherDims S300000x16x10 S262144x1 S262144x16x10 where
  offsetDims := [1, 2]
  collapsedSliceDims := [0]
  operandBatchingDims := []
  startIndicesBatchingDims := []
  startIndexMap := [0]
  indexVectorDim := 1
  sliceSizes := ![1, 16, 10]
  wf := gather_S300000x16x10_S262144x1_S262144x16x10_12_0_n_n_0_1_11610_wf
def gather_S300000x1_S16384x16x1_S16384x16x1_2_0_n_n_0_2_11 : GatherDims S300000x1 S16384x16x1 S16384x16x1 where
  offsetDims := [2]
  collapsedSliceDims := [0]
  operandBatchingDims := []
  startIndicesBatchingDims := []
  startIndexMap := [0]
  indexVectorDim := 2
  sliceSizes := ![1, 1]
  wf := gather_S300000x1_S16384x16x1_S16384x16x1_2_0_n_n_0_2_11_wf

abbrev win0_0 : Pipeline.Window sig grid0 :=
  Pipeline.Window.ofSpec (Memref.whole main_v9) S512x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S512x1376.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x16 : Shape := ⟨2, ![16384, 16]⟩
abbrev S16x300000x10 : Shape := ⟨3, ![16, 300000, 10]⟩
abbrev S300000x1 : Shape := ⟨2, ![300000, 1]⟩
abbrev S_ : Shape := ⟨0, ![]⟩
abbrev S16x16 : Shape := ⟨2, ![16, 16]⟩
abbrev S256 : Shape := ⟨1, ![256]⟩
abbrev S120 : Shape := ⟨1, ![120]⟩
abbrev S256x1 : Shape := ⟨2, ![256, 1]⟩
abbrev S120x1 : Shape := ⟨2, ![120, 1]⟩
abbrev S16384x120 : Shape := ⟨2, ![16384, 120]⟩
abbrev S120x16384 : Shape := ⟨2, ![120, 16384]⟩
abbrev S120x16384x1 : Shape := ⟨3, ![120, 16384, 1]⟩
abbrev S120x16384x2 : Shape := ⟨3, ![120, 16384, 2]⟩
abbrev S120x16384x10 : Shape := ⟨3, ![120, 16384, 10]⟩
abbrev S16384x120x10 : Shape := ⟨3, ![16384, 120, 10]⟩
abbrev S16384x1200 : Shape := ⟨2, ![16384, 1200]⟩
abbrev S16 : Shape := ⟨1, ![16]⟩
abbrev S1x16 : Shape := ⟨2, ![1, 16]⟩
abbrev S16384x16x1 : Shape := ⟨3, ![16384, 16, 1]⟩
abbrev S16384x16x2 : Shape := ⟨3, ![16384, 16, 2]⟩
abbrev S16384x16x10 : Shape := ⟨3, ![16384, 16, 10]⟩
abbrev S16384x160 : Shape := ⟨2, ![16384, 160]⟩
abbrev S16384x1376 : Shape := ⟨2, ![16384, 1376]⟩

abbrev nBuf : Space → Nat
  | .hbm => 216
  | .vmem => 0
  | .smem => 0
  | _ => 0

abbrev hbmTy0_0 (i : Nat) : BufTy := match i % 128 with
  | 0 => ⟨S16384x16, .i32⟩
  | 1 => ⟨S16x300000x10, .f32⟩
  | 2 => ⟨S300000x1, .f32⟩
  | 3 => ⟨S_, .f32⟩
  | 4 => ⟨S16x16, .f32⟩
  | 5 => ⟨S16x16, .i32⟩
  | 6 => ⟨S_, .i32⟩
  | 7 => ⟨S16x16, .i32⟩
  | 8 => ⟨S16x16, .i32⟩
  | 9 => ⟨S16x16, .i32⟩
  | 10 => ⟨S16x16, .i1⟩
  | 11 => ⟨S_, .f32⟩
  | 12 => ⟨S16x16, .f32⟩
  | 13 => ⟨S16x16, .f32⟩
  | 14 => ⟨S_, .f32⟩
  | 15 => ⟨S16x16, .f32⟩
  | 16 => ⟨S16x16, .i1⟩
  | 17 => ⟨S256, .i1⟩
  | 18 => ⟨S256, .i32⟩
  | 19 => ⟨S_, .i32⟩
  | 20 => ⟨S_, .i32⟩
  | 21 => ⟨S256, .i32⟩
  | 22 => ⟨S_, .i32⟩
  | 23 => ⟨S120, .i32⟩
  | 24 => ⟨S_, .i32⟩
  | 25 => ⟨S_, .i32⟩
  | 26 => ⟨S256, .i32⟩
  | 27 => ⟨S256, .i32⟩
  | 28 => ⟨S_, .i32⟩
  | 29 => ⟨S256, .i32⟩
  | 30 => ⟨S256, .i1⟩
  | 31 => ⟨S_, .i32⟩
  | 32 => ⟨S256, .i32⟩
  | 33 => ⟨S256, .i32⟩
  | 34 => ⟨S256, .i32⟩
  | 35 => ⟨S256x1, .i32⟩
  | 36 => ⟨S_, .i32⟩
  | 37 => ⟨S256, .i32⟩
  | 38 => ⟨S120, .i32⟩
  | 39 => ⟨S_, .i32⟩
  | 40 => ⟨S_, .i32⟩
  | 41 => ⟨S120, .i32⟩
  | 42 => ⟨S_, .i32⟩
  | 43 => ⟨S120, .i32⟩
  | 44 => ⟨S120, .i32⟩
  | 45 => ⟨S120, .i32⟩
  | 46 => ⟨S_, .i32⟩
  | 47 => ⟨S120, .i32⟩
  | 48 => ⟨S120, .i1⟩
  | 49 => ⟨S120, .i32⟩
  | 50 => ⟨S120, .i32⟩
  | 51 => ⟨S_, .i32⟩
  | 52 => ⟨S120, .i32⟩
  | 53 => ⟨S120, .i1⟩
  | 54 => ⟨S120, .i1⟩
  | 55 => ⟨S_, .i32⟩
  | 56 => ⟨S120, .i32⟩
  | 57 => ⟨S120, .i32⟩
  | 58 => ⟨S120, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S120, .i32⟩
  | 66 => ⟨S120, .i32⟩
  | 67 => ⟨S_, .i32⟩
  | 68 => ⟨S120, .i32⟩
  | 69 => ⟨S120, .i1⟩
  | 70 => ⟨S_, .i32⟩
  | 71 => ⟨S120, .i32⟩
  | 72 => ⟨S120, .i1⟩
  | 73 => ⟨S_, .i32⟩
  | 74 => ⟨S_, .i1⟩
  | 75 => ⟨S120, .i1⟩
  | 76 => ⟨S120, .i1⟩
  | 77 => ⟨S120, .i1⟩
  | 78 => ⟨S120, .i32⟩
  | 79 => ⟨S120, .i32⟩
  | 80 => ⟨S120, .i32⟩
  | 81 => ⟨S_, .i32⟩
  | 82 => ⟨S120, .i32⟩
  | 83 => ⟨S120, .i32⟩
  | 84 => ⟨S120, .i32⟩
  | 85 => ⟨S_, .i32⟩
  | 86 => ⟨S120, .i32⟩
  | 87 => ⟨S120, .i1⟩
  | 88 => ⟨S120, .i32⟩
  | 89 => ⟨S120, .i32⟩
  | 90 => ⟨S_, .i32⟩
  | 91 => ⟨S120, .i32⟩
  | 92 => ⟨S120, .i1⟩
  | 93 => ⟨S120, .i1⟩
  | 94 => ⟨S_, .i32⟩
  | 95 => ⟨S120, .i32⟩
  | 96 => ⟨S120, .i32⟩
  | 97 => ⟨S120, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S120, .i32⟩
  | 105 => ⟨S120, .i32⟩
  | 106 => ⟨S_, .i32⟩
  | 107 => ⟨S120, .i32⟩
  | 108 => ⟨S120, .i1⟩
  | 109 => ⟨S_, .i32⟩
  | 110 => ⟨S120, .i32⟩
  | 111 => ⟨S120, .i1⟩
  | 112 => ⟨S_, .i32⟩
  | 113 => ⟨S_, .i1⟩
  | 114 => ⟨S120, .i1⟩
  | 115 => ⟨S120, .i1⟩
  | 116 => ⟨S120, .i1⟩
  | 117 => ⟨S120, .i32⟩
  | 118 => ⟨S120, .i32⟩
  | 119 => ⟨S120, .i32⟩
  | 120 => ⟨S120x1, .i32⟩
  | 121 => ⟨S_, .i32⟩
  | 122 => ⟨S120, .i32⟩
  | 123 => ⟨S120, .i1⟩
  | 124 => ⟨S_, .i32⟩
  | 125 => ⟨S120, .i32⟩
  | 126 => ⟨S120, .i32⟩
  | 127 => ⟨S120, .i32⟩
  | _ => ⟨S16384x16, .i32⟩

abbrev hbmTy0_1 (i : Nat) : BufTy := match i % 128 with
  | 0 => ⟨S120x1, .i32⟩
  | 1 => ⟨S16384x120, .i32⟩
  | 2 => ⟨S120x16384, .i32⟩
  | 3 => ⟨S_, .i32⟩
  | 4 => ⟨S120x1, .i32⟩
  | 5 => ⟨S120x1, .i1⟩
  | 6 => ⟨S_, .i32⟩
  | 7 => ⟨S120x1, .i32⟩
  | 8 => ⟨S120x1, .i32⟩
  | 9 => ⟨S120x1, .i32⟩
  | 10 => ⟨S_, .i32⟩
  | 11 => ⟨S120x16384, .i32⟩
  | 12 => ⟨S120x16384, .i1⟩
  | 13 => ⟨S_, .i32⟩
  | 14 => ⟨S120x16384, .i32⟩
  | 15 => ⟨S120x16384, .i32⟩
  | 16 => ⟨S120x16384, .i32⟩
  | 17 => ⟨S120x16384, .i32⟩
  | 18 => ⟨S120x16384x1, .i32⟩
  | 19 => ⟨S120x16384x1, .i32⟩
  | 20 => ⟨S120x16384x2, .i32⟩
  | 21 => ⟨S120x16384x10, .f32⟩
  | 22 => ⟨S120x1, .i32⟩
  | 23 => ⟨S_, .i32⟩
  | 24 => ⟨S120, .i32⟩
  | 25 => ⟨S120, .i1⟩
  | 26 => ⟨S_, .i32⟩
  | 27 => ⟨S120, .i32⟩
  | 28 => ⟨S120, .i32⟩
  | 29 => ⟨S120, .i32⟩
  | 30 => ⟨S120x1, .i32⟩
  | 31 => ⟨S16384x120, .i32⟩
  | 32 => ⟨S120x16384, .i32⟩
  | 33 => ⟨S_, .i32⟩
  | 34 => ⟨S120x1, .i32⟩
  | 35 => ⟨S120x1, .i1⟩
  | 36 => ⟨S_, .i32⟩
  | 37 => ⟨S120x1, .i32⟩
  | 38 => ⟨S120x1, .i32⟩
  | 39 => ⟨S120x1, .i32⟩
  | 40 => ⟨S_, .i32⟩
  | 41 => ⟨S120x16384, .i32⟩
  | 42 => ⟨S120x16384, .i1⟩
  | 43 => ⟨S_, .i32⟩
  | 44 => ⟨S120x16384, .i32⟩
  | 45 => ⟨S120x16384, .i32⟩
  | 46 => ⟨S120x16384, .i32⟩
  | 47 => ⟨S120x16384, .i32⟩
  | 48 => ⟨S120x16384x1, .i32⟩
  | 49 => ⟨S120x16384x1, .i32⟩
  | 50 => ⟨S120x16384x2, .i32⟩
  | 51 => ⟨S120x16384x10, .f32⟩
  | 52 => ⟨S120x16384x10, .f32⟩
  | 53 => ⟨S16384x120x10, .f32⟩
  | 54 => ⟨S16384x1200, .f32⟩
  | 55 => ⟨S16, .i32⟩
  | 56 => ⟨S1x16, .i32⟩
  | 57 => ⟨S_, .i32⟩
  | 58 => ⟨S1x16, .i32⟩
  | 59 => ⟨S1x16, .i1⟩
  | 60 => ⟨S_, .i32⟩
  | 61 => ⟨S1x16, .i32⟩
  | 62 => ⟨S1x16, .i32⟩
  | 63 => ⟨S1x16, .i32⟩
  | 64 => ⟨S_, .i32⟩
  | 65 => ⟨S16384x16, .i32⟩
  | 66 => ⟨S16384x16, .i1⟩
  | 67 => ⟨S_, .i32⟩
  | 68 => ⟨S16384x16, .i32⟩
  | 69 => ⟨S16384x16, .i32⟩
  | 70 => ⟨S16384x16, .i32⟩
  | 71 => ⟨S16384x16, .i32⟩
  | 72 => ⟨S16384x16x1, .i32⟩
  | 73 => ⟨S16384x16x1, .i32⟩
  | 74 => ⟨S16384x16x2, .i32⟩
  | 75 => ⟨S16384x16x10, .f32⟩
  | 76 => ⟨S16384x160, .f32⟩
  | 77 => ⟨S_, .i32⟩
  | 78 => ⟨S16384x16, .i32⟩
  | 79 => ⟨S16384x16, .i1⟩
  | 80 => ⟨S_, .i32⟩
  | 81 => ⟨S16384x16, .i32⟩
  | 82 => ⟨S16384x16, .i32⟩
  | 83 => ⟨S16384x16, .i32⟩
  | 84 => ⟨S16384x16x1, .i32⟩
  | 85 => ⟨S16384x16x1, .f32⟩
  | 86 => ⟨S16384x16, .f32⟩
  | 87 => ⟨S16384x1376, .f32⟩
  | _ => ⟨S16384x16, .i32⟩

abbrev hbmTy (i : Nat) : BufTy := match i / 128 with
  | 0 => hbmTy0_0 i
  | 1 => hbmTy0_1 i
  | _ => ⟨S16384x16, .i32⟩

abbrev bufTy : (tb : Table) → Fin (tcTables nBuf tb) → BufTy
  | .hbm, ⟨i, _⟩ => hbmTy i
  | _, _ => ⟨S16384x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_call1_v0 : Ref sig .tc := ⟨.hbm, 17, rfl⟩
abbrev main_call1_v1 : Ref sig .tc := ⟨.hbm, 18, rfl⟩
abbrev main_call1_call0_c : Ref sig .tc := ⟨.hbm, 19, rfl⟩
abbrev main_call1_call0_v0 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_c_1 : Ref sig .tc := ⟨.hbm, 24, rfl⟩
abbrev main_call2_v0 : Ref sig .tc := ⟨.hbm, 25, rfl⟩
abbrev main_call2_v1 : Ref sig .tc := ⟨.hbm, 26, rfl⟩
abbrev main_v6 : Ref sig .tc := ⟨.hbm, 27, rfl⟩
abbrev main_c_2 : Ref sig .tc := ⟨.hbm, 28, rfl⟩
abbrev main_v7 : Ref sig .tc := ⟨.hbm, 29, rfl⟩
abbrev main_v8 : Ref sig .tc := ⟨.hbm, 30, rfl⟩
abbrev main_c_3 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_4 : Ref sig .tc := ⟨.hbm, 36, rfl⟩
abbrev main_v13 : Ref sig .tc := ⟨.hbm, 37, rfl⟩
abbrev main_v14 : Ref sig .tc := ⟨.hbm, 38, rfl⟩
abbrev main_call3_call0_c : Ref sig .tc := ⟨.hbm, 39, rfl⟩
abbrev main_call3_call0_v0 : Ref sig .tc := ⟨.hbm, 40, rfl⟩
abbrev main_v15 : Ref sig .tc := ⟨.hbm, 41, rfl⟩
abbrev main_c_5 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_call4_v5 : Ref sig .tc := ⟨.hbm, 48, rfl⟩
abbrev main_call4_v6 : Ref sig .tc := ⟨.hbm, 49, rfl⟩
abbrev main_call4_v7 : Ref sig .tc := ⟨.hbm, 50, rfl⟩
abbrev main_call4_c : Ref sig .tc := ⟨.hbm, 51, rfl⟩
abbrev main_call4_v8 : Ref sig .tc := ⟨.hbm, 52, rfl⟩
abbrev main_call4_v9 : Ref sig .tc := ⟨.hbm, 53, rfl⟩
abbrev main_call4_v10 : Ref sig .tc := ⟨.hbm, 54, rfl⟩
abbrev main_call4_c_0 : Ref sig .tc := ⟨.hbm, 55, rfl⟩
abbrev main_call4_v11 : Ref sig .tc := ⟨.hbm, 56, rfl⟩
abbrev main_call4_v12 : Ref sig .tc := ⟨.hbm, 57, rfl⟩
abbrev main_v16 : Ref sig .tc := ⟨.hbm, 58, rfl⟩
abbrev main_c_6 : Ref sig .tc := ⟨.hbm, 59, rfl⟩
abbrev main_call5_v0 : Ref sig .tc := ⟨.hbm, 60, rfl⟩
abbrev main_call5_c : Ref sig .tc := ⟨.hbm, 61, rfl⟩
abbrev main_call5_v1 : Ref sig .tc := ⟨.hbm, 62, rfl⟩
abbrev main_call5_c_0 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_call5_c_1 : Ref sig .tc := ⟨.hbm, 67, rfl⟩
abbrev main_call5_v5 : Ref sig .tc := ⟨.hbm, 68, rfl⟩
abbrev main_call5_v6 : Ref sig .tc := ⟨.hbm, 69, rfl⟩
abbrev main_call5_c_2 : Ref sig .tc := ⟨.hbm, 70, rfl⟩
abbrev main_call5_v7 : Ref sig .tc := ⟨.hbm, 71, rfl⟩
abbrev main_call5_v8 : Ref sig .tc := ⟨.hbm, 72, rfl⟩
abbrev main_call5_c_3 : Ref sig .tc := ⟨.hbm, 73, rfl⟩
abbrev main_call5_v9 : Ref sig .tc := ⟨.hbm, 74, rfl⟩
abbrev main_call5_v10 : Ref sig .tc := ⟨.hbm, 75, rfl⟩
abbrev main_call5_v11 : Ref sig .tc := ⟨.hbm, 76, rfl⟩
abbrev main_call5_v12 : Ref sig .tc := ⟨.hbm, 77, rfl⟩
abbrev main_call5_v13 : Ref sig .tc := ⟨.hbm, 78, rfl⟩
abbrev main_call5_v14 : Ref sig .tc := ⟨.hbm, 79, rfl⟩
abbrev main_v17 : Ref sig .tc := ⟨.hbm, 80, rfl⟩
abbrev main_c_7 : Ref sig .tc := ⟨.hbm, 81, rfl⟩
abbrev main_call6_v0 : Ref sig .tc := ⟨.hbm, 82, rfl⟩
abbrev main_call6_v1 : Ref sig .tc := ⟨.hbm, 83, rfl⟩
abbrev main_call6_v2 : Ref sig .tc := ⟨.hbm, 84, rfl⟩
abbrev main_call6_v3 : Ref sig .tc := ⟨.hbm, 85, rfl⟩
abbrev main_call6_v4 : Ref sig .tc := ⟨.hbm, 86, rfl⟩
abbrev main_call6_v5 : Ref sig .tc := ⟨.hbm, 87, rfl⟩
abbrev main_call6_v6 : Ref sig .tc := ⟨.hbm, 88, rfl⟩
abbrev main_call6_v7 : Ref sig .tc := ⟨.hbm, 89, rfl⟩
abbrev main_call6_c : Ref sig .tc := ⟨.hbm, 90, rfl⟩
abbrev main_call6_v8 : Ref sig .tc := ⟨.hbm, 91, rfl⟩
abbrev main_call6_v9 : Ref sig .tc := ⟨.hbm, 92, rfl⟩
abbrev main_call6_v10 : Ref sig .tc := ⟨.hbm, 93, rfl⟩
abbrev main_call6_c_0 : Ref sig .tc := ⟨.hbm, 94, rfl⟩
abbrev main_call6_v11 : Ref sig .tc := ⟨.hbm, 95, rfl⟩
abbrev main_call6_v12 : Ref sig .tc := ⟨.hbm, 96, rfl⟩
abbrev main_v18 : Ref sig .tc := ⟨.hbm, 97, rfl⟩
abbrev main_c_8 : Ref sig .tc := ⟨.hbm, 98, rfl⟩
abbrev main_call7_v0 : Ref sig .tc := ⟨.hbm, 99, rfl⟩
abbrev main_call7_c : Ref sig .tc := ⟨.hbm, 100, rfl⟩
abbrev main_call7_v1 : Ref sig .tc := ⟨.hbm, 101, rfl⟩
abbrev main_call7_c_0 : Ref sig .tc := ⟨.hbm, 102, rfl⟩
abbrev main_call7_v2 : Ref sig .tc := ⟨.hbm, 103, rfl⟩
abbrev main_call7_v3 : Ref sig .tc := ⟨.hbm, 104, rfl⟩
abbrev main_call7_v4 : Ref sig .tc := ⟨.hbm, 105, rfl⟩
abbrev main_call7_c_1 : Ref sig .tc := ⟨.hbm, 106, rfl⟩
abbrev main_call7_v5 : Ref sig .tc := ⟨.hbm, 107, rfl⟩
abbrev main_call7_v6 : Ref sig .tc := ⟨.hbm, 108, rfl⟩
abbrev main_call7_c_2 : Ref sig .tc := ⟨.hbm, 109, rfl⟩
abbrev main_call7_v7 : Ref sig .tc := ⟨.hbm, 110, rfl⟩
abbrev main_call7_v8 : Ref sig .tc := ⟨.hbm, 111, rfl⟩
abbrev main_call7_c_3 : Ref sig .tc := ⟨.hbm, 112, rfl⟩
abbrev main_call7_v9 : Ref sig .tc := ⟨.hbm, 113, rfl⟩
abbrev main_call7_v10 : Ref sig .tc := ⟨.hbm, 114, rfl⟩
abbrev main_call7_v11 : Ref sig .tc := ⟨.hbm, 115, rfl⟩
abbrev main_call7_v12 : Ref sig .tc := ⟨.hbm, 116, rfl⟩
abbrev main_call7_v13 : Ref sig .tc := ⟨.hbm, 117, rfl⟩
abbrev main_call7_v14 : Ref sig .tc := ⟨.hbm, 118, rfl⟩
abbrev main_v19 : Ref sig .tc := ⟨.hbm, 119, rfl⟩
abbrev main_v20 : Ref sig .tc := ⟨.hbm, 120, rfl⟩
abbrev main_c_9 : Ref sig .tc := ⟨.hbm, 121, rfl⟩
abbrev main_v21 : Ref sig .tc := ⟨.hbm, 122, rfl⟩
abbrev main_v22 : Ref sig .tc := ⟨.hbm, 123, rfl⟩
abbrev main_c_10 : Ref sig .tc := ⟨.hbm, 124, rfl⟩
abbrev main_v23 : Ref sig .tc := ⟨.hbm, 125, rfl⟩
abbrev main_v24 : Ref sig .tc := ⟨.hbm, 126, rfl⟩
abbrev main_v25 : Ref sig .tc := ⟨.hbm, 127, rfl⟩
abbrev main_v26 : Ref sig .tc := ⟨.hbm, 128, rfl⟩
abbrev main_v27 : Ref sig .tc := ⟨.hbm, 129, rfl⟩
abbrev main_v28 : Ref sig .tc := ⟨.hbm, 130, rfl⟩
abbrev main_c_11 : Ref sig .tc := ⟨.hbm, 131, rfl⟩
abbrev main_v29 : Ref sig .tc := ⟨.hbm, 132, rfl⟩
abbrev main_v30 : Ref sig .tc := ⟨.hbm, 133, rfl⟩
abbrev main_c_12 : Ref sig .tc := ⟨.hbm, 134, rfl⟩
abbrev main_v31 : Ref sig .tc := ⟨.hbm, 135, rfl⟩
abbrev main_v32 : Ref sig .tc := ⟨.hbm, 136, rfl⟩
abbrev main_v33 : Ref sig .tc := ⟨.hbm, 137, rfl⟩
abbrev main_c_13 : Ref sig .tc := ⟨.hbm, 138, rfl⟩
abbrev main_v34 : Ref sig .tc := ⟨.hbm, 139, rfl⟩
abbrev main_v35 : Ref sig .tc := ⟨.hbm, 140, rfl⟩
abbrev main_c_14 : Ref sig .tc := ⟨.hbm, 141, rfl⟩
abbrev main_v36 : Ref sig .tc := ⟨.hbm, 142, rfl⟩
abbrev main_v37 : Ref sig .tc := ⟨.hbm, 143, rfl⟩
abbrev main_v38 : Ref sig .tc := ⟨.hbm, 144, rfl⟩
abbrev main_v39 : Ref sig .tc := ⟨.hbm, 145, rfl⟩
abbrev main_v40 : Ref sig .tc := ⟨.hbm, 146, rfl⟩
abbrev main_v41 : Ref sig .tc := ⟨.hbm, 147, rfl⟩
abbrev main_v42 : Ref sig .tc := ⟨.hbm, 148, rfl⟩
abbrev main_v43 : Ref sig .tc := ⟨.hbm, 149, rfl⟩
abbrev main_v44 : Ref sig .tc := ⟨.hbm, 150, rfl⟩
abbrev main_c_15 : Ref sig .tc := ⟨.hbm, 151, rfl⟩
abbrev main_v45 : Ref sig .tc := ⟨.hbm, 152, rfl⟩
abbrev main_v46 : Ref sig .tc := ⟨.hbm, 153, rfl⟩
abbrev main_c_16 : Ref sig .tc := ⟨.hbm, 154, rfl⟩
abbrev main_v47 : Ref sig .tc := ⟨.hbm, 155, rfl⟩
abbrev main_v48 : Ref sig .tc := ⟨.hbm, 156, rfl⟩
abbrev main_v49 : Ref sig .tc := ⟨.hbm, 157, rfl⟩
abbrev main_v50 : Ref sig .tc := ⟨.hbm, 158, rfl⟩
abbrev main_v51 : Ref sig .tc := ⟨.hbm, 159, rfl⟩
abbrev main_v52 : Ref sig .tc := ⟨.hbm, 160, rfl⟩
abbrev main_c_17 : Ref sig .tc := ⟨.hbm, 161, rfl⟩
abbrev main_v53 : Ref sig .tc := ⟨.hbm, 162, rfl⟩
abbrev main_v54 : Ref sig .tc := ⟨.hbm, 163, rfl⟩
abbrev main_c_18 : Ref sig .tc := ⟨.hbm, 164, rfl⟩
abbrev main_v55 : Ref sig .tc := ⟨.hbm, 165, rfl⟩
abbrev main_v56 : Ref sig .tc := ⟨.hbm, 166, rfl⟩
abbrev main_v57 : Ref sig .tc := ⟨.hbm, 167, rfl⟩
abbrev main_c_19 : Ref sig .tc := ⟨.hbm, 168, rfl⟩
abbrev main_v58 : Ref sig .tc := ⟨.hbm, 169, rfl⟩
abbrev main_v59 : Ref sig .tc := ⟨.hbm, 170, rfl⟩
abbrev main_c_20 : Ref sig .tc := ⟨.hbm, 171, rfl⟩
abbrev main_v60 : Ref sig .tc := ⟨.hbm, 172, rfl⟩
abbrev main_v61 : Ref sig .tc := ⟨.hbm, 173, rfl⟩
abbrev main_v62 : Ref sig .tc := ⟨.hbm, 174, rfl⟩
abbrev main_v63 : Ref sig .tc := ⟨.hbm, 175, rfl⟩
abbrev main_v64 : Ref sig .tc := ⟨.hbm, 176, rfl⟩
abbrev main_v65 : Ref sig .tc := ⟨.hbm, 177, rfl⟩
abbrev main_v66 : Ref sig .tc := ⟨.hbm, 178, rfl⟩
abbrev main_v67 : Ref sig .tc := ⟨.hbm, 179, rfl⟩
abbrev main_v68 : Ref sig .tc := ⟨.hbm, 180, rfl⟩
abbrev main_v69 : Ref sig .tc := ⟨.hbm, 181, rfl⟩
abbrev main_v70 : Ref sig .tc := ⟨.hbm, 182, rfl⟩
abbrev main_v71 : Ref sig .tc := ⟨.hbm, 183, rfl⟩
abbrev main_v72 : Ref sig .tc := ⟨.hbm, 184, rfl⟩
abbrev main_c_21 : Ref sig .tc := ⟨.hbm, 185, rfl⟩
abbrev main_v73 : Ref sig .tc := ⟨.hbm, 186, rfl⟩
abbrev main_v74 : Ref sig .tc := ⟨.hbm, 187, rfl⟩
abbrev main_c_22 : Ref sig .tc := ⟨.hbm, 188, rfl⟩
abbrev main_v75 : Ref sig .tc := ⟨.hbm, 189, rfl⟩
abbrev main_v76 : Ref sig .tc := ⟨.hbm, 190, rfl⟩
abbrev main_v77 : Ref sig .tc := ⟨.hbm, 191, rfl⟩
abbrev main_c_23 : Ref sig .tc := ⟨.hbm, 192, rfl⟩
abbrev main_v78 : Ref sig .tc := ⟨.hbm, 193, rfl⟩
abbrev main_v79 : Ref sig .tc := ⟨.hbm, 194, rfl⟩
abbrev main_c_24 : Ref sig .tc := ⟨.hbm, 195, rfl⟩
abbrev main_v80 : Ref sig .tc := ⟨.hbm, 196, rfl⟩
abbrev main_v81 : Ref sig .tc := ⟨.hbm, 197, rfl⟩
abbrev main_v82 : Ref sig .tc := ⟨.hbm, 198, rfl⟩
abbrev main_v83 : Ref sig .tc := ⟨.hbm, 199, rfl⟩
abbrev main_v84 : Ref sig .tc := ⟨.hbm, 200, rfl⟩
abbrev main_v85 : Ref sig .tc := ⟨.hbm, 201, rfl⟩
abbrev main_v86 : Ref sig .tc := ⟨.hbm, 202, rfl⟩
abbrev main_v87 : Ref sig .tc := ⟨.hbm, 203, rfl⟩
abbrev main_v88 : Ref sig .tc := ⟨.hbm, 204, rfl⟩
abbrev main_c_25 : Ref sig .tc := ⟨.hbm, 205, rfl⟩
abbrev main_v89 : Ref sig .tc := ⟨.hbm, 206, rfl⟩
abbrev main_v90 : Ref sig .tc := ⟨.hbm, 207, rfl⟩
abbrev main_c_26 : Ref sig .tc := ⟨.hbm, 208, rfl⟩
abbrev main_v91 : Ref sig .tc := ⟨.hbm, 209, rfl⟩
abbrev main_v92 : Ref sig .tc := ⟨.hbm, 210, rfl⟩
abbrev main_v93 : Ref sig .tc := ⟨.hbm, 211, rfl⟩
abbrev main_v94 : Ref sig .tc := ⟨.hbm, 212, rfl⟩
abbrev main_v95 : Ref sig .tc := ⟨.hbm, 213, rfl⟩
abbrev main_v96 : Ref sig .tc := ⟨.hbm, 214, rfl⟩
abbrev main_v97 : Ref sig .tc := ⟨.hbm, 215, rfl⟩

abbrev nD : Nat := 1
abbrev τ : Topo := Topo.v7x

variable {F : FTy → Type} [FloatOps F]

class Facts₀ : Prop where
  bcast_S_S16x16 : S_.BroadcastsInDim S16x16 (![] : Fin 0 → Fin S16x16.rank)
  shapeCasts_S16x16_S256 : S16x16.ShapeCasts S256
  natLt_1_32 : 1 < 32
  bcast_S_S_ : S_.BroadcastsInDim S_ (![] : Fin 0 → Fin S_.rank)
  reduceWindows_S256_S256_w256s1p255_0 : S256.ReduceWindows (![256] : Fin 1 → Nat) ![1] ![255] ![0] S256
  h_S_ : 0 < S_.numel
  bcast_S_S120 : S_.BroadcastsInDim S120 (![] : Fin 0 → Fin S120.rank)
  bcast_S_S256 : S_.BroadcastsInDim S256 (![] : Fin 0 → Fin S256.rank)
  bcast_S256_S256x1_0 : S256.BroadcastsInDim S256x1 (![0] : Fin 1 → Fin S256x1.rank)
  reduceWindows_S120_S120_w120s1p119_0 : S120.ReduceWindows (![120] : Fin 1 → Nat) ![1] ![119] ![0] S120
  bcast_S120_S120x1_0 : S120.BroadcastsInDim S120x1 (![0] : Fin 1 → Fin S120x1.rank)
  transposes_S16384x120_S120x16384_1_0 : S16384x120.Transposes [1, 0] S120x16384
  bcast_S_S120x1 : S_.BroadcastsInDim S120x1 (![] : Fin 0 → Fin S120x1.rank)
  bcast_S_S120x16384 : S_.BroadcastsInDim S120x16384 (![] : Fin 0 → Fin S120x16384.rank)
  bcast_S120x1_S120x16384_0_1 : S120x1.BroadcastsInDim S120x16384 (![0, 1] : Fin 2 → Fin S120x16384.rank)
  bcast_S120x16384_S120x16384x1_0_1 : S120x16384.BroadcastsInDim S120x16384x1 (![0, 1] : Fin 2 → Fin S120x16384x1.rank)
  concatenates_S120x16384x1_S120x16384x1_S120x16384x2_d2 : Shape.Concatenates [S120x16384x1, S120x16384x1] S120x16384x2 2
  transposes_S120x16384x10_S16384x120x10_1_0_2 : S120x16384x10.Transposes [1, 0, 2] S16384x120x10
  shapeCasts_S16384x120x10_S16384x1200 : S16384x120x10.ShapeCasts S16384x1200
  bcast_S16_S1x16_1 : S16.BroadcastsInDim S1x16 (![1] : Fin 1 → Fin S1x16.rank)
  bcast_S_S1x16 : S_.BroadcastsInDim S1x16 (![] : Fin 0 → Fin S1x16.rank)
  bcast_S_S16384x16 : S_.BroadcastsInDim S16384x16 (![] : Fin 0 → Fin S16384x16.rank)
  bcast_S1x16_S16384x16_0_1 : S1x16.BroadcastsInDim S16384x16 (![0, 1] : Fin 2 → Fin S16384x16.rank)
  bcast_S16384x16_S16384x16x1_0_1 : S16384x16.BroadcastsInDim S16384x16x1 (![0, 1] : Fin 2 → Fin S16384x16x1.rank)
  concatenates_S16384x16x1_S16384x16x1_S16384x16x2_d2 : Shape.Concatenates [S16384x16x1, S16384x16x1] S16384x16x2 2
  shapeCasts_S16384x16x10_S16384x160 : S16384x16x10.ShapeCasts S16384x160
  shapeCasts_S16384x16x1_S16384x16 : S16384x16x1.ShapeCasts S16384x16
  concatenates_S16384x1200_S16384x160_S16384x16_S16384x1376_d1 : Shape.Concatenates [S16384x1200, S16384x160, S16384x16] S16384x1376 1
  scatter_S120_S256x1_S256_n_0_0_1_wf : ScatterDims.WF S120 S256x1 S256 [] [0] [0] 1
  gather_S16384x16_S120x1_S16384x120_0_1_n_n_1_1_163841_wf : GatherDims.WF S16384x16 S120x1 S16384x120 [0] [1] [] [1] [] 1 ![16384, 1]
  gather_S16x300000x10_S120x16384x2_S120x16384x10_2_01_n_n_01_2_1110_wf : GatherDims.WF S16x300000x10 S120x16384x2 S120x16384x10 [2] [0, 1] [] [0, 1] [] 2 ![1, 1, 10]
  gather_S16x300000x10_S16384x16x2_S16384x16x10_2_01_n_n_01_2_1110_wf : GatherDims.WF S16x300000x10 S16384x16x2 S16384x16x10 [2] [0, 1] [] [0, 1] [] 2 ![1, 1, 10]
  gather_S300000x1_S16384x16x1_S16384x16x1_2_0_n_n_0_2_11_wf : GatherDims.WF S300000x1 S16384x16x1 S16384x16x1 [2] [0] [] [0] [] 2 ![1, 1]

variable [Facts₀]

def scatter_S120_S256x1_S256_n_0_0_1 : ScatterDims S120 S256x1 S256 where
  updateWindowDims := []
  insertedWindowDims := [0]
  scatterDimsToOperandDims := [0]
  indexVectorDim := 1
  wf := scatter_S120_S256x1_S256_n_0_0_1_wf
def gather_S16384x16_S120x1_S16384x120_0_1_n_n_1_1_163841 : GatherDims S16384x16 S120x1 S16384x120 where
  offsetDims := [0]
  collapsedSliceDims := [1]
  operandBatchingDims := []
  startIndicesBatchingDims := []
  startIndexMap := [1]
  indexVectorDim := 1
  sliceSizes := ![16384, 1]
  wf := gather_S16384x16_S120x1_S16384x120_0_1_n_n_1_1_163841_wf
def gather_S16x300000x10_S120x16384x2_S120x16384x10_2_01_n_n_01_2_1110 : GatherDims S16x300000x10 S120x16384x2 S120x16384x10 where
  offsetDims := [2]
  collapsedSliceDims := [0, 1]
  operandBatchingDims := []
  startIndicesBatchingDims := []
  startIndexMap := [0, 1]
  indexVectorDim := 2
  sliceSizes := ![1, 1, 10]
  wf := gather_S16x300000x10_S120x16384x2_S120x16384x10_2_01_n_n_01_2_1110_wf
def gather_S16x300000x10_S16384x16x2_S16384x16x10_2_01_n_n_01_2_1110 : GatherDims S16x300000x10 S16384x16x2 S16384x16x10 where
  offsetDims := [2]
  collapsedSliceDims := [0, 1]
  operandBatchingDims := []
  startIndicesBatchingDims := []
  startIndexMap := [0, 1]
  indexVectorDim := 2
  sliceSizes := ![1, 1, 10]
  wf := gather_S16x300000x10_S16384x16x2_S16384x16x10_2_01_n_n_01_2_1110_wf
def gather_S300000x1_S16384x16x1_S16384x16x1_2_0_n_n_0_2_11 : GatherDims S300000x1 S16384x16x1 S16384x16x1 where
  offsetDims := [2]
  collapsedSliceDims := [0]
  operandBatchingDims := []
  startIndicesBatchingDims := []
  startIndexMap := [0]
  indexVectorDim := 2
  sliceSizes := ![1, 1]
  wf := gather_S300000x1_S16384x16x1_S16384x16x1_2_0_n_n_0_2_11_wf

class Facts : Prop extends Facts₀ where

variable [Facts]
-- ==== Proof.Spec.lean ====
/-
  The function both programs compute, index by index, and the small vocabulary it is written in.

  There are 16 fields, a table of 300000 rows of 10 numbers per field, and 16384 samples; sample `b` carries one
  row number per field, `x[b, f]`. Write `val b f q d = emb[q, row(x[b, f]), d]`: the entry `d` of the row that
  field `f`'s number selects in field `q`'s table. A result row has 1376 entries:
    * for each of the 120 pairs `i < j` of fields, in the order `(0,1), (0,2), …, (14,15)`, the ten products
      `val b i j d * val b j i d`;
    * for each field `i` the ten numbers `val b i i d`;
    * for each field `f` the number `lin[row(x[b, f]), 0]`.
  A row number is a 32-bit word: a negative one counts from the end of the table (300000 is added), and the word is
  then read signed and clamped into `[0, 299999]` (`rowOf`).
-/
import Idealize.ShloMosaic.PureOps.Ideal
import Idealize.ShloMosaic.Lib.ValueIdx

noncomputable section

namespace Cert.Spec

open Idealize.ShloMosaic Idealize.ShloMosaic.ValueIdx

/-- The first fields of the 120 pairs `i < j`, `i` outer and ascending, `j` inner. -/
def pairIs : List (Fin 16) := [0, 0, 0, 0, 0, 0, 0, 0, 0, 0, 0, 0, 0, 0, 0, 1, 1, 1, 1, 1, 1, 1, 1, 1, 1, 1, 1, 1, 1, 2, 2, 2, 2, 2, 2, 2, 2, 2, 2, 2, 2, 2, 3, 3, 3, 3, 3, 3, 3, 3, 3, 3, 3, 3, 4, 4, 4, 4, 4, 4, 4, 4, 4, 4, 4, 5, 5, 5, 5, 5, 5, 5, 5, 5, 5, 6, 6, 6, 6, 6, 6, 6, 6, 6, 7, 7, 7, 7, 7, 7, 7, 7, 8, 8, 8, 8, 8, 8, 8, 9, 9, 9, 9, 9, 9, 10, 10, 10, 10, 10, 11, 11, 11, 11, 12, 12, 12, 13, 13, 14]
/-- The second fields of the 120 pairs, in the same order. -/
def pairJs : List (Fin 16) := [1, 2, 3, 4, 5, 6, 7, 8, 9, 10, 11, 12, 13, 14, 15, 2, 3, 4, 5, 6, 7, 8, 9, 10, 11, 12, 13, 14, 15, 3, 4, 5, 6, 7, 8, 9, 10, 11, 12, 13, 14, 15, 4, 5, 6, 7, 8, 9, 10, 11, 12, 13, 14, 15, 5, 6, 7, 8, 9, 10, 11, 12, 13, 14, 15, 6, 7, 8, 9, 10, 11, 12, 13, 14, 15, 7, 8, 9, 10, 11, 12, 13, 14, 15, 8, 9, 10, 11, 12, 13, 14, 15, 9, 10, 11, 12, 13, 14, 15, 10, 11, 12, 13, 14, 15, 11, 12, 13, 14, 15, 12, 13, 14, 15, 13, 14, 15, 14, 15, 15]

/-- The smaller field of pair `p`. -/
def pairI (p : Fin 120) : Fin 16 := pairIs.getD p.val 0
/-- The larger field of pair `p`. -/
def pairJ (p : Fin 120) : Fin 16 := pairJs.getD p.val 0

/-- A negative row number counts from the end of a table of 300000 rows. -/
def wrapW (v : BitVec 32) : BitVec 32 := Scalar.select (IntOp.cmpi .slt v 0#32) (IntOp.addi v 300000#32) v

/-- The row a word selects: wrapped, read signed, clamped into the table. -/
def rowOf (v : BitVec 32) : Fin 300000 := ⟨min (wrapW v).toInt.toNat 299999, by omega⟩

variable (x : (⟨2, ![16384, 16]⟩ : Shape).Idx → BitVec 32) (emb : (⟨3, ![16, 300000, 10]⟩ : Shape).Idx → EReal)
  (lin : (⟨2, ![300000, 1]⟩ : Shape).Idx → EReal)

/-- `emb[q, row(x[b, f]), d]`: entry `d` of the row field `f`'s number selects in field `q`'s table. -/
def val (b : Fin 16384) (f q : Fin 16) (d : Fin 10) : EReal := emb (ix3 q (rowOf (x (ix2 b f))) d)

/-- Entry `d` of pair `p`'s product. -/
def pairEntry (b : Fin 16384) (p : Fin 120) (d : Fin 10) : EReal :=
  val x emb b (pairI p) (pairJ p) d * val x emb b (pairJ p) (pairI p) d

/-- Entry `d` of field `i`'s own row. -/
def selfEntry (b : Fin 16384) (i : Fin 16) (d : Fin 10) : EReal := val x emb b i i d

/-- Field `f`'s linear term. -/
def linEntry (b : Fin 16384) (f : Fin 16) : EReal := lin (ix2 (rowOf (x (ix2 b f))) (0 : Fin 1))

/-- The whole result, index by index: columns `0 … 1199` the pair products (pair `col / 10`, entry `col % 10`),
    columns `1200 … 1359` the fields' own rows, columns `1360 … 1375` the linear terms. -/
def G : (⟨2, ![16384, 1376]⟩ : Shape).Idx → EReal := fun j =>
  if h : (j 1).val < 1200 then
    pairEntry x emb (j 0) ⟨(j 1).val / 10, by omega⟩ ⟨(j 1).val % 10, by omega⟩
  else if h2 : (j 1).val < 1360 then
    selfEntry x emb (j 0) ⟨((j 1).val - 1200) / 10, by omega⟩ ⟨((j 1).val - 1200) % 10, by omega⟩
  else linEntry x lin (j 0) ⟨(j 1).val - 1360, by have := idx2_lt1 j; omega⟩

theorem pair_col_lt (p : Fin 120) (d : Fin 10) : 10 * p.val + d.val < 1376 := by omega
theorem self_col_lt (i : Fin 16) (d : Fin 10) : 1200 + 10 * i.val + d.val < 1376 := by omega
theorem lin_col_lt (f : Fin 16) : 1360 + f.val < 1376 := by omega

/-- `G` at a pair column. -/
theorem G_pair (b : Fin 16384) (p : Fin 120) (d : Fin 10) :
    G x emb lin (ix2 b ⟨10 * p.val + d.val, pair_col_lt p d⟩) = pairEntry x emb b p d := by
  have h : 10 * p.val + d.val < 1200 := by omega
  unfold G
  rw [dif_pos (show ((ix2 b (⟨10 * p.val + d.val, pair_col_lt p d⟩ : Fin 1376)) 1).val < 1200 from h)]
  congr 1
  · exact Fin.ext (show (10 * p.val + d.val) / 10 = p.val by omega)
  · exact Fin.ext (show (10 * p.val + d.val) % 10 = d.val by omega)

/-- `G` at a column of a field's own row. -/
theorem G_self (b : Fin 16384) (i : Fin 16) (d : Fin 10) :
    G x emb lin (ix2 b ⟨1200 + 10 * i.val + d.val, self_col_lt i d⟩) = selfEntry x emb b i d := by
  unfold G
  rw [dif_neg (show ¬ ((ix2 b (⟨1200 + 10 * i.val + d.val, self_col_lt i d⟩ : Fin 1376)) 1).val < 1200 from by
      show ¬ (1200 + 10 * i.val + d.val < 1200); omega),
    dif_pos (show ((ix2 b (⟨1200 + 10 * i.val + d.val, self_col_lt i d⟩ : Fin 1376)) 1).val < 1360 from by
      show 1200 + 10 * i.val + d.val < 1360; omega)]
  congr 1
  · exact Fin.ext (show (1200 + 10 * i.val + d.val - 1200) / 10 = i.val by omega)
  · exact Fin.ext (show (1200 + 10 * i.val + d.val - 1200) % 10 = d.val by omega)

/-- `G` at a linear-term column. -/
theorem G_lin (b : Fin 16384) (f : Fin 16) :
    G x emb lin (ix2 b ⟨1360 + f.val, lin_col_lt f⟩) = linEntry x lin b f := by
  unfold G
  rw [dif_neg (show ¬ ((ix2 b (⟨1360 + f.val, lin_col_lt f⟩ : Fin 1376)) 1).val < 1200 from by
      show ¬ (1360 + f.val < 1200); omega),
    dif_neg (show ¬ ((ix2 b (⟨1360 + f.val, lin_col_lt f⟩ : Fin 1376)) 1).val < 1360 from by
      show ¬ (1360 + f.val < 1360); omega)]
  congr 1
  exact Fin.ext (show 1360 + f.val - 1360 = f.val by omega)

/-- Where `val b f q d` sits in a sample's row of the 2560 gathered numbers: position `(f * 16 + q) * 10 + d`. -/
def slot (f q : Fin 16) (d : Fin 10) : Fin 2560 := ⟨(f.val * 16 + q.val) * 10 + d.val, by omega⟩

/-- One result row from a sample's 2560 gathered numbers `g` (entry `slot f q d` is `val b f q d`) and its 16
    linear terms `l`: the pair products, the fields' own rows, the linear terms. -/
def rowG (g : Fin 2560 → EReal) (l : Fin 16 → EReal) (c : Fin 1376) : EReal :=
  if h : c.val < 1200 then
    g (slot (pairI ⟨c.val / 10, by omega⟩) (pairJ ⟨c.val / 10, by omega⟩) ⟨c.val % 10, by omega⟩)
      * g (slot (pairJ ⟨c.val / 10, by omega⟩) (pairI ⟨c.val / 10, by omega⟩) ⟨c.val % 10, by omega⟩)
  else if h2 : c.val < 1360 then
    g (slot ⟨(c.val - 1200) / 10, by omega⟩ ⟨(c.val - 1200) / 10, by omega⟩ ⟨(c.val - 1200) % 10, by omega⟩)
  else l ⟨c.val - 1360, by have := c.isLt; omega⟩

/-- `rowG` at a pair column. -/
theorem rowG_pair (g : Fin 2560 → EReal) (l : Fin 16 → EReal) (p : Fin 120) (d : Fin 10) :
    rowG g l ⟨10 * p.val + d.val, pair_col_lt p d⟩ = g (slot (pairI p) (pairJ p) d) * g (slot (pairJ p) (pairI p) d) := by
  have e1 : (⟨(10 * p.val + d.val) / 10, by omega⟩ : Fin 120) = p := Fin.ext (show (10 * p.val + d.val) / 10 = p.val by omega)
  have e2 : (⟨(10 * p.val + d.val) % 10, by omega⟩ : Fin 10) = d := Fin.ext (show (10 * p.val + d.val) % 10 = d.val by omega)
  unfold rowG
  rw [dif_pos (show (10 * p.val + d.val) < 1200 by omega)]
  simp only [e1, e2]

/-- `rowG` at a column of a field's own row. -/
theorem rowG_self (g : Fin 2560 → EReal) (l : Fin 16 → EReal) (i : Fin 16) (d : Fin 10) :
    rowG g l ⟨1200 + 10 * i.val + d.val, self_col_lt i d⟩ = g (slot i i d) := by
  have e1 : (⟨(1200 + 10 * i.val + d.val - 1200) / 10, by omega⟩ : Fin 16) = i :=
    Fin.ext (show (1200 + 10 * i.val + d.val - 1200) / 10 = i.val by omega)
  have e2 : (⟨(1200 + 10 * i.val + d.val - 1200) % 10, by omega⟩ : Fin 10) = d :=
    Fin.ext (show (1200 + 10 * i.val + d.val - 1200) % 10 = d.val by omega)
  unfold rowG
  rw [dif_neg (show ¬ (1200 + 10 * i.val + d.val) < 1200 by omega), dif_pos (show (1200 + 10 * i.val + d.val) < 1360 by omega)]
  simp only [e1, e2]

/-- `rowG` at a linear-term column. -/
theorem rowG_lin (g : Fin 2560 → EReal) (l : Fin 16 → EReal) (f : Fin 16) :
    rowG g l ⟨1360 + f.val, lin_col_lt f⟩ = l f := by
  unfold rowG
  rw [dif_neg (show ¬ (1360 + f.val) < 1200 by omega), dif_neg (show ¬ (1360 + f.val) < 1360 by omega)]
  exact congrArg l (Fin.ext (show 1360 + f.val - 1360 = f.val by omega))

/-- Every column is of exactly one of the three kinds. -/
theorem col_cases (c : Fin 1376) :
    (∃ (p : Fin 120) (d : Fin 10), c.val = 10 * p.val + d.val) ∨
    (∃ (i : Fin 16) (d : Fin 10), c.val = 1200 + 10 * i.val + d.val) ∨
    (∃ f : Fin 16, c.val = 1360 + f.val) := by
  by_cases h : c.val < 1200
  · exact Or.inl ⟨⟨c.val / 10, by omega⟩, ⟨c.val % 10, by omega⟩, by show c.val = 10 * (c.val / 10) + c.val % 10; omega⟩
  · by_cases h2 : c.val < 1360
    · exact Or.inr (Or.inl ⟨⟨(c.val - 1200) / 10, by omega⟩, ⟨(c.val - 1200) % 10, by omega⟩, by
        show c.val = 1200 + 10 * ((c.val - 1200) / 10) + (c.val - 1200) % 10; omega⟩)
    · exact Or.inr (Or.inr ⟨⟨c.val - 1360, by have := c.isLt; omega⟩, by show c.val = 1360 + (c.val - 1360); omega⟩)

/-- The whole result row by row: when a sample's gathered numbers and linear terms are what their names say, its
    result row is `rowG` of them. -/
theorem G_eq_rowG (b : Fin 16384) (g : Fin 2560 → EReal) (l : Fin 16 → EReal)
    (hg : ∀ (f q : Fin 16) (d : Fin 10), g (slot f q d) = val x emb b f q d)
    (hl : ∀ f : Fin 16, l f = linEntry x lin b f) (c : Fin 1376) :
    G x emb lin (ix2 b c) = rowG g l c := by
  rcases col_cases c with ⟨p, d, hc⟩ | ⟨i, d, hc⟩ | ⟨f, hc⟩
  · obtain rfl : c = ⟨10 * p.val + d.val, pair_col_lt p d⟩ := Fin.ext hc
    rw [G_pair, rowG_pair, hg, hg]; rfl
  · obtain rfl : c = ⟨1200 + 10 * i.val + d.val, self_col_lt i d⟩ := Fin.ext hc
    rw [G_self, rowG_self, hg]; rfl
  · obtain rfl : c = ⟨1360 + f.val, lin_col_lt f⟩ := Fin.ext hc
    rw [G_lin, rowG_lin, hl]

end Cert.Spec

end
-- ==== Proof.BodyValue.lean ====
/-
  A concatenation of 136 ten-column blocks and one sixteen-column block, read at an index.

  The kernel stores one concatenation along the columns of 137 pieces: 120 products of two ten-column slices of a
  loaded block `x0` of 512 rows of 2560 numbers, 16 plain ten-column slices of `x0`, and a loaded block `x1` of 512
  rows of 16 numbers. The slices start at the columns `slot f q 0 = (f * 16 + q) * 10`: pair `p = (i, j)` multiplies the
  slices at `slot i j 0` and `slot j i 0`, field `i`'s own piece is the slice at `slot i i 0`. Hence row `r`, column
  `c` of the concatenation is `Spec.rowG` of row `r` of `x0` and of `x1` (`concat_apply`).

  First such a concatenation is read at an index for any list of ten-column blocks (column `10 * k + d` is entry `d`
  of block `k`); then the kernel's 136 blocks are named as a list computed from the pair tables.
-/
import proofs.«178268_j47347719471684_2_alg».proof.Proof.Gen.KernelIdeal.Skeleton
import proofs.«178268_j47347719471684_2_alg».proof.Proof.Spec
import Idealize.ShloMosaic.Lib.Pipeline.Value
import Idealize.ShloMosaic.Lib.ValueIdx

noncomputable section

namespace Cert.KernelIdeal.Body

open Idealize.ShloMosaic Idealize.ShloMosaic.ValueIdx
open Cert.KernelIdeal Cert.Spec

/-! ## A concatenation of ten-column blocks and one sixteen-column block, read at an index -/

variable {α : Type}

/-- The pieces of the concatenation: the ten-column blocks `ps` in order, then the sixteen-column block `q`. -/
def pieces (ps : List (S512x10.Idx → α)) (q : S512x16.Idx → α) : List ((s : Shape) × (s.Idx → α)) :=
  ps.map (fun p => ⟨S512x10, p⟩) ++ [⟨S512x16, q⟩]

/-- The widths of the first `k` pieces sum to `10 * k` while `k` stays within the ten-column blocks. -/
theorem pieces_pre (g : Shape → Nat) (hg : g S512x10 = 10) (q : S512x16.Idx → α) :
    ∀ (ps : List (S512x10.Idx → α)) (k : Nat), k ≤ ps.length →
      ((((pieces ps q).take k).map (·.1)).map g).sum = 10 * k
  | _, 0, _ => by simp
  | [], k + 1, hk => absurd hk (by simp)
  | p :: ps, k + 1, hk => by
    have ih := pieces_pre g hg q ps k (by simpa using hk)
    simp only [pieces, List.map_cons, List.cons_append, List.take_succ_cons, List.sum_cons] at ih ⊢
    rw [ih, hg]; omega

/-- There is one piece more than there are ten-column blocks. -/
theorem pieces_length (ps : List (S512x10.Idx → α)) (q : S512x16.Idx → α) : (pieces ps q).length = ps.length + 1 := by
  simp [pieces]

/-- Column `10 * k + d` of the concatenation is entry `d` of the ten-column block `k`. -/
theorem concat_block (ps : List (S512x10.Idx → α)) (q : S512x16.Idx → α)
    (h : Shape.Concatenates ((pieces ps q).map (·.1)) S512x1376 (1 : Fin S512x1376.rank))
    (k : Nat) (hk : k < ps.length) (r : Fin 512) (d : Fin 10) (hc : 10 * k + d.val < 1376) :
    concatenate S512x1376 (1 : Fin S512x1376.rank) (pieces ps q) h (ix2 r (⟨10 * k + d.val, hc⟩ : Fin 1376))
      = ps[k] (ix2 r d) := by
  refine concatenate_apply_piece (1 : Fin S512x1376.rank) (pieces ps q) h _ k (by rw [pieces_length]; omega)
    S512x10 ps[k] ?_ rfl (10 * k) ?_ (ix2 r d) ?_ rfl
  · simp only [pieces]
    rw [List.getElem_append_left (by simpa using hk), List.getElem_map]
  · exact pieces_pre _ rfl q ps k (Nat.le_of_lt hk)
  · intro b
    match b with
    | ⟨0, _⟩ => exact fun _ => rfl
    | ⟨1, _⟩ => exact fun hb => absurd rfl hb

/-- Column `10 * n + f`, `n` the number of ten-column blocks, is entry `f` of the last block. -/
theorem concat_last (ps : List (S512x10.Idx → α)) (q : S512x16.Idx → α)
    (h : Shape.Concatenates ((pieces ps q).map (·.1)) S512x1376 (1 : Fin S512x1376.rank))
    (r : Fin 512) (f : Fin 16) (hc : 10 * ps.length + f.val < 1376) :
    concatenate S512x1376 (1 : Fin S512x1376.rank) (pieces ps q) h (ix2 r (⟨10 * ps.length + f.val, hc⟩ : Fin 1376))
      = q (ix2 r f) := by
  refine concatenate_apply_piece (1 : Fin S512x1376.rank) (pieces ps q) h _ ps.length (by rw [pieces_length]; omega)
    S512x16 q ?_ rfl (10 * ps.length) ?_ (ix2 r f) ?_ rfl
  · simp only [pieces]
    rw [List.getElem_append_right (by simp)]
    simp
  · exact pieces_pre _ rfl q ps ps.length (Nat.le_refl _)
  · intro b
    match b with
    | ⟨0, _⟩ => exact fun _ => rfl
    | ⟨1, _⟩ => exact fun hb => absurd rfl hb

/-! ## The blocks the kernel concatenates

Every ten-column block is cut from the loaded block `v` at a column `slot f q 0`: pair `p`'s block is the product of
the slices at `slot (pairI p) (pairJ p) 0` and `slot (pairJ p) (pairI p) 0`, field `i`'s own block is the slice at
`slot i i 0`. -/

/-- Ten columns from column `a` fit in the 2560 when `a + 10 ≤ 2560`. -/
theorem slices_ok (a : Nat) (h : a + 10 ≤ 2560) : S512x2560.Slices ![0, a] S512x10 :=
  ⟨rfl, fun b => match b with
    | ⟨0, _⟩ => by show 0 + 512 ≤ 512; omega
    | ⟨1, _⟩ => h⟩

/-- Every slice column `slot f q 0` leaves room for ten columns. -/
theorem slot_le (f q : Fin 16) : (slot f q 0).val + 10 ≤ 2560 := by
  show (f.val * 16 + q.val) * 10 + 0 + 10 ≤ 2560; omega

/-- A ten-column slice from column `a`, read at `(r, d)`, is the operand at `(r, a + d)`. -/
theorem slice_apply (v : S512x2560.Idx → α) (a : Nat) (ha : S512x2560.Slices ![0, a] S512x10) (r : Fin 512) (d : Fin 10)
    (hl : a + d.val < 2560) :
    extractStridedSlice S512x10 ![0, a] v ha (ix2 r d) = v (ix2 r (⟨a + d.val, hl⟩ : Fin 2560)) :=
  extractStridedSlice_apply _ v ha _ _ fun b => match b with
    | ⟨0, _⟩ => by show r.val = 0 + r.val; omega
    | ⟨1, _⟩ => rfl

/-- The slice from column `slot f q 0`, read at `(r, d)`, is the operand at `(r, slot f q d)`. -/
theorem slice_slot (v : S512x2560.Idx → α) (f q : Fin 16) (r : Fin 512) (d : Fin 10) :
    extractStridedSlice S512x10 ![0, (slot f q 0).val] v (slices_ok _ (slot_le f q)) (ix2 r d) = v (ix2 r (slot f q d)) := by
  rw [slice_apply v _ _ r d (by show (f.val * 16 + q.val) * 10 + 0 + d.val < 2560; omega)]
  exact congrArg (fun s => v (ix2 r s))
    (Fin.ext (by show (f.val * 16 + q.val) * 10 + 0 + d.val = (f.val * 16 + q.val) * 10 + d.val; omega))

/-- Pair `p`'s block: the product of the two slices. -/
def pairBlock (v : FVec Ideal S512x2560 .f32) (p : Fin 120) : FVec Ideal S512x10 .f32 :=
  mulf (extractStridedSlice S512x10 ![0, (slot (pairI p) (pairJ p) 0).val] v (slices_ok _ (slot_le _ _)))
    (extractStridedSlice S512x10 ![0, (slot (pairJ p) (pairI p) 0).val] v (slices_ok _ (slot_le _ _)))

/-- Field `i`'s own block: one slice. -/
def selfBlock (v : FVec Ideal S512x2560 .f32) (i : Fin 16) : FVec Ideal S512x10 .f32 :=
  extractStridedSlice S512x10 ![0, (slot i i 0).val] v (slices_ok _ (slot_le _ _))

/-- Pair `p`'s block at `(r, d)`: the product of row `r` of `v` at the two slots of the pair. -/
theorem pairBlock_apply (v : FVec Ideal S512x2560 .f32) (p : Fin 120) (r : Fin 512) (d : Fin 10) :
    pairBlock v p (ix2 r d) = v (ix2 r (slot (pairI p) (pairJ p) d)) * v (ix2 r (slot (pairJ p) (pairI p) d)) := by
  unfold pairBlock
  rw [mulf_apply, slice_slot, slice_slot]

/-- Field `i`'s own block at `(r, d)`: row `r` of `v` at the field's own slot. -/
theorem selfBlock_apply (v : FVec Ideal S512x2560 .f32) (i : Fin 16) (r : Fin 512) (d : Fin 10) :
    selfBlock v i (ix2 r d) = v (ix2 r (slot i i d)) := by
  unfold selfBlock
  rw [slice_slot]

/-- The 136 ten-column blocks in the kernel's order: the 120 pairs, then the 16 fields. -/
def blocks (v : FVec Ideal S512x2560 .f32) : List (FVec Ideal S512x10 .f32) :=
  List.ofFn (pairBlock v) ++ List.ofFn (selfBlock v)

theorem blocks_length (v : FVec Ideal S512x2560 .f32) : (blocks v).length = 136 := by
  simp [blocks]

/-- Block `p`, for `p < 120`, is pair `p`'s. -/
theorem blocks_pair (v : FVec Ideal S512x2560 .f32) (p : Fin 120) :
    (blocks v)[p.val]'(by rw [blocks_length]; omega) = pairBlock v p := by
  simp only [blocks]
  rw [List.getElem_append_left (by simp), List.getElem_ofFn]

/-- Block `120 + i` is field `i`'s own. -/
theorem blocks_self (v : FVec Ideal S512x2560 .f32) (i : Fin 16) :
    (blocks v)[120 + i.val]'(by rw [blocks_length]; omega) = selfBlock v i := by
  simp only [blocks]
  rw [List.getElem_append_right (by simp), List.getElem_ofFn]
  exact congrArg (selfBlock v) (Fin.ext (by simp))

/-- The blocks and the sixteen-column block make up the 1376 columns. -/
theorem pieces_ok (v : FVec Ideal S512x2560 .f32) (q : FVec Ideal S512x16 .f32) :
    Shape.Concatenates ((pieces (blocks v) q).map (·.1)) S512x1376 (1 : Fin S512x1376.rank) := by
  have e : (pieces (blocks v) q).map (·.1) = List.replicate 136 S512x10 ++ [S512x16] := by
    simp only [pieces, List.map_append, List.map_map, List.map_cons, List.map_nil]
    refine congrArg (· ++ [S512x16]) (List.map_const'.trans ?_)
    rw [blocks_length]
  rw [e]
  decide

/-! ## The concatenation at an index -/

/-- Column `d` of block `120 + i` is within the 1376 columns. -/
theorem self_col_lt' (i : Fin 16) (d : Fin 10) : 10 * (120 + i.val) + d.val < 1376 := by omega

/-- The sixteen columns after the 136 blocks are within the 1376 columns. -/
theorem last_col_lt (v : FVec Ideal S512x2560 .f32) (f : Fin 16) : 10 * (blocks v).length + f.val < 1376 := by
  rw [blocks_length]; omega

/-- Row `r`, column `c` of the concatenation of the blocks of `x0` and of `x1` is `rowG` of row `r` of `x0` and of
    `x1`. -/
theorem concat_apply (x0 : FVec Ideal S512x2560 .f32) (x1 : FVec Ideal S512x16 .f32) (r : Fin 512) (c : Fin 1376) :
    concatenate S512x1376 (1 : Fin S512x1376.rank) (pieces (blocks x0) x1) (pieces_ok x0 x1) (ix2 r c)
      = rowG (fun s => x0 (ix2 r s)) (fun f => x1 (ix2 r f)) c := by
  rcases col_cases c with ⟨p, d, hc⟩ | ⟨i, d, hc⟩ | ⟨f, hc⟩
  · obtain rfl : c = ⟨10 * p.val + d.val, pair_col_lt p d⟩ := Fin.ext hc
    rw [rowG_pair, concat_block (blocks x0) x1 _ p.val (by rw [blocks_length]; omega) r d, blocks_pair, pairBlock_apply]
  · obtain rfl : c = ⟨1200 + 10 * i.val + d.val, self_col_lt i d⟩ := Fin.ext hc
    have e : (⟨1200 + 10 * i.val + d.val, self_col_lt i d⟩ : Fin 1376) = ⟨10 * (120 + i.val) + d.val, self_col_lt' i d⟩ :=
      Fin.ext (by show 1200 + 10 * i.val + d.val = 10 * (120 + i.val) + d.val; omega)
    rw [rowG_self, e, concat_block (blocks x0) x1 _ (120 + i.val) (by rw [blocks_length]; omega) r d, blocks_self,
      selfBlock_apply]
  · obtain rfl : c = ⟨1360 + f.val, lin_col_lt f⟩ := Fin.ext hc
    have e : (⟨1360 + f.val, lin_col_lt f⟩ : Fin 1376) = ⟨10 * (blocks x0).length + f.val, last_col_lt x0 f⟩ :=
      Fin.ext (by show 1360 + f.val = 10 * (blocks x0).length + f.val; rw [blocks_length])
    rw [rowG_lin, e, concat_last (blocks x0) x1 _ r f]

/-- The two casts to the same shape around the loaded blocks drop out of the concatenation. -/
theorem concat_casts (x0 : FVec Ideal S512x2560 .f32) (x1 : FVec Ideal S512x16 .f32) :
    concatenate S512x1376 (1 : Fin S512x1376.rank)
        (pieces (blocks (Gen.k0_pay3 x0)) (shapeCast S512x16 x1 Gen.shapeCasts_S512x16_S512x16)) (pieces_ok _ _)
      = concatenate S512x1376 (1 : Fin S512x1376.rank) (pieces (blocks x0) x1) (pieces_ok x0 x1) := by
  have e3 : Gen.k0_pay3 x0 = x0 := shapeCast_self _ _
  have e16 : shapeCast S512x16 x1 Gen.shapeCasts_S512x16_S512x16 = x1 := shapeCast_self _ _
  rw [e3, e16]

end Cert.KernelIdeal.Body

end
-- ==== Proof.Body.lean ====
/-
  The kernel body read at an index.

  The body loads a block `x0` of 512 rows of 2560 numbers and a block `x1` of 512 rows of 16 numbers, both whole, and
  stores, whole, one concatenation along the columns of 137 pieces: 120 products of two ten-column slices of `x0`, 16
  plain ten-column slices of `x0`, and `x1`. That concatenation is the one of the blocks `Body.blocks x0` and of `x1`,
  so row `r`, column `c` of what is stored is `Spec.rowG` of row `r` of `x0` and of `x1` (`out_apply`).
-/
import proofs.«178268_j47347719471684_2_alg».proof.Proof.FrameKernelIdeal
import proofs.«178268_j47347719471684_2_alg».proof.Proof.BodyValue

noncomputable section

namespace Cert.KernelIdeal.Body

open Idealize.ShloMosaic Idealize.ShloMosaic.ValueIdx
open Cert.KernelIdeal Cert.Spec

/-- The zero offsets, as a constant function. -/
theorem zeros2 : (![0, 0] : Fin 2 → Nat) = fun _ => 0 := by
  funext a; match a with | ⟨0, _⟩ => rfl | ⟨1, _⟩ => rfl

/-- What the body stores is the concatenation of the blocks of the loaded `x0` and of `x1`. -/
theorem out_eq_concat (x0 : Vec Ideal S512x2560 .f32) (x1 : Vec Ideal S512x16 .f32) :
    GenP.out0_2 x0 x1 = concatenate S512x1376 (1 : Fin S512x1376.rank) (pieces (blocks x0) x1) (pieces_ok x0 x1) := by
  refine Eq.trans ?_ (concat_casts x0 x1)
  unfold GenP.out0_2
  rw [View.canon_unit_zero zeros2]
  simp only [View.ld_unit_zero (S := S512x2560) zeros2, View.ld_unit_zero (S := S512x16) zeros2]
  -- the stored list of 137 pieces is `pieces (blocks …) …` entry by entry: each slice's literal column is the value
  -- of `slot` at the fields the pair tables give for its position
  rfl

/-- **The kernel body at an index**: row `r`, column `c` of what the body stores is `rowG` of row `r` of the two
    loaded blocks. -/
theorem out_apply (x0 : Vec Ideal S512x2560 .f32) (x1 : Vec Ideal S512x16 .f32) (r : Fin 512) (c : Fin 1376) :
    GenP.out0_2 x0 x1 (ix2 r c) = rowG (fun s => x0 (ix2 r s)) (fun f => x1 (ix2 r f)) c := by
  rw [out_eq_concat, concat_apply]

end Cert.KernelIdeal.Body

end
-- ==== Proof.KHost.lean ====
/-
  The two arrays the kernel's program hands its blocked loop, read index by index.  Before the loop the program
  flattens the row numbers, wraps the negative ones, gathers from the tables re-laid as [300000, 16, 10] the 160
  numbers of each selected row, and lays the result out as one row of 2560 numbers per sample; and it gathers the
  linear terms the same way into one row of 16 numbers per sample.
-/
import proofs.«178268_j47347719471684_2_alg».proof.Proof.ValueKernelIdeal
import proofs.«178268_j47347719471684_2_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KRun

open Cert.KernelIdeal Cert.KernelIdeal.Gen Cert.KernelIdeal.GenP Idealize.ShloMosaic Idealize.ShloMosaic.ValueIdx Idealize.ShloMosaic.StableHlo

/-! ## The two gathers at an index -/

section Gather
variable {α : Type}

/-- The gather of table rows: result entry `(n, q, d)` is the re-laid table at row `idx[n, 0]` (read signed and clamped
    into `[0, 299999]`: the row `r`), entry `(q, d)`. -/
theorem gather_rows_apply (T : S300000x16x10.Idx → α) (idx : IVec S262144x1 32) (n : Fin 262144) (q : Fin 16) (d : Fin 10)
    (r : Fin 300000) (hr : r.val = min (idx (ix2 n (0 : Fin 1))).toInt.toNat (300000 - 1)) :
    Host.gather gather_S300000x16x10_S262144x1_S262144x16x10_12_0_n_n_0_1_11610 T idx (ix3 n q d) = T (ix3 r q d) := by
  unfold Host.gather
  refine congrArg T (funext fun a => Fin.ext ?_)
  match a with
  | ⟨0, _⟩ =>
    show gather_S300000x16x10_S262144x1_S262144x16x10_12_0_n_n_0_1_11610.start (ix3 n q d) idx 0
        + gather_S300000x16x10_S262144x1_S262144x16x10_12_0_n_n_0_1_11610.batchCoord (ix3 n q d) 0
        + gather_S300000x16x10_S262144x1_S262144x16x10_12_0_n_n_0_1_11610.offCoord (ix3 n q d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S300000x16x10_S262144x1_S262144x16x10_12_0_n_n_0_1_11610.startIndexMap from List.mem_singleton.mpr rfl)]
    have hsi : gather_S300000x16x10_S262144x1_S262144x16x10_12_0_n_n_0_1_11610.siIdx (ix3 n q d)
        ⟨List.idxOf (0 : Fin 3) gather_S300000x16x10_S262144x1_S262144x16x10_12_0_n_n_0_1_11610.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    exact hr.symm
  | ⟨1, _⟩ =>
    show gather_S300000x16x10_S262144x1_S262144x16x10_12_0_n_n_0_1_11610.start (ix3 n q d) idx 1
        + gather_S300000x16x10_S262144x1_S262144x16x10_12_0_n_n_0_1_11610.batchCoord (ix3 n q d) 1
        + gather_S300000x16x10_S262144x1_S262144x16x10_12_0_n_n_0_1_11610.offCoord (ix3 n q d) 1 = q.val
    rw [GatherDims.batchCoord_eq_zero _ _ _ List.not_mem_nil]
    unfold GatherDims.start GatherDims.offCoord
    rw [dif_neg (show ¬ (1 : Fin 3) ∈ gather_S300000x16x10_S262144x1_S262144x16x10_12_0_n_n_0_1_11610.startIndexMap by decide),
      dif_pos (show (1 : Fin 3) ∈ gather_S300000x16x10_S262144x1_S262144x16x10_12_0_n_n_0_1_11610.sKept by decide)]
    simp only [Nat.zero_add, Nat.add_zero]
    rfl
  | ⟨2, _⟩ =>
    show gather_S300000x16x10_S262144x1_S262144x16x10_12_0_n_n_0_1_11610.start (ix3 n q d) idx 2
        + gather_S300000x16x10_S262144x1_S262144x16x10_12_0_n_n_0_1_11610.batchCoord (ix3 n q d) 2
        + gather_S300000x16x10_S262144x1_S262144x16x10_12_0_n_n_0_1_11610.offCoord (ix3 n q d) 2 = d.val
    rw [GatherDims.batchCoord_eq_zero _ _ _ List.not_mem_nil]
    unfold GatherDims.start GatherDims.offCoord
    rw [dif_neg (show ¬ (2 : Fin 3) ∈ gather_S300000x16x10_S262144x1_S262144x16x10_12_0_n_n_0_1_11610.startIndexMap by decide),
      dif_pos (show (2 : Fin 3) ∈ gather_S300000x16x10_S262144x1_S262144x16x10_12_0_n_n_0_1_11610.sKept by decide)]
    simp only [Nat.zero_add, Nat.add_zero]
    rfl

/-- The gather of linear terms: result entry `(b, f, u)` is the table at row `idx[b, f, 0]` (read signed and clamped into
    `[0, 299999]`: the row `r`), entry `u`. -/
theorem gather_lin_apply (L : S300000x1.Idx → α) (idx : IVec S16384x16x1 32) (b : Fin 16384) (f : Fin 16) (u : Fin 1)
    (r : Fin 300000) (hr : r.val = min (idx (ix3 b f (0 : Fin 1))).toInt.toNat (300000 - 1)) :
    Host.gather gather_S300000x1_S16384x16x1_S16384x16x1_2_0_n_n_0_2_11 L idx (ix3 b f u) = L (ix2 r u) := by
  unfold Host.gather
  refine congrArg L (funext fun a => Fin.ext ?_)
  match a with
  | ⟨0, _⟩ =>
    show gather_S300000x1_S16384x16x1_S16384x16x1_2_0_n_n_0_2_11.start (ix3 b f u) idx 0
        + gather_S300000x1_S16384x16x1_S16384x16x1_2_0_n_n_0_2_11.batchCoord (ix3 b f u) 0
        + gather_S300000x1_S16384x16x1_S16384x16x1_2_0_n_n_0_2_11.offCoord (ix3 b f u) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S300000x1_S16384x16x1_S16384x16x1_2_0_n_n_0_2_11.startIndexMap from List.mem_singleton.mpr rfl)]
    have hsi : gather_S300000x1_S16384x16x1_S16384x16x1_2_0_n_n_0_2_11.siIdx (ix3 b f u)
        ⟨List.idxOf (0 : Fin 2) gather_S300000x1_S16384x16x1_S16384x16x1_2_0_n_n_0_2_11.startIndexMap,
          List.idxOf_lt_length_iff.2 (List.mem_singleton.mpr rfl)⟩ = ix3 b f (0 : Fin 1) := by
      funext k; refine Fin.ext ?_
      match k with
      | ⟨0, _⟩ => rfl
      | ⟨1, _⟩ => rfl
      | ⟨2, _⟩ => rfl
    rw [hsi]
    exact hr.symm
  | ⟨1, _⟩ =>
    show gather_S300000x1_S16384x16x1_S16384x16x1_2_0_n_n_0_2_11.start (ix3 b f u) idx 1
        + gather_S300000x1_S16384x16x1_S16384x16x1_2_0_n_n_0_2_11.batchCoord (ix3 b f u) 1
        + gather_S300000x1_S16384x16x1_S16384x16x1_2_0_n_n_0_2_11.offCoord (ix3 b f u) 1 = u.val
    rw [GatherDims.batchCoord_eq_zero _ _ _ List.not_mem_nil]
    unfold GatherDims.start GatherDims.offCoord
    rw [dif_neg (show ¬ (1 : Fin 2) ∈ gather_S300000x1_S16384x16x1_S16384x16x1_2_0_n_n_0_2_11.startIndexMap by decide),
      dif_pos (show (1 : Fin 2) ∈ gather_S300000x1_S16384x16x1_S16384x16x1_2_0_n_n_0_2_11.sKept by decide)]
    simp only [Nat.zero_add, Nat.add_zero]
    rfl

end Gather

/-! ## The two arrays as terms of the arguments, read at an index -/

section Terms
variable {α : Type}

/-- A row number wrapped, as the program writes it on a whole array: `select (v < 0) (v + 300000) v`. -/
def wrapAll {s : Shape} (bc : IVec S_ 32 → IVec s 32) (v : IVec s 32) : IVec s 32 :=
  select (cmpi .slt v (bc (constantI S_ 32 0#32))) (addi v (bc (constantI S_ 32 300000#32))) v

/-- The row numbers flattened to one vector of 262144 and wrapped. -/
def flatRows (x : S16384x16.Idx → BitVec 32) : IVec S262144 32 :=
  wrapAll (broadcastInDim S262144 ![] bcast_S_S262144) (shapeCast S262144 x shapeCasts_S16384x16_S262144)

/-- The gathered table entries: per sample one row of 2560 numbers. -/
def gathered (x : S16384x16.Idx → BitVec 32) (emb : S16x300000x10.Idx → α) : S16384x2560.Idx → α :=
  shapeCast S16384x2560
    (Host.gather gather_S300000x16x10_S262144x1_S262144x16x10_12_0_n_n_0_1_11610
      (transpose S300000x16x10 [1, 0, 2] emb transposes_S16x300000x10_S300000x16x10_1_0_2)
      (broadcastInDim S262144x1 ![0] bcast_S262144_S262144x1_0 (flatRows x)))
    shapeCasts_S262144x16x10_S16384x2560

/-- The gathered linear terms: per sample one row of 16 numbers. -/
def gatheredLin (x : S16384x16.Idx → BitVec 32) (lin : S300000x1.Idx → α) : S16384x16.Idx → α :=
  shapeCast S16384x16
    (Host.gather gather_S300000x1_S16384x16x1_S16384x16x1_2_0_n_n_0_2_11 lin
      (broadcastInDim S16384x16x1 ![0, 1] bcast_S16384x16_S16384x16x1_0_1
        (wrapAll (broadcastInDim S16384x16 ![] bcast_S_S16384x16) x)))
    shapeCasts_S16384x16x1_S16384x16

/-- Entry `16 b + f` of the flattened, wrapped row numbers is sample `b`'s number for field `f`, wrapped. -/
theorem flatRows_apply (x : S16384x16.Idx → BitVec 32) (b : Fin 16384) (f : Fin 16) (n : Fin 262144) (hn : n.val = b.val * 16 + f.val) :
    flatRows x (ix1 n) = Spec.wrapW (x (ix2 b f)) := by
  have e : shapeCast S262144 x shapeCasts_S16384x16_S262144 (ix1 n) = x (ix2 b f) :=
    shapeCast_apply x _ _ _ (by
      rw [Shape.rowMajor_val_two, Shape.rowMajor_val_one]
      show b.val * 16 + f.val = n.val
      omega)
  show Scalar.select (IntOp.cmpi .slt (shapeCast S262144 x shapeCasts_S16384x16_S262144 (ix1 n)) 0#32)
      (IntOp.addi (shapeCast S262144 x shapeCasts_S16384x16_S262144 (ix1 n)) 300000#32)
      (shapeCast S262144 x shapeCasts_S16384x16_S262144 (ix1 n)) = _
  rw [e]
  rfl

/-- Entry `slot f q d` of sample `b`'s gathered row is `val b f q d`. -/
theorem gathered_apply (x : S16384x16.Idx → BitVec 32) (emb : S16x300000x10.Idx → α) (b : Fin 16384) (f q : Fin 16) (d : Fin 10) :
    gathered x emb (ix2 b (Spec.slot f q d)) = emb (ix3 q (Spec.rowOf (x (ix2 b f))) d) := by
  have hn : b.val * 16 + f.val < 262144 := by omega
  have hidx : broadcastInDim S262144x1 ![0] bcast_S262144_S262144x1_0 (flatRows x) (ix2 (⟨b.val * 16 + f.val, hn⟩ : Fin 262144) (0 : Fin 1))
      = Spec.wrapW (x (ix2 b f)) := by
    rw [broadcastInDim_apply ![0] bcast_S262144_S262144x1_0 (flatRows x) _ (ix1 (⟨b.val * 16 + f.val, hn⟩ : Fin 262144)) (fun a => by
      obtain rfl : a = 0 := Subsingleton.elim _ _
      rfl)]
    exact flatRows_apply x b f _ rfl
  unfold gathered
  rw [shapeCast_apply _ shapeCasts_S262144x16x10_S16384x2560 (ix2 b (Spec.slot f q d)) (ix3 (⟨b.val * 16 + f.val, hn⟩ : Fin 262144) q d) (by
      rw [Shape.rowMajor_val_three, Shape.rowMajor_val_two]
      show ((b.val * 16 + f.val) * 16 + q.val) * 10 + d.val = b.val * 2560 + ((f.val * 16 + q.val) * 10 + d.val)
      omega)]
  rw [gather_rows_apply _ _ _ q d (Spec.rowOf (x (ix2 b f))) (by rw [hidx]; rfl)]
  exact transpose_apply [1, 0, 2] emb transposes_S16x300000x10_S300000x16x10_1_0_2 _ _ (fun c =>
    match c with
    | ⟨0, _⟩ => rfl
    | ⟨1, _⟩ => rfl
    | ⟨2, _⟩ => rfl)

/-- Entry `f` of sample `b`'s gathered linear terms is the linear table at the row field `f`'s number selects. -/
theorem gatheredLin_apply (x : S16384x16.Idx → BitVec 32) (lin : S300000x1.Idx → α) (b : Fin 16384) (f : Fin 16) :
    gatheredLin x lin (ix2 b f) = lin (ix2 (Spec.rowOf (x (ix2 b f))) (0 : Fin 1)) := by
  have hidx : broadcastInDim S16384x16x1 ![0, 1] bcast_S16384x16_S16384x16x1_0_1
      (wrapAll (broadcastInDim S16384x16 ![] bcast_S_S16384x16) x) (ix3 b f (0 : Fin 1)) = Spec.wrapW (x (ix2 b f)) := by
    rw [broadcastInDim_apply ![0, 1] bcast_S16384x16_S16384x16x1_0_1 _ _ (ix2 b f) (fun a => by
      match a with
      | ⟨0, _⟩ => rfl
      | ⟨1, _⟩ => rfl)]
    rfl
  unfold gatheredLin
  rw [shapeCast_apply _ shapeCasts_S16384x16x1_S16384x16 (ix2 b f) (ix3 b f (0 : Fin 1)) (by
      rw [Shape.rowMajor_val_three, Shape.rowMajor_val_two]
      show (b.val * 16 + f.val) * 1 + 0 = b.val * 16 + f.val
      omega)]
  exact gather_lin_apply _ _ b f 0 (Spec.rowOf (x (ix2 b f))) (by rw [hidx]; rfl)

end Terms

/-! ## The loop's two input arrays are those terms -/

section Host
open Idealize.ShloMosaic.TcCoe Idealize.SL.Sem

variable (m : (ℓ : Loc nD τ sig) → Buf (Elt Ideal) ℓ)

/-- The first input array, as the loop finds it, is the gathered table entries of the launch arguments. -/
theorem V_v9 (c : Dev nD) :
    (GenP.V m c main_v9 : S16384x2560.Idx → EReal)
      = gathered (m ((c : Thread nD τ).loc main_arg0)) (m ((c : Thread nD τ).loc main_arg1)) := by
  dsimp only [GenP.V, Gen.hostOps0]
  after_results
  rfl

/-- The second input array, as the loop finds it, is the gathered linear terms of the launch arguments. -/
theorem V_v17 (c : Dev nD) :
    (GenP.V m c main_v17 : S16384x16.Idx → EReal)
      = gatheredLin (m ((c : Thread nD τ).loc main_arg0)) (m ((c : Thread nD τ).loc main_arg2)) := by
  dsimp only [GenP.V, Gen.hostOps0]
  after_results
  rfl

/-- Entry `slot f q d` of sample `b`'s row of the first input array is `val b f q d`. -/
theorem V_v9_apply (c : Dev nD) (b : Fin 16384) (f q : Fin 16) (d : Fin 10) :
    (GenP.V m c main_v9 : S16384x2560.Idx → EReal) (ix2 b (Spec.slot f q d))
      = Spec.val (m ((c : Thread nD τ).loc main_arg0)) (m ((c : Thread nD τ).loc main_arg1)) b f q d := by
  rw [V_v9, gathered_apply]
  rfl

/-- Entry `f` of sample `b`'s row of the second input array is field `f`'s linear term. -/
theorem V_v17_apply (c : Dev nD) (b : Fin 16384) (f : Fin 16) :
    (GenP.V m c main_v17 : S16384x16.Idx → EReal) (ix2 b f)
      = Spec.linEntry (m ((c : Thread nD τ).loc main_arg0)) (m ((c : Thread nD τ).loc main_arg2)) b f := by
  rw [V_v17, gatheredLin_apply]
  rfl

end Host

end Cert.KernelIdeal.KRun

end
-- ==== Proof.KRun.lean ====
/-
  From blocks to the array.  The loop runs over 32 blocks of 512 samples; at block `t` it reads rows
  `512 t … 512 t + 511` of the two input arrays, and writes rows `512 t … 512 t + 511` of the result.  Given what the
  loop's body computes from one block of inputs (`BodySpec`: row by row, `Spec.rowG` of the sample's gathered numbers
  and linear terms), each block written back is the matching block of `Spec.G`, the blocks cover the result array, and
  so the array ends holding `Spec.G` of the three arguments.
-/
import proofs.«178268_j47347719471684_2_alg».proof.Proof.KHost

noncomputable section

namespace Cert.KernelIdeal.KRun

open Cert.KernelIdeal Cert.KernelIdeal.Gen Cert.KernelIdeal.GenP Cert.KernelIdeal.ValueP Idealize.ShloMosaic Idealize.ShloMosaic.ValueIdx
open Idealize.ShloMosaic.TcCoe Idealize.SL.Sem
open Idealize.ShloMosaic.Pipeline (Dat)

/-- What the loop's body computes from one block of the two input arrays: row `r` of its result is `Spec.rowG` of row
    `r` of the first input block and row `r` of the second. -/
def BodySpec : Prop := ∀ (x0 : Vec Ideal S512x2560 .f32) (x1 : Vec Ideal S512x16 .f32) (r : Fin 512) (c : Fin 1376),
    GenP.out0_2 x0 x1 (ValueIdx.ix2 r c) = Spec.rowG (fun s => x0 (ValueIdx.ix2 r s)) (fun f => x1 (ValueIdx.ix2 r f)) c

section Blocks

variable (m : (ℓ : Loc nD τ sig) → Buf (Elt Ideal) ℓ)

/-! ## The index maps -/

/-- At point `t` each of the three windows is at block `(t, 0)` (decided over the 32 points). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-! ## One entry of a block -/

/-- Entry `y` of the first input window's block at point `t` is the first input array at row `512 t + y₀`, column `y₁`. -/
theorem iblk0_apply (c : Dev nD) (t : Fin cfg0.N) (y : S512x2560.Idx) (i : S16384x2560.Idx)
    (h0 : (i 0).val = 512 * t.val + (y 0).val) (h1 : (i 1).val = (y 1).val) :
    (GenP.iblk m c 0 t : Vec Ideal S512x2560 .f32) y = (GenP.V m c main_v9 : S16384x2560.Idx → EReal) i := by
  obtain ⟨e0, e1, -, -, -, -⟩ := idx_facts t
  unfold GenP.iblk
  rw [View.read_apply]
  show (GenP.V m c main_v9 : S16384x2560.Idx → EReal) _ = (GenP.V m c main_v9 : S16384x2560.Idx → EReal) i
  refine congrArg (GenP.V m c main_v9 : S16384x2560.Idx → EReal) (funext fun a => Fin.ext ?_)
  match a with
  | ⟨0, _⟩ => show win0_0.index t (0 : Fin 2) * 512 + 1 * (y 0).val = (i 0).val; omega
  | ⟨1, _⟩ => show win0_0.index t (1 : Fin 2) * 2560 + 1 * (y 1).val = (i 1).val; omega

/-- Entry `y` of the second input window's block at point `t` is the second input array at row `512 t + y₀`, column `y₁`. -/
theorem iblk1_apply (c : Dev nD) (t : Fin cfg0.N) (y : S512x16.Idx) (i : S16384x16.Idx)
    (h0 : (i 0).val = 512 * t.val + (y 0).val) (h1 : (i 1).val = (y 1).val) :
    (GenP.iblk m c 1 t : Vec Ideal S512x16 .f32) y = (GenP.V m c main_v17 : S16384x16.Idx → EReal) i := by
  obtain ⟨-, -, e0, e1, -, -⟩ := idx_facts t
  unfold GenP.iblk
  rw [View.read_apply]
  show (GenP.V m c main_v17 : S16384x16.Idx → EReal) _ = (GenP.V m c main_v17 : S16384x16.Idx → EReal) i
  refine congrArg (GenP.V m c main_v17 : S16384x16.Idx → EReal) (funext fun a => Fin.ext ?_)
  match a with
  | ⟨0, _⟩ => show win0_1.index t (0 : Fin 2) * 512 + 1 * (y 0).val = (i 0).val; omega
  | ⟨1, _⟩ => show win0_1.index t (1 : Fin 2) * 16 + 1 * (y 1).val = (i 1).val; omega

/-- One entry of the body's result on blocks whose rows are the rows of gathered numbers and of linear terms of the
    samples `b`: it is `Spec.G` at sample `b`. -/
theorem point_eq (hbody : BodySpec) (x : S16384x16.Idx → BitVec 32) (emb : S16x300000x10.Idx → EReal) (lin : S300000x1.Idx → EReal)
    (x0 : Vec Ideal S512x2560 .f32) (x1 : Vec Ideal S512x16 .f32) (y : S512x1376.Idx) (b : Fin 16384)
    (h0 : ∀ (f q : Fin 16) (d : Fin 10), x0 (ix2 (y 0) (Spec.slot f q d)) = Spec.val x emb b f q d)
    (h1 : ∀ f : Fin 16, x1 (ix2 (y 0) f) = Spec.linEntry x lin b f) :
    GenP.out0_2 x0 x1 y = Spec.G x emb lin (ix2 b (y 1)) := by
  have e : GenP.out0_2 x0 x1 y = GenP.out0_2 x0 x1 (ix2 (y 0) (y 1)) := congrArg (GenP.out0_2 x0 x1) (eq_ix2 y)
  rw [e, hbody x0 x1 (y 0) (y 1)]
  exact (Spec.G_eq_rowG x emb lin b _ _ h0 h1 (y 1)).symm

/-! ## What a point writes back -/

/-- One entry of what the body leaves at point `t`: entry `y` of the block is `Spec.G` at row `512 t + y₀`, column `y₁`
    of the array. -/
theorem entry_eq (hbody : BodySpec) (c : Dev nD) (t : Fin cfg0.N) (y : S512x1376.Idx) (i : S16384x1376.Idx)
    (h0 : (i 0).val = 512 * t.val + (y 0).val) (h1 : (i 1).val = (y 1).val) :
    GenP.out0_2 (GenP.iblk m c 0 t) (GenP.iblk m c 1 t) y
      = Spec.G (m ((c : Thread nD τ).loc main_arg0)) (m ((c : Thread nD τ).loc main_arg1)) (m ((c : Thread nD τ).loc main_arg2)) i := by
  have hN : cfg0.N = 32 := N_0
  have hy0 : (y 0).val < 512 := (y 0).isLt
  have hb : 512 * t.val + (y 0).val < 16384 := by have := t.isLt; omega
  have hi : i = (ix2 (⟨512 * t.val + (y 0).val, hb⟩ : Fin 16384) (y 1) : S16384x1376.Idx) := by
    funext a; apply Fin.ext
    match a with
    | ⟨0, _⟩ => exact h0
    | ⟨1, _⟩ => exact h1
  rw [hi]
  exact point_eq hbody (m ((c : Thread nD τ).loc main_arg0)) (m ((c : Thread nD τ).loc main_arg1)) (m ((c : Thread nD τ).loc main_arg2))
    (GenP.iblk m c 0 t) (GenP.iblk m c 1 t) y (⟨512 * t.val + (y 0).val, hb⟩ : Fin 16384)
    (fun f q d => (iblk0_apply m c t (ix2 (y 0) (Spec.slot f q d)) (ix2 (⟨512 * t.val + (y 0).val, hb⟩ : Fin 16384) (Spec.slot f q d)) rfl rfl).trans
      (V_v9_apply m c _ f q d))
    (fun f => (iblk1_apply m c t (ix2 (y 0) f) (ix2 (⟨512 * t.val + (y 0).val, hb⟩ : Fin 16384) f) rfl rfl).trans
      (V_v17_apply m c _ f))

/-- What point `t` writes back to the result array is block `t` of `Spec.G` of the three arguments. -/
theorem flushed_eq (hbody : BodySpec) (c : Dev nD) (t : Fin cfg0.N) :
    (GenP.dats m 0 c).flushed 2 t = ((cfg0.win 2).blk t).view.read (Elt Ideal)
      (Spec.G (m ((c : Thread nD τ).loc main_arg0)) (m ((c : Thread nD τ).loc main_arg1)) (m ((c : Thread nD τ).loc main_arg2))) := by
  obtain ⟨-, -, -, -, e0, e1⟩ := idx_facts t
  rw [ValueP.flushed2]
  funext j
  show GenP.out0_2 (GenP.iblk m c 0 t) (GenP.iblk m c 1 t) j
    = Spec.G (m ((c : Thread nD τ).loc main_arg0)) (m ((c : Thread nD τ).loc main_arg1)) (m ((c : Thread nD τ).loc main_arg2))
        (((cfg0.win 2).blk t).view.emb j)
  refine entry_eq m hbody c t j (((cfg0.win 2).blk t).view.emb j) ?_ ?_
  · show win0_2.index t (0 : Fin 2) * 512 + 1 * (j 0).val = 512 * t.val + (j 0).val
    omega
  · show win0_2.index t (1 : Fin 2) * 1376 + 1 * (j 1).val = (j 1).val
    omega

/-! ## The blocks cover the array -/

/-- An index of the array is in point `t`'s block iff each coordinate is in the block's range on its axis. -/
theorem mem_blk (t : Fin cfg0.N) (i : S16384x1376.Idx) :
    i ∈ ((cfg0.win 2).blk t).view.set ↔ ∀ a : Fin 2, win0_2.index t a * S512x1376.size a ≤ (i a).val
      ∧ (i a).val < win0_2.index t a * S512x1376.size a + S512x1376.size a := by
  show i ∈ ((View.whole main_v18).slice (win0_2.rect t)).set ↔ _
  rw [View.set_slice_whole, Rect.mem_set_unit]
  exact Iff.rfl

/-- Row `r` of the array is in the block of point `r / 512`. -/
theorem cover (i : S16384x1376.Idx) :
    ∃ t : Fin cfg0.N, (cfg0.win 2).flush t = true ∧ i ∈ ((cfg0.win 2).blk t).view.set := by
  have hN : cfg0.N = 32 := N_0
  have hi0 : (i 0).val < 16384 := (i 0).isLt
  have hi1 : (i 1).val < 1376 := (i 1).isLt
  have ht : (i 0).val / 512 < cfg0.N := by rw [hN]; omega
  refine ⟨⟨(i 0).val / 512, ht⟩, flush0_2 _, ?_⟩
  rw [mem_blk]
  obtain ⟨-, -, -, -, e0, e1⟩ := idx_facts ⟨(i 0).val / 512, ht⟩
  have e0' : win0_2.index ⟨(i 0).val / 512, ht⟩ (0 : Fin 2) = (i 0).val / 512 := e0
  intro a
  match a with
  | ⟨0, _⟩ =>
    show win0_2.index ⟨(i 0).val / 512, ht⟩ (0 : Fin 2) * 512 ≤ (i 0).val
      ∧ (i 0).val < win0_2.index ⟨(i 0).val / 512, ht⟩ (0 : Fin 2) * 512 + 512
    omega
  | ⟨1, _⟩ =>
    show win0_2.index ⟨(i 0).val / 512, ht⟩ (1 : Fin 2) * 1376 ≤ (i 1).val
      ∧ (i 1).val < win0_2.index ⟨(i 0).val / 512, ht⟩ (1 : Fin 2) * 1376 + 1376
    omega

/-! ## The array after the run -/

/-- Every row of the result array is written by exactly the point that covers it, so after the run the array is `Spec.G`
    of the three arguments. -/
theorem final (hbody : BodySpec) (c : Dev nD) :
    (GenP.dats m 0 c).arrAt 2 cfg0.N
      = Spec.G (m ((c : Thread nD τ).loc main_arg0)) (m ((c : Thread nD τ).loc main_arg1)) (m ((c : Thread nD τ).loc main_arg2)) :=
  (GenP.dats m 0 c).arrAt_eq_of_cover 2
    (Spec.G (m ((c : Thread nD τ).loc main_arg0)) (m ((c : Thread nD τ).loc main_arg1)) (m ((c : Thread nD τ).loc main_arg2)))
    (fun t _ => flushed_eq m hbody c t) cover

end Blocks

/-- The run, read: the result array at `Spec.G` of the three arguments, the arguments unchanged. -/
theorem run (hbody : BodySpec) (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v18)
        = Spec.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m hbody c), (h c).2⟩) (ValueP.run_blocks m ρ)

end Cert.KernelIdeal.KRun

end
-- ==== Proof.RefTerm.lean ====
/-
  The reference read as a chain of values: one definition per line of the reference's program (the functions it
  calls written out where they are called), each the value that line computes from the values before it, as a
  function of the three arguments it depends on — the row numbers `x`, the tables `emb`, the linear terms `lin`.
  The first half depends on no argument: it builds the upper-triangular mask of a 16 × 16 square, counts its ones by
  a running sum, scatters the positions of the ones into a vector of 120 and splits each position into its row and its
  column; those are the two fields of each pair. The second half gathers the table rows, multiplies, re-lays and joins.
  `w_main_v97` is the result.
-/
import proofs.«178268_j47347719471684_2_alg».proof.Proof.Gen.ReferenceIdeal
import Idealize.ShloMosaic.PureOps.Ideal

noncomputable section

namespace Cert.ReferenceIdeal.Term

open Idealize.ShloMosaic Cert.ReferenceIdeal Cert.ReferenceIdeal.Gen

def w_main_cst := (constant (F := Ideal) S_ .f32 0x3F800000#32)
def w_main_v0 := (broadcastInDim S16x16 ![] bcast_S_S16x16) w_main_cst
def w_main_call0_v0 := (iotaInDim S16x16 32 0)
def w_main_call0_c := (constantI S_ 32 0#32)
def w_main_call0_v1 := (broadcastInDim S16x16 ![] bcast_S_S16x16) w_main_call0_c
def w_main_call0_v2 := addi w_main_call0_v0 w_main_call0_v1
def w_main_call0_v3 := (iotaInDim S16x16 32 1)
def w_main_call0_v4 := (cmpi .sge) w_main_call0_v2 w_main_call0_v3
def w_main_call0_cst := (constant (F := Ideal) S_ .f32 0x00000000#32)
def w_main_call0_v5 := (broadcastInDim S16x16 ![] bcast_S_S16x16) w_main_call0_cst
def w_main_v1 := select w_main_call0_v4 w_main_call0_v5 w_main_v0
def w_main_cst_0 := (constant (F := Ideal) S_ .f32 0x00000000#32)
def w_main_v2 := (broadcastInDim S16x16 ![] bcast_S_S16x16) w_main_cst_0
def w_main_v3 := (cmpf .une) w_main_v1 w_main_v2
def w_main_call1_v0 := shapeCast S256 w_main_v3 shapeCasts_S16x16_S256
def w_main_call1_v1 := extui 32 w_main_call1_v0 natLt_1_32
def w_main_call1_call0_c := (constantI S_ 32 0#32)
def w_main_call1_call0_v0 := (broadcastInDim S_ ![] bcast_S_S_) w_main_call1_call0_c
def w_main_v4 := Host.reduceWindow IntOp.addi ![256] ![1] ![255] ![0] w_main_call1_v1 w_main_call1_call0_v0 reduceWindows_S256_S256_w256s1p255_0 h_S_
def w_main_c := (constantI S_ 32 0#32)
def w_main_v5 := (broadcastInDim S120 ![] bcast_S_S120) w_main_c
def w_main_c_1 := (constantI S_ 32 0#32)
def w_main_call2_v0 := id w_main_c_1
def w_main_call2_v1 := (broadcastInDim S256 ![] bcast_S_S256) w_main_call2_v0
def w_main_v6 := maxsi w_main_call2_v1 w_main_v4
def w_main_c_2 := (constantI S_ 32 0#32)
def w_main_v7 := (broadcastInDim S256 ![] bcast_S_S256) w_main_c_2
def w_main_v8 := (cmpi .slt) w_main_v6 w_main_v7
def w_main_c_3 := (constantI S_ 32 120#32)
def w_main_v9 := (broadcastInDim S256 ![] bcast_S_S256) w_main_c_3
def w_main_v10 := (addi) w_main_v6 w_main_v9
def w_main_v11 := (select) w_main_v8 w_main_v10 w_main_v6
def w_main_v12 := (broadcastInDim S256x1 ![0] bcast_S256_S256x1_0) w_main_v11
def w_main_c_4 := (constantI S_ 32 1#32)
def w_main_v13 := (broadcastInDim S256 ![] bcast_S_S256) w_main_c_4
def w_main_v14 := Host.scatter scatter_S120_S256x1_S256_n_0_0_1 IntOp.addi w_main_v5 w_main_v12 w_main_v13
def w_main_call3_call0_c := (constantI S_ 32 0#32)
def w_main_call3_call0_v0 := (broadcastInDim S_ ![] bcast_S_S_) w_main_call3_call0_c
def w_main_v15 := Host.reduceWindow IntOp.addi ![120] ![1] ![119] ![0] w_main_v14 w_main_call3_call0_v0 reduceWindows_S120_S120_w120s1p119_0 h_S_
def w_main_c_5 := (constantI S_ 32 16#32)
def w_main_call4_v0 := (broadcastInDim S120 ![] bcast_S_S120) w_main_c_5
def w_main_call4_v1 := Host.divsi w_main_v15 w_main_call4_v0
def w_main_call4_v2 := signi w_main_v15
def w_main_call4_v3 := signi w_main_c_5
def w_main_call4_v4 := (broadcastInDim S120 ![] bcast_S_S120) w_main_call4_v3
def w_main_call4_v5 := (cmpi .ne) w_main_call4_v2 w_main_call4_v4
def w_main_call4_v6 := (broadcastInDim S120 ![] bcast_S_S120) w_main_c_5
def w_main_call4_v7 := Host.remsi w_main_v15 w_main_call4_v6
def w_main_call4_c := (constantI S_ 32 0#32)
def w_main_call4_v8 := (broadcastInDim S120 ![] bcast_S_S120) w_main_call4_c
def w_main_call4_v9 := (cmpi .ne) w_main_call4_v7 w_main_call4_v8
def w_main_call4_v10 := andi w_main_call4_v5 w_main_call4_v9
def w_main_call4_c_0 := (constantI S_ 32 1#32)
def w_main_call4_v11 := (broadcastInDim S120 ![] bcast_S_S120) w_main_call4_c_0
def w_main_call4_v12 := subi w_main_call4_v1 w_main_call4_v11
def w_main_v16 := select w_main_call4_v10 w_main_call4_v12 w_main_call4_v1
def w_main_c_6 := (constantI S_ 32 16#32)
def w_main_call5_v0 := id w_main_c_6
def w_main_call5_c := (constantI S_ 32 0#32)
def w_main_call5_v1 := (cmpi .eq) w_main_call5_v0 w_main_call5_c
def w_main_call5_c_0 := (constantI S_ 32 1#32)
def w_main_call5_v2 := select w_main_call5_v1 w_main_call5_c_0 w_main_call5_v0
def w_main_call5_v3 := (broadcastInDim S120 ![] bcast_S_S120) w_main_call5_v2
def w_main_call5_v4 := Host.remsi w_main_v16 w_main_call5_v3
def w_main_call5_c_1 := (constantI S_ 32 0#32)
def w_main_call5_v5 := (broadcastInDim S120 ![] bcast_S_S120) w_main_call5_c_1
def w_main_call5_v6 := (cmpi .ne) w_main_call5_v4 w_main_call5_v5
def w_main_call5_c_2 := (constantI S_ 32 0#32)
def w_main_call5_v7 := (broadcastInDim S120 ![] bcast_S_S120) w_main_call5_c_2
def w_main_call5_v8 := (cmpi .slt) w_main_call5_v4 w_main_call5_v7
def w_main_call5_c_3 := (constantI S_ 32 0#32)
def w_main_call5_v9 := (cmpi .slt) w_main_call5_v2 w_main_call5_c_3
def w_main_call5_v10 := (broadcastInDim S120 ![] bcast_S_S120) w_main_call5_v9
def w_main_call5_v11 := (cmpi .ne) w_main_call5_v8 w_main_call5_v10
def w_main_call5_v12 := andi w_main_call5_v11 w_main_call5_v6
def w_main_call5_v13 := (broadcastInDim S120 ![] bcast_S_S120) w_main_call5_v2
def w_main_call5_v14 := addi w_main_call5_v4 w_main_call5_v13
def w_main_v17 := select w_main_call5_v12 w_main_call5_v14 w_main_call5_v4
def w_main_c_7 := (constantI S_ 32 1#32)
def w_main_call6_v0 := (broadcastInDim S120 ![] bcast_S_S120) w_main_c_7
def w_main_call6_v1 := Host.divsi w_main_v15 w_main_call6_v0
def w_main_call6_v2 := signi w_main_v15
def w_main_call6_v3 := signi w_main_c_7
def w_main_call6_v4 := (broadcastInDim S120 ![] bcast_S_S120) w_main_call6_v3
def w_main_call6_v5 := (cmpi .ne) w_main_call6_v2 w_main_call6_v4
def w_main_call6_v6 := (broadcastInDim S120 ![] bcast_S_S120) w_main_c_7
def w_main_call6_v7 := Host.remsi w_main_v15 w_main_call6_v6
def w_main_call6_c := (constantI S_ 32 0#32)
def w_main_call6_v8 := (broadcastInDim S120 ![] bcast_S_S120) w_main_call6_c
def w_main_call6_v9 := (cmpi .ne) w_main_call6_v7 w_main_call6_v8
def w_main_call6_v10 := andi w_main_call6_v5 w_main_call6_v9
def w_main_call6_c_0 := (constantI S_ 32 1#32)
def w_main_call6_v11 := (broadcastInDim S120 ![] bcast_S_S120) w_main_call6_c_0
def w_main_call6_v12 := subi w_main_call6_v1 w_main_call6_v11
def w_main_v18 := select w_main_call6_v10 w_main_call6_v12 w_main_call6_v1
def w_main_c_8 := (constantI S_ 32 16#32)
def w_main_call7_v0 := id w_main_c_8
def w_main_call7_c := (constantI S_ 32 0#32)
def w_main_call7_v1 := (cmpi .eq) w_main_call7_v0 w_main_call7_c
def w_main_call7_c_0 := (constantI S_ 32 1#32)
def w_main_call7_v2 := select w_main_call7_v1 w_main_call7_c_0 w_main_call7_v0
def w_main_call7_v3 := (broadcastInDim S120 ![] bcast_S_S120) w_main_call7_v2
def w_main_call7_v4 := Host.remsi w_main_v18 w_main_call7_v3
def w_main_call7_c_1 := (constantI S_ 32 0#32)
def w_main_call7_v5 := (broadcastInDim S120 ![] bcast_S_S120) w_main_call7_c_1
def w_main_call7_v6 := (cmpi .ne) w_main_call7_v4 w_main_call7_v5
def w_main_call7_c_2 := (constantI S_ 32 0#32)
def w_main_call7_v7 := (broadcastInDim S120 ![] bcast_S_S120) w_main_call7_c_2
def w_main_call7_v8 := (cmpi .slt) w_main_call7_v4 w_main_call7_v7
def w_main_call7_c_3 := (constantI S_ 32 0#32)
def w_main_call7_v9 := (cmpi .slt) w_main_call7_v2 w_main_call7_c_3
def w_main_call7_v10 := (broadcastInDim S120 ![] bcast_S_S120) w_main_call7_v9
def w_main_call7_v11 := (cmpi .ne) w_main_call7_v8 w_main_call7_v10
def w_main_call7_v12 := andi w_main_call7_v11 w_main_call7_v6
def w_main_call7_v13 := (broadcastInDim S120 ![] bcast_S_S120) w_main_call7_v2
def w_main_call7_v14 := addi w_main_call7_v4 w_main_call7_v13
def w_main_v19 := select w_main_call7_v12 w_main_call7_v14 w_main_call7_v4
def w_main_v20 := (broadcastInDim S120x1 ![0] bcast_S120_S120x1_0) w_main_v19
def w_main_c_9 := (constantI S_ 32 0#32)
def w_main_v21 := (broadcastInDim S120 ![] bcast_S_S120) w_main_c_9
def w_main_v22 := (cmpi .slt) w_main_v17 w_main_v21
def w_main_c_10 := (constantI S_ 32 16#32)
def w_main_v23 := (broadcastInDim S120 ![] bcast_S_S120) w_main_c_10
def w_main_v24 := (addi) w_main_v17 w_main_v23
def w_main_v25 := (select) w_main_v22 w_main_v24 w_main_v17
def w_main_v26 := (broadcastInDim S120x1 ![0] bcast_S120_S120x1_0) w_main_v25
def w_main_v27 (x : IVec S16384x16 32) := Host.gather gather_S16384x16_S120x1_S16384x120_0_1_n_n_1_1_163841 x w_main_v26
def w_main_v28 (x : IVec S16384x16 32) := transpose S120x16384 [1, 0] (w_main_v27 x) transposes_S16384x120_S120x16384_1_0
def w_main_c_11 := (constantI S_ 32 0#32)
def w_main_v29 := (broadcastInDim S120x1 ![] bcast_S_S120x1) w_main_c_11
def w_main_v30 := (cmpi .slt) w_main_v20 w_main_v29
def w_main_c_12 := (constantI S_ 32 16#32)
def w_main_v31 := (broadcastInDim S120x1 ![] bcast_S_S120x1) w_main_c_12
def w_main_v32 := (addi) w_main_v20 w_main_v31
def w_main_v33 := (select) w_main_v30 w_main_v32 w_main_v20
def w_main_c_13 := (constantI S_ 32 0#32)
def w_main_v34 := (broadcastInDim S120x16384 ![] bcast_S_S120x16384) w_main_c_13
def w_main_v35 (x : IVec S16384x16 32) := (cmpi .slt) (w_main_v28 x) w_main_v34
def w_main_c_14 := (constantI S_ 32 300000#32)
def w_main_v36 := (broadcastInDim S120x16384 ![] bcast_S_S120x16384) w_main_c_14
def w_main_v37 (x : IVec S16384x16 32) := (addi) (w_main_v28 x) w_main_v36
def w_main_v38 (x : IVec S16384x16 32) := (select) (w_main_v35 x) (w_main_v37 x) (w_main_v28 x)
def w_main_v39 := (broadcastInDim S120x16384 ![0, 1] bcast_S120x1_S120x16384_0_1) w_main_v33
def w_main_v40 := (broadcastInDim S120x16384x1 ![0, 1] bcast_S120x16384_S120x16384x1_0_1) w_main_v39
def w_main_v41 (x : IVec S16384x16 32) := (broadcastInDim S120x16384x1 ![0, 1] bcast_S120x16384_S120x16384x1_0_1) (w_main_v38 x)
def w_main_v42 (x : IVec S16384x16 32) := concatenate S120x16384x2 2 [⟨S120x16384x1, w_main_v40⟩, ⟨S120x16384x1, (w_main_v41 x)⟩] concatenates_S120x16384x1_S120x16384x1_S120x16384x2_d2
def w_main_v43 (x : IVec S16384x16 32) (emb : FVec Ideal S16x300000x10 .f32) := Host.gather gather_S16x300000x10_S120x16384x2_S120x16384x10_2_01_n_n_01_2_1110 emb (w_main_v42 x)
def w_main_v44 := (broadcastInDim S120x1 ![0] bcast_S120_S120x1_0) w_main_v17
def w_main_c_15 := (constantI S_ 32 0#32)
def w_main_v45 := (broadcastInDim S120 ![] bcast_S_S120) w_main_c_15
def w_main_v46 := (cmpi .slt) w_main_v19 w_main_v45
def w_main_c_16 := (constantI S_ 32 16#32)
def w_main_v47 := (broadcastInDim S120 ![] bcast_S_S120) w_main_c_16
def w_main_v48 := (addi) w_main_v19 w_main_v47
def w_main_v49 := (select) w_main_v46 w_main_v48 w_main_v19
def w_main_v50 := (broadcastInDim S120x1 ![0] bcast_S120_S120x1_0) w_main_v49
def w_main_v51 (x : IVec S16384x16 32) := Host.gather gather_S16384x16_S120x1_S16384x120_0_1_n_n_1_1_163841 x w_main_v50
def w_main_v52 (x : IVec S16384x16 32) := transpose S120x16384 [1, 0] (w_main_v51 x) transposes_S16384x120_S120x16384_1_0
def w_main_c_17 := (constantI S_ 32 0#32)
def w_main_v53 := (broadcastInDim S120x1 ![] bcast_S_S120x1) w_main_c_17
def w_main_v54 := (cmpi .slt) w_main_v44 w_main_v53
def w_main_c_18 := (constantI S_ 32 16#32)
def w_main_v55 := (broadcastInDim S120x1 ![] bcast_S_S120x1) w_main_c_18
def w_main_v56 := (addi) w_main_v44 w_main_v55
def w_main_v57 := (select) w_main_v54 w_main_v56 w_main_v44
def w_main_c_19 := (constantI S_ 32 0#32)
def w_main_v58 := (broadcastInDim S120x16384 ![] bcast_S_S120x16384) w_main_c_19
def w_main_v59 (x : IVec S16384x16 32) := (cmpi .slt) (w_main_v52 x) w_main_v58
def w_main_c_20 := (constantI S_ 32 300000#32)
def w_main_v60 := (broadcastInDim S120x16384 ![] bcast_S_S120x16384) w_main_c_20
def w_main_v61 (x : IVec S16384x16 32) := (addi) (w_main_v52 x) w_main_v60
def w_main_v62 (x : IVec S16384x16 32) := (select) (w_main_v59 x) (w_main_v61 x) (w_main_v52 x)
def w_main_v63 := (broadcastInDim S120x16384 ![0, 1] bcast_S120x1_S120x16384_0_1) w_main_v57
def w_main_v64 := (broadcastInDim S120x16384x1 ![0, 1] bcast_S120x16384_S120x16384x1_0_1) w_main_v63
def w_main_v65 (x : IVec S16384x16 32) := (broadcastInDim S120x16384x1 ![0, 1] bcast_S120x16384_S120x16384x1_0_1) (w_main_v62 x)
def w_main_v66 (x : IVec S16384x16 32) := concatenate S120x16384x2 2 [⟨S120x16384x1, w_main_v64⟩, ⟨S120x16384x1, (w_main_v65 x)⟩] concatenates_S120x16384x1_S120x16384x1_S120x16384x2_d2
def w_main_v67 (x : IVec S16384x16 32) (emb : FVec Ideal S16x300000x10 .f32) := Host.gather gather_S16x300000x10_S120x16384x2_S120x16384x10_2_01_n_n_01_2_1110 emb (w_main_v66 x)
def w_main_v68 (x : IVec S16384x16 32) (emb : FVec Ideal S16x300000x10 .f32) := (mulf) (w_main_v43 x emb) (w_main_v67 x emb)
def w_main_v69 (x : IVec S16384x16 32) (emb : FVec Ideal S16x300000x10 .f32) := transpose S16384x120x10 [1, 0, 2] (w_main_v68 x emb) transposes_S120x16384x10_S16384x120x10_1_0_2
def w_main_v70 (x : IVec S16384x16 32) (emb : FVec Ideal S16x300000x10 .f32) := shapeCast S16384x1200 (w_main_v69 x emb) shapeCasts_S16384x120x10_S16384x1200
def w_main_v71 := (iotaInDim S16 32 0)
def w_main_v72 := (broadcastInDim S1x16 ![1] bcast_S16_S1x16_1) w_main_v71
def w_main_c_21 := (constantI S_ 32 0#32)
def w_main_v73 := (broadcastInDim S1x16 ![] bcast_S_S1x16) w_main_c_21
def w_main_v74 := (cmpi .slt) w_main_v72 w_main_v73
def w_main_c_22 := (constantI S_ 32 16#32)
def w_main_v75 := (broadcastInDim S1x16 ![] bcast_S_S1x16) w_main_c_22
def w_main_v76 := (addi) w_main_v72 w_main_v75
def w_main_v77 := (select) w_main_v74 w_main_v76 w_main_v72
def w_main_c_23 := (constantI S_ 32 0#32)
def w_main_v78 := (broadcastInDim S16384x16 ![] bcast_S_S16384x16) w_main_c_23
def w_main_v79 (x : IVec S16384x16 32) := (cmpi .slt) x w_main_v78
def w_main_c_24 := (constantI S_ 32 300000#32)
def w_main_v80 := (broadcastInDim S16384x16 ![] bcast_S_S16384x16) w_main_c_24
def w_main_v81 (x : IVec S16384x16 32) := (addi) x w_main_v80
def w_main_v82 (x : IVec S16384x16 32) := (select) (w_main_v79 x) (w_main_v81 x) x
def w_main_v83 := (broadcastInDim S16384x16 ![0, 1] bcast_S1x16_S16384x16_0_1) w_main_v77
def w_main_v84 := (broadcastInDim S16384x16x1 ![0, 1] bcast_S16384x16_S16384x16x1_0_1) w_main_v83
def w_main_v85 (x : IVec S16384x16 32) := (broadcastInDim S16384x16x1 ![0, 1] bcast_S16384x16_S16384x16x1_0_1) (w_main_v82 x)
def w_main_v86 (x : IVec S16384x16 32) := concatenate S16384x16x2 2 [⟨S16384x16x1, w_main_v84⟩, ⟨S16384x16x1, (w_main_v85 x)⟩] concatenates_S16384x16x1_S16384x16x1_S16384x16x2_d2
def w_main_v87 (x : IVec S16384x16 32) (emb : FVec Ideal S16x300000x10 .f32) := Host.gather gather_S16x300000x10_S16384x16x2_S16384x16x10_2_01_n_n_01_2_1110 emb (w_main_v86 x)
def w_main_v88 (x : IVec S16384x16 32) (emb : FVec Ideal S16x300000x10 .f32) := shapeCast S16384x160 (w_main_v87 x emb) shapeCasts_S16384x16x10_S16384x160
def w_main_c_25 := (constantI S_ 32 0#32)
def w_main_v89 := (broadcastInDim S16384x16 ![] bcast_S_S16384x16) w_main_c_25
def w_main_v90 (x : IVec S16384x16 32) := (cmpi .slt) x w_main_v89
def w_main_c_26 := (constantI S_ 32 300000#32)
def w_main_v91 := (broadcastInDim S16384x16 ![] bcast_S_S16384x16) w_main_c_26
def w_main_v92 (x : IVec S16384x16 32) := (addi) x w_main_v91
def w_main_v93 (x : IVec S16384x16 32) := (select) (w_main_v90 x) (w_main_v92 x) x
def w_main_v94 (x : IVec S16384x16 32) := (broadcastInDim S16384x16x1 ![0, 1] bcast_S16384x16_S16384x16x1_0_1) (w_main_v93 x)
def w_main_v95 (x : IVec S16384x16 32) (lin : FVec Ideal S300000x1 .f32) := Host.gather gather_S300000x1_S16384x16x1_S16384x16x1_2_0_n_n_0_2_11 lin (w_main_v94 x)
def w_main_v96 (x : IVec S16384x16 32) (lin : FVec Ideal S300000x1 .f32) := shapeCast S16384x16 (w_main_v95 x lin) shapeCasts_S16384x16x1_S16384x16
def w_main_v97 (x : IVec S16384x16 32) (emb : FVec Ideal S16x300000x10 .f32) (lin : FVec Ideal S300000x1 .f32) := concatenate S16384x1376 1 [⟨S16384x1200, (w_main_v70 x emb)⟩, ⟨S16384x160, (w_main_v88 x emb)⟩, ⟨S16384x16, (w_main_v96 x lin)⟩] concatenates_S16384x1200_S16384x160_S16384x16_S16384x1376_d1

end Cert.ReferenceIdeal.Term

end
-- ==== Proof.RefSeg1.lean ====
/-
  The reference's operations 1 … 45 of 213, in 3 consecutive segments, and what each segment computes: from any
  memory that holds the chain's values (the term module's) at the buffers the segment and everything after it still read, the
  memory after the segment holds the chain's values at the buffers read after it. Each statement is read off the operations one
  by one (an operation leaves its function of its operands' contents at its result buffer and every other buffer as it was).
-/
import proofs.«178268_j47347719471684_2_alg».proof.Proof.RefTerm
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 15 of the 213. -/
abbrev seg0 : List (HloOp τ sig (Elt F)) :=
  [
    StableHlo.nullary main_cst (constant S_ .f32 0x3F800000#32),
    StableHlo.unary main_cst main_v0 (broadcastInDim S16x16 ![] bcast_S_S16x16 : (⟨S_, .f32⟩ : BufTy).Contents (Elt F) → (⟨S16x16, .f32⟩ : BufTy).Contents (Elt F)),
    StableHlo.TRef.nullary main_call0.v0 (iotaInDim S16x16 32 0),
    StableHlo.TRef.nullary main_call0.c (constantI S_ 32 0#32),
    StableHlo.TRef.unary main_call0.c main_call0.v1 (broadcastInDim S16x16 ![] bcast_S_S16x16),
    StableHlo.TRef.binary main_call0.v0 main_call0.v1 main_call0.v2 addi,
    StableHlo.TRef.nullary main_call0.v3 (iotaInDim S16x16 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S16x16 ![] bcast_S_S16x16),
    StableHlo.TRef.ternary main_call0.v4 main_call0.v5 (.of main_v0) main_call0.v6 select,
    StableHlo.nullary main_cst_0 (constant S_ .f32 0x00000000#32),
    StableHlo.unary main_cst_0 main_v2 (broadcastInDim S16x16 ![] bcast_S_S16x16 : (⟨S_, .f32⟩ : BufTy).Contents (Elt F) → (⟨S16x16, .f32⟩ : BufTy).Contents (Elt F)),
    StableHlo.binary main_v1 main_v2 main_v3 (cmpf .une : (⟨S16x16, .f32⟩ : BufTy).Contents (Elt F) → (⟨S16x16, .f32⟩ : BufTy).Contents (Elt F) → (⟨S16x16, .i1⟩ : BufTy).Contents (Elt F)),
    StableHlo.TRef.reshape (.of main_v3 : StableHlo.TRef sig ⟨S16x16, .i1⟩) main_call1.v0 rfl shapeCasts_S16x16_S256 ]

attribute [local irreducible] Host.gather Host.scatter Host.reduceWindow concatenate transpose shapeCast in
set_option maxRecDepth 16384 in
set_option maxHeartbeats 1000000 in
/-- From a memory holding the chain's values at the buffers read from here on, these operations leave the chain's values at the buffers read after them. -/
theorem seg0_spec (W : Valuation τ sig (Elt Ideal)) (x : IVec S16384x16 32) (emb : FVec Ideal S16x300000x10 .f32) (lin : FVec Ideal S300000x1 .f32)
    (h_main_arg0 : W (main_arg0 : DevRef τ sig) = x)
    (h_main_arg1 : W (main_arg1 : DevRef τ sig) = emb)
    (h_main_arg2 : W (main_arg2 : DevRef τ sig) = lin) :
    (after (seg0 (F := Ideal)) W (main_arg0 : DevRef τ sig) = x)
    ∧ (after (seg0 (F := Ideal)) W (main_arg1 : DevRef τ sig) = emb)
    ∧ (after (seg0 (F := Ideal)) W (main_arg2 : DevRef τ sig) = lin)
    ∧ (after (seg0 (F := Ideal)) W (main_call1_v0 : DevRef τ sig) = Term.w_main_call1_v0) := by
  refine ⟨?_, ?_, ?_, ?_⟩
  · exact by (after_results_simp; exact h_main_arg0)
  · exact by (after_results_simp; exact h_main_arg1)
  · exact by (after_results_simp; exact h_main_arg2)
  · exact by (after_results_simp; (try simp only [cast_eq, TRef.toBuf, TRef.ofBuf]); rfl)

/-- Operations 16 … 30 of the 213. -/
abbrev seg1 : List (HloOp τ sig (Elt F)) :=
  [
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![256] ![1] ![255] ![0] x v reduceWindows_S256_S256_w256s1p255_0 h_S_),
    StableHlo.nullary main_c (constantI S_ 32 0#32),
    StableHlo.unary main_c main_v5 (broadcastInDim S120 ![] bcast_S_S120 : (⟨S_, .i32⟩ : BufTy).Contents (Elt F) → (⟨S120, .i32⟩ : BufTy).Contents (Elt F)),
    StableHlo.nullary main_c_1 (constantI S_ 32 0#32),
    StableHlo.TRef.unary (.of main_c_1) main_call2.v0 id,
    StableHlo.TRef.unary main_call2.v0 main_call2.v1 (broadcastInDim S256 ![] bcast_S_S256),
    StableHlo.TRef.binary main_call2.v1 (.of main_v4) main_call2.v2 maxsi,
    StableHlo.nullary main_c_2 (constantI S_ 32 0#32),
    StableHlo.unary main_c_2 main_v7 (broadcastInDim S256 ![] bcast_S_S256 : (⟨S_, .i32⟩ : BufTy).Contents (Elt F) → (⟨S256, .i32⟩ : BufTy).Contents (Elt F)),
    StableHlo.binary main_v6 main_v7 main_v8 (cmpi .slt : (⟨S256, .i32⟩ : BufTy).Contents (Elt F) → (⟨S256, .i32⟩ : BufTy).Contents (Elt F) → (⟨S256, .i1⟩ : BufTy).Contents (Elt F)),
    StableHlo.nullary main_c_3 (constantI S_ 32 120#32),
    StableHlo.unary main_c_3 main_v9 (broadcastInDim S256 ![] bcast_S_S256 : (⟨S_, .i32⟩ : BufTy).Contents (Elt F) → (⟨S256, .i32⟩ : BufTy).Contents (Elt F)) ]

attribute [local irreducible] Host.gather Host.scatter Host.reduceWindow concatenate transpose shapeCast in
set_option maxRecDepth 16384 in
set_option maxHeartbeats 1000000 in
/-- From a memory holding the chain's values at the buffers read from here on, these operations leave the chain's values at the buffers read after them. -/
theorem seg1_spec (W : Valuation τ sig (Elt Ideal)) (x : IVec S16384x16 32) (emb : FVec Ideal S16x300000x10 .f32) (lin : FVec Ideal S300000x1 .f32)
    (h_main_arg0 : W (main_arg0 : DevRef τ sig) = x)
    (h_main_arg1 : W (main_arg1 : DevRef τ sig) = emb)
    (h_main_arg2 : W (main_arg2 : DevRef τ sig) = lin)
    (h_main_call1_v0 : W (main_call1_v0 : DevRef τ sig) = Term.w_main_call1_v0) :
    (after (seg1 (F := Ideal)) W (main_arg0 : DevRef τ sig) = x)
    ∧ (after (seg1 (F := Ideal)) W (main_arg1 : DevRef τ sig) = emb)
    ∧ (after (seg1 (F := Ideal)) W (main_arg2 : DevRef τ sig) = lin)
    ∧ (after (seg1 (F := Ideal)) W (main_v5 : DevRef τ sig) = Term.w_main_v5)
    ∧ (after (seg1 (F := Ideal)) W (main_v6 : DevRef τ sig) = Term.w_main_v6)
    ∧ (after (seg1 (F := Ideal)) W (main_v8 : DevRef τ sig) = Term.w_main_v8)
    ∧ (after (seg1 (F := Ideal)) W (main_v9 : DevRef τ sig) = Term.w_main_v9) := by
  refine ⟨?_, ?_, ?_, ?_, ?_, ?_, ?_⟩
  · exact by (after_results_simp; exact h_main_arg0)
  · exact by (after_results_simp; exact h_main_arg1)
  · exact by (after_results_simp; exact h_main_arg2)
  · exact by (after_results_simp; (try simp only [cast_eq, TRef.toBuf, TRef.ofBuf, h_main_call1_v0]); rfl)
  · exact by (after_results_simp; (try simp only [cast_eq, TRef.toBuf, TRef.ofBuf, h_main_call1_v0]); rfl)
  · exact by (after_results_simp; (try simp only [cast_eq, TRef.toBuf, TRef.ofBuf, h_main_call1_v0]); rfl)
  · exact by (after_results_simp; (try simp only [cast_eq, TRef.toBuf, TRef.ofBuf, h_main_call1_v0]); rfl)

/-- Operations 31 … 45 of the 213. -/
abbrev seg2 : List (HloOp τ sig (Elt F)) :=
  [
    StableHlo.binary main_v6 main_v9 main_v10 (addi : (⟨S256, .i32⟩ : BufTy).Contents (Elt F) → (⟨S256, .i32⟩ : BufTy).Contents (Elt F) → (⟨S256, .i32⟩ : BufTy).Contents (Elt F)),
    StableHlo.ternary main_v8 main_v10 main_v6 main_v11 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v11 main_v12 (broadcastInDim S256x1 ![0] bcast_S256_S256x1_0 : (⟨S256, .i32⟩ : BufTy).Contents (Elt F) → (⟨S256x1, .i32⟩ : BufTy).Contents (Elt F)),
    StableHlo.nullary main_c_4 (constantI S_ 32 1#32),
    StableHlo.unary main_c_4 main_v13 (broadcastInDim S256 ![] bcast_S_S256 : (⟨S_, .i32⟩ : BufTy).Contents (Elt F) → (⟨S256, .i32⟩ : BufTy).Contents (Elt F)),
    StableHlo.ternary main_v5 main_v12 main_v13 main_v14 ((fun x i u => Host.scatter scatter_S120_S256x1_S256_n_0_0_1 IntOp.addi x i u) : (⟨S120, .i32⟩ : BufTy).Contents (Elt F) → (⟨S256x1, .i32⟩ : BufTy).Contents (Elt F) → (⟨S256, .i32⟩ : BufTy).Contents (Elt F) → (⟨S120, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v14) main_call3.call0.v0 main_call3.call0.v1 (fun x v => Host.reduceWindow IntOp.addi ![120] ![1] ![119] ![0] x v reduceWindows_S120_S120_w120s1p119_0 h_S_),
    StableHlo.nullary main_c_5 (constantI S_ 32 16#32),
    StableHlo.TRef.unary (.of main_c_5 : StableHlo.TRef sig ⟨S_, .i32⟩) main_call4.v0 (broadcastInDim S120 ![] bcast_S_S120),
    StableHlo.TRef.binary (.of main_v15) main_call4.v0 main_call4.v1 Host.divsi,
    StableHlo.TRef.unary (.of main_v15) main_call4.v2 signi,
    StableHlo.TRef.unary (.of main_c_5) main_call4.v3 signi,
    StableHlo.TRef.unary main_call4.v3 main_call4.v4 (broadcastInDim S120 ![] bcast_S_S120) ]

attribute [local irreducible] Host.gather Host.scatter Host.reduceWindow concatenate transpose shapeCast in
set_option maxRecDepth 16384 in
set_option maxHeartbeats 1000000 in
/-- From a memory holding the chain's values at the buffers read from here on, these operations leave the chain's values at the buffers read after them. -/
theorem seg2_spec (W : Valuation τ sig (Elt Ideal)) (x : IVec S16384x16 32) (emb : FVec Ideal S16x300000x10 .f32) (lin : FVec Ideal S300000x1 .f32)
    (h_main_arg0 : W (main_arg0 : DevRef τ sig) = x)
    (h_main_arg1 : W (main_arg1 : DevRef τ sig) = emb)
    (h_main_arg2 : W (main_arg2 : DevRef τ sig) = lin)
    (h_main_v5 : W (main_v5 : DevRef τ sig) = Term.w_main_v5)
    (h_main_v6 : W (main_v6 : DevRef τ sig) = Term.w_main_v6)
    (h_main_v8 : W (main_v8 : DevRef τ sig) = Term.w_main_v8)
    (h_main_v9 : W (main_v9 : DevRef τ sig) = Term.w_main_v9) :
    (after (seg2 (F := Ideal)) W (main_arg0 : DevRef τ sig) = x)
    ∧ (after (seg2 (F := Ideal)) W (main_arg1 : DevRef τ sig) = emb)
    ∧ (after (seg2 (F := Ideal)) W (main_arg2 : DevRef τ sig) = lin)
    ∧ (after (seg2 (F := Ideal)) W (main_v15 : DevRef τ sig) = Term.w_main_v15)
    ∧ (after (seg2 (F := Ideal)) W (main_c_5 : DevRef τ sig) = Term.w_main_c_5)
    ∧ (after (seg2 (F := Ideal)) W (main_call4_v1 : DevRef τ sig) = Term.w_main_call4_v1)
    ∧ (after (seg2 (F := Ideal)) W (main_call4_v2 : DevRef τ sig) = Term.w_main_call4_v2)
    ∧ (after (seg2 (F := Ideal)) W (main_call4_v4 : DevRef τ sig) = Term.w_main_call4_v4) := by
  refine ⟨?_, ?_, ?_, ?_, ?_, ?_, ?_, ?_⟩
  · exact by (after_results_simp; exact h_main_arg0)
  · exact by (after_results_simp; exact h_main_arg1)
  · exact by (after_results_simp; exact h_main_arg2)
  · exact by (after_results_simp; (try simp only [cast_eq, TRef.toBuf, TRef.ofBuf, h_main_v5, h_main_v6, h_main_v8, h_main_v9]); rfl)
  · exact by (after_results_simp; (try simp only [cast_eq, TRef.toBuf, TRef.ofBuf, h_main_v5, h_main_v6, h_main_v8, h_main_v9]); rfl)
  · exact by (after_results_simp; (try simp only [cast_eq, TRef.toBuf, TRef.ofBuf, h_main_v5, h_main_v6, h_main_v8, h_main_v9]); rfl)
  · exact by (after_results_simp; (try simp only [cast_eq, TRef.toBuf, TRef.ofBuf, h_main_v5, h_main_v6, h_main_v8, h_main_v9]); rfl)
  · exact by (after_results_simp; (try simp only [cast_eq, TRef.toBuf, TRef.ofBuf, h_main_v5, h_main_v6, h_main_v8, h_main_v9]); rfl)

end Cert.ReferenceIdeal.RefRun

end
-- ==== Proof.RefSeg2.lean ====
/-
  The reference's operations 46 … 90 of 213, in 3 consecutive segments, and what each segment computes: from any
  memory that holds the chain's values (the term module's) at the buffers the segment and everything after it still read, the
  memory after the segment holds the chain's values at the buffers read after it. Each statement is read off the operations one
  by one (an operation leaves its function of its operands' contents at its result buffer and every other buffer as it was).
-/
import proofs.«178268_j47347719471684_2_alg».proof.Proof.RefTerm
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 46 … 60 of the 213. -/
abbrev seg3 : List (HloOp τ sig (Elt F)) :=
  [
    StableHlo.TRef.binary main_call4.v2 main_call4.v4 main_call4.v5 (cmpi .ne),
    StableHlo.TRef.unary (.of main_c_5 : StableHlo.TRef sig ⟨S_, .i32⟩) main_call4.v6 (broadcastInDim S120 ![] bcast_S_S120),
    StableHlo.TRef.binary (.of main_v15) main_call4.v6 main_call4.v7 Host.remsi,
    StableHlo.TRef.nullary main_call4.c (constantI S_ 32 0#32),
    StableHlo.TRef.unary main_call4.c main_call4.v8 (broadcastInDim S120 ![] bcast_S_S120),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S120 ![] bcast_S_S120),
    StableHlo.TRef.binary main_call4.v1 main_call4.v11 main_call4.v12 subi,
    StableHlo.TRef.ternary main_call4.v10 main_call4.v12 main_call4.v1 main_call4.call0.v0 select,
    StableHlo.nullary main_c_6 (constantI S_ 32 16#32),
    StableHlo.TRef.unary (.of main_c_6) main_call5.v0 id,
    StableHlo.TRef.nullary main_call5.c (constantI S_ 32 0#32),
    StableHlo.TRef.binary main_call5.v0 main_call5.c main_call5.v1 (cmpi .eq) ]

attribute [local irreducible] Host.gather Host.scatter Host.reduceWindow concatenate transpose shapeCast in
set_option maxRecDepth 16384 in
set_option maxHeartbeats 1000000 in
/-- From a memory holding the chain's values at the buffers read from here on, these operations leave the chain's values at the buffers read after them. -/
theorem seg3_spec (W : Valuation τ sig (Elt Ideal)) (x : IVec S16384x16 32) (emb : FVec Ideal S16x300000x10 .f32) (lin : FVec Ideal S300000x1 .f32)
    (h_main_arg0 : W (main_arg0 : DevRef τ sig) = x)
    (h_main_arg1 : W (main_arg1 : DevRef τ sig) = emb)
    (h_main_arg2 : W (main_arg2 : DevRef τ sig) = lin)
    (h_main_v15 : W (main_v15 : DevRef τ sig) = Term.w_main_v15)
    (h_main_c_5 : W (main_c_5 : DevRef τ sig) = Term.w_main_c_5)
    (h_main_call4_v1 : W (main_call4_v1 : DevRef τ sig) = Term.w_main_call4_v1)
    (h_main_call4_v2 : W (main_call4_v2 : DevRef τ sig) = Term.w_main_call4_v2)
    (h_main_call4_v4 : W (main_call4_v4 : DevRef τ sig) = Term.w_main_call4_v4) :
    (after (seg3 (F := Ideal)) W (main_arg0 : DevRef τ sig) = x)
    ∧ (after (seg3 (F := Ideal)) W (main_arg1 : DevRef τ sig) = emb)
    ∧ (after (seg3 (F := Ideal)) W (main_arg2 : DevRef τ sig) = lin)
    ∧ (after (seg3 (F := Ideal)) W (main_v15 : DevRef τ sig) = Term.w_main_v15)
    ∧ (after (seg3 (F := Ideal)) W (main_v16 : DevRef τ sig) = Term.w_main_v16)
    ∧ (after (seg3 (F := Ideal)) W (main_call5_v0 : DevRef τ sig) = Term.w_main_call5_v0)
    ∧ (after (seg3 (F := Ideal)) W (main_call5_v1 : DevRef τ sig) = Term.w_main_call5_v1) := by
  refine ⟨?_, ?_, ?_, ?_, ?_, ?_, ?_⟩
  · exact by (after_results_simp; exact h_main_arg0)
  · exact by (after_results_simp; exact h_main_arg1)
  · exact by (after_results_simp; exact h_main_arg2)
  · exact by (after_results_simp; exact h_main_v15)
  · exact by (after_results_simp; (try simp only [cast_eq, TRef.toBuf, TRef.ofBuf, h_main_v15, h_main_c_5, h_main_call4_v1, h_main_call4_v2, h_main_call4_v4]); rfl)
  · exact by (after_results_simp; (try simp only [cast_eq, TRef.toBuf, TRef.ofBuf, h_main_v15, h_main_c_5, h_main_call4_v1, h_main_call4_v2, h_main_call4_v4]); rfl)
  · exact by (after_results_simp; (try simp only [cast_eq, TRef.toBuf, TRef.ofBuf, h_main_v15, h_main_c_5, h_main_call4_v1, h_main_call4_v2, h_main_call4_v4]); rfl)

/-- Operations 61 … 75 of the 213. -/
abbrev seg4 : List (HloOp τ sig (Elt F)) :=
  [
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S120 ![] bcast_S_S120),
    StableHlo.TRef.binary (.of main_v16) main_call5.v3 main_call5.v4 Host.remsi,
    StableHlo.TRef.nullary main_call5.c_1 (constantI S_ 32 0#32),
    StableHlo.TRef.unary main_call5.c_1 main_call5.v5 (broadcastInDim S120 ![] bcast_S_S120),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S120 ![] bcast_S_S120),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S120 ![] bcast_S_S120),
    StableHlo.TRef.binary main_call5.v8 main_call5.v10 main_call5.v11 (cmpi .ne),
    StableHlo.TRef.binary main_call5.v11 main_call5.v6 main_call5.v12 andi ]

attribute [local irreducible] Host.gather Host.scatter Host.reduceWindow concatenate transpose shapeCast in
set_option maxRecDepth 16384 in
set_option maxHeartbeats 1000000 in
/-- From a memory holding the chain's values at the buffers read from here on, these operations leave the chain's values at the buffers read after them. -/
theorem seg4_spec (W : Valuation τ sig (Elt Ideal)) (x : IVec S16384x16 32) (emb : FVec Ideal S16x300000x10 .f32) (lin : FVec Ideal S300000x1 .f32)
    (h_main_arg0 : W (main_arg0 : DevRef τ sig) = x)
    (h_main_arg1 : W (main_arg1 : DevRef τ sig) = emb)
    (h_main_arg2 : W (main_arg2 : DevRef τ sig) = lin)
    (h_main_v15 : W (main_v15 : DevRef τ sig) = Term.w_main_v15)
    (h_main_v16 : W (main_v16 : DevRef τ sig) = Term.w_main_v16)
    (h_main_call5_v0 : W (main_call5_v0 : DevRef τ sig) = Term.w_main_call5_v0)
    (h_main_call5_v1 : W (main_call5_v1 : DevRef τ sig) = Term.w_main_call5_v1) :
    (after (seg4 (F := Ideal)) W (main_arg0 : DevRef τ sig) = x)
    ∧ (after (seg4 (F := Ideal)) W (main_arg1 : DevRef τ sig) = emb)
    ∧ (after (seg4 (F := Ideal)) W (main_arg2 : DevRef τ sig) = lin)
    ∧ (after (seg4 (F := Ideal)) W (main_v15 : DevRef τ sig) = Term.w_main_v15)
    ∧ (after (seg4 (F := Ideal)) W (main_call5_v2 : DevRef τ sig) = Term.w_main_call5_v2)
    ∧ (after (seg4 (F := Ideal)) W (main_call5_v4 : DevRef τ sig) = Term.w_main_call5_v4)
    ∧ (after (seg4 (F := Ideal)) W (main_call5_v12 : DevRef τ sig) = Term.w_main_call5_v12) := by
  refine ⟨?_, ?_, ?_, ?_, ?_, ?_, ?_⟩
  · exact by (after_results_simp; exact h_main_arg0)
  · exact by (after_results_simp; exact h_main_arg1)
  · exact by (after_results_simp; exact h_main_arg2)
  · exact by (after_results_simp; exact h_main_v15)
  · exact by (after_results_simp; (try simp only [cast_eq, TRef.toBuf, TRef.ofBuf, h_main_v16, h_main_call5_v0, h_main_call5_v1]); rfl)
  · exact by (after_results_simp; (try simp only [cast_eq, TRef.toBuf, TRef.ofBuf, h_main_v16, h_main_call5_v0, h_main_call5_v1]); rfl)
  · exact by (after_results_simp; (try simp only [cast_eq, TRef.toBuf, TRef.ofBuf, h_main_v16, h_main_call5_v0, h_main_call5_v1]); rfl)

/-- Operations 76 … 90 of the 213. -/
abbrev seg5 : List (HloOp τ sig (Elt F)) :=
  [
    StableHlo.TRef.unary main_call5.call0.v0 main_call5.v13 (broadcastInDim S120 ![] bcast_S_S120),
    StableHlo.TRef.binary main_call5.v4 main_call5.v13 main_call5.v14 addi,
    StableHlo.TRef.ternary main_call5.v12 main_call5.v14 main_call5.v4 main_call5.v15 select,
    StableHlo.nullary main_c_7 (constantI S_ 32 1#32),
    StableHlo.TRef.unary (.of main_c_7 : StableHlo.TRef sig ⟨S_, .i32⟩) main_call6.v0 (broadcastInDim S120 ![] bcast_S_S120),
    StableHlo.TRef.binary (.of main_v15) main_call6.v0 main_call6.v1 Host.divsi,
    StableHlo.TRef.unary (.of main_v15) main_call6.v2 signi,
    StableHlo.TRef.unary (.of main_c_7) main_call6.v3 signi,
    StableHlo.TRef.unary main_call6.v3 main_call6.v4 (broadcastInDim S120 ![] bcast_S_S120),
    StableHlo.TRef.binary main_call6.v2 main_call6.v4 main_call6.v5 (cmpi .ne),
    StableHlo.TRef.unary (.of main_c_7 : StableHlo.TRef sig ⟨S_, .i32⟩) main_call6.v6 (broadcastInDim S120 ![] bcast_S_S120),
    StableHlo.TRef.binary (.of main_v15) main_call6.v6 main_call6.v7 Host.remsi,
    StableHlo.TRef.nullary main_call6.c (constantI S_ 32 0#32),
    StableHlo.TRef.unary main_call6.c main_call6.v8 (broadcastInDim S120 ![] bcast_S_S120),
    StableHlo.TRef.binary main_call6.v7 main_call6.v8 main_call6.v9 (cmpi .ne) ]

attribute [local irreducible] Host.gather Host.scatter Host.reduceWindow concatenate transpose shapeCast in
set_option maxRecDepth 16384 in
set_option maxHeartbeats 1000000 in
/-- From a memory holding the chain's values at the buffers read from here on, these operations leave the chain's values at the buffers read after them. -/
theorem seg5_spec (W : Valuation τ sig (Elt Ideal)) (x : IVec S16384x16 32) (emb : FVec Ideal S16x300000x10 .f32) (lin : FVec Ideal S300000x1 .f32)
    (h_main_arg0 : W (main_arg0 : DevRef τ sig) = x)
    (h_main_arg1 : W (main_arg1 : DevRef τ sig) = emb)
    (h_main_arg2 : W (main_arg2 : DevRef τ sig) = lin)
    (h_main_v15 : W (main_v15 : DevRef τ sig) = Term.w_main_v15)
    (h_main_call5_v2 : W (main_call5_v2 : DevRef τ sig) = Term.w_main_call5_v2)
    (h_main_call5_v4 : W (main_call5_v4 : DevRef τ sig) = Term.w_main_call5_v4)
    (h_main_call5_v12 : W (main_call5_v12 : DevRef τ sig) = Term.w_main_call5_v12) :
    (after (seg5 (F := Ideal)) W (main_arg0 : DevRef τ sig) = x)
    ∧ (after (seg5 (F := Ideal)) W (main_arg1 : DevRef τ sig) = emb)
    ∧ (after (seg5 (F := Ideal)) W (main_arg2 : DevRef τ sig) = lin)
    ∧ (after (seg5 (F := Ideal)) W (main_v17 : DevRef τ sig) = Term.w_main_v17)
    ∧ (after (seg5 (F := Ideal)) W (main_call6_v1 : DevRef τ sig) = Term.w_main_call6_v1)
    ∧ (after (seg5 (F := Ideal)) W (main_call6_v5 : DevRef τ sig) = Term.w_main_call6_v5)
    ∧ (after (seg5 (F := Ideal)) W (main_call6_v9 : DevRef τ sig) = Term.w_main_call6_v9) := by
  refine ⟨?_, ?_, ?_, ?_, ?_, ?_, ?_⟩
  · exact by (after_results_simp; exact h_main_arg0)
  · exact by (after_results_simp; exact h_main_arg1)
  · exact by (after_results_simp; exact h_main_arg2)
  · exact by (after_results_simp; (try simp only [cast_eq, TRef.toBuf, TRef.ofBuf, h_main_v15, h_main_call5_v2, h_main_call5_v4, h_main_call5_v12]); rfl)
  · exact by (after_results_simp; (try simp only [cast_eq, TRef.toBuf, TRef.ofBuf, h_main_v15, h_main_call5_v2, h_main_call5_v4, h_main_call5_v12]); rfl)
  · exact by (after_results_simp; (try simp only [cast_eq, TRef.toBuf, TRef.ofBuf, h_main_v15, h_main_call5_v2, h_main_call5_v4, h_main_call5_v12]); rfl)
  · exact by (after_results_simp; (try simp only [cast_eq, TRef.toBuf, TRef.ofBuf, h_main_v15, h_main_call5_v2, h_main_call5_v4, h_main_call5_v12]); rfl)

end Cert.ReferenceIdeal.RefRun

end
-- ==== Proof.RefSeg3.lean ====
/-
  The reference's operations 91 … 135 of 213, in 3 consecutive segments, and what each segment computes: from any
  memory that holds the chain's values (the term module's) at the buffers the segment and everything after it still read, the
  memory after the segment holds the chain's values at the buffers read after it. Each statement is read off the operations one
  by one (an operation leaves its function of its operands' contents at its result buffer and every other buffer as it was).
-/
import proofs.«178268_j47347719471684_2_alg».proof.Proof.RefTerm
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 91 … 105 of the 213. -/
abbrev seg6 : List (HloOp τ sig (Elt F)) :=
  [
    StableHlo.TRef.binary main_call6.v5 main_call6.v9 main_call6.v10 andi,
    StableHlo.TRef.nullary main_call6.c_0 (constantI S_ 32 1#32),
    StableHlo.TRef.unary main_call6.c_0 main_call6.v11 (broadcastInDim S120 ![] bcast_S_S120),
    StableHlo.TRef.binary main_call6.v1 main_call6.v11 main_call6.v12 subi,
    StableHlo.TRef.ternary main_call6.v10 main_call6.v12 main_call6.v1 main_call6.call0.v0 select,
    StableHlo.nullary main_c_8 (constantI S_ 32 16#32),
    StableHlo.TRef.unary (.of main_c_8) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S120 ![] bcast_S_S120),
    StableHlo.TRef.binary (.of main_v18) main_call7.v3 main_call7.v4 Host.remsi,
    StableHlo.TRef.nullary main_call7.c_1 (constantI S_ 32 0#32),
    StableHlo.TRef.unary main_call7.c_1 main_call7.v5 (broadcastInDim S120 ![] bcast_S_S120) ]

attribute [local irreducible] Host.gather Host.scatter Host.reduceWindow concatenate transpose shapeCast in
set_option maxRecDepth 16384 in
set_option maxHeartbeats 1000000 in
/-- From a memory holding the chain's values at the buffers read from here on, these operations leave the chain's values at the buffers read after them. -/
theorem seg6_spec (W : Valuation τ sig (Elt Ideal)) (x : IVec S16384x16 32) (emb : FVec Ideal S16x300000x10 .f32) (lin : FVec Ideal S300000x1 .f32)
    (h_main_arg0 : W (main_arg0 : DevRef τ sig) = x)
    (h_main_arg1 : W (main_arg1 : DevRef τ sig) = emb)
    (h_main_arg2 : W (main_arg2 : DevRef τ sig) = lin)
    (h_main_v17 : W (main_v17 : DevRef τ sig) = Term.w_main_v17)
    (h_main_call6_v1 : W (main_call6_v1 : DevRef τ sig) = Term.w_main_call6_v1)
    (h_main_call6_v5 : W (main_call6_v5 : DevRef τ sig) = Term.w_main_call6_v5)
    (h_main_call6_v9 : W (main_call6_v9 : DevRef τ sig) = Term.w_main_call6_v9) :
    (after (seg6 (F := Ideal)) W (main_arg0 : DevRef τ sig) = x)
    ∧ (after (seg6 (F := Ideal)) W (main_arg1 : DevRef τ sig) = emb)
    ∧ (after (seg6 (F := Ideal)) W (main_arg2 : DevRef τ sig) = lin)
    ∧ (after (seg6 (F := Ideal)) W (main_v17 : DevRef τ sig) = Term.w_main_v17)
    ∧ (after (seg6 (F := Ideal)) W (main_call7_v2 : DevRef τ sig) = Term.w_main_call7_v2)
    ∧ (after (seg6 (F := Ideal)) W (main_call7_v4 : DevRef τ sig) = Term.w_main_call7_v4)
    ∧ (after (seg6 (F := Ideal)) W (main_call7_v5 : DevRef τ sig) = Term.w_main_call7_v5) := by
  refine ⟨?_, ?_, ?_, ?_, ?_, ?_, ?_⟩
  · exact by (after_results_simp; exact h_main_arg0)
  · exact by (after_results_simp; exact h_main_arg1)
  · exact by (after_results_simp; exact h_main_arg2)
  · exact by (after_results_simp; exact h_main_v17)
  · exact by (after_results_simp; (try simp only [cast_eq, TRef.toBuf, TRef.ofBuf, h_main_call6_v1, h_main_call6_v5, h_main_call6_v9]); rfl)
  · exact by (after_results_simp; (try simp only [cast_eq, TRef.toBuf, TRef.ofBuf, h_main_call6_v1, h_main_call6_v5, h_main_call6_v9]); rfl)
  · exact by (after_results_simp; (try simp only [cast_eq, TRef.toBuf, TRef.ofBuf, h_main_call6_v1, h_main_call6_v5, h_main_call6_v9]); rfl)

/-- Operations 106 … 120 of the 213. -/
abbrev seg7 : List (HloOp τ sig (Elt F)) :=
  [
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S120 ![] bcast_S_S120),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S120 ![] bcast_S_S120),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S120 ![] bcast_S_S120),
    StableHlo.TRef.binary main_call7.v4 main_call7.v13 main_call7.v14 addi,
    StableHlo.TRef.ternary main_call7.v12 main_call7.v14 main_call7.v4 main_call7.v15 select,
    StableHlo.unary main_v19 main_v20 (broadcastInDim S120x1 ![0] bcast_S120_S120x1_0 : (⟨S120, .i32⟩ : BufTy).Contents (Elt F) → (⟨S120x1, .i32⟩ : BufTy).Contents (Elt F)),
    StableHlo.nullary main_c_9 (constantI S_ 32 0#32),
    StableHlo.unary main_c_9 main_v21 (broadcastInDim S120 ![] bcast_S_S120 : (⟨S_, .i32⟩ : BufTy).Contents (Elt F) → (⟨S120, .i32⟩ : BufTy).Contents (Elt F)) ]

attribute [local irreducible] Host.gather Host.scatter Host.reduceWindow concatenate transpose shapeCast in
set_option maxRecDepth 16384 in
set_option maxHeartbeats 1000000 in
/-- From a memory holding the chain's values at the buffers read from here on, these operations leave the chain's values at the buffers read after them. -/
theorem seg7_spec (W : Valuation τ sig (Elt Ideal)) (x : IVec S16384x16 32) (emb : FVec Ideal S16x300000x10 .f32) (lin : FVec Ideal S300000x1 .f32)
    (h_main_arg0 : W (main_arg0 : DevRef τ sig) = x)
    (h_main_arg1 : W (main_arg1 : DevRef τ sig) = emb)
    (h_main_arg2 : W (main_arg2 : DevRef τ sig) = lin)
    (h_main_v17 : W (main_v17 : DevRef τ sig) = Term.w_main_v17)
    (h_main_call7_v2 : W (main_call7_v2 : DevRef τ sig) = Term.w_main_call7_v2)
    (h_main_call7_v4 : W (main_call7_v4 : DevRef τ sig) = Term.w_main_call7_v4)
    (h_main_call7_v5 : W (main_call7_v5 : DevRef τ sig) = Term.w_main_call7_v5) :
    (after (seg7 (F := Ideal)) W (main_arg0 : DevRef τ sig) = x)
    ∧ (after (seg7 (F := Ideal)) W (main_arg1 : DevRef τ sig) = emb)
    ∧ (after (seg7 (F := Ideal)) W (main_arg2 : DevRef τ sig) = lin)
    ∧ (after (seg7 (F := Ideal)) W (main_v17 : DevRef τ sig) = Term.w_main_v17)
    ∧ (after (seg7 (F := Ideal)) W (main_v19 : DevRef τ sig) = Term.w_main_v19)
    ∧ (after (seg7 (F := Ideal)) W (main_v20 : DevRef τ sig) = Term.w_main_v20)
    ∧ (after (seg7 (F := Ideal)) W (main_v21 : DevRef τ sig) = Term.w_main_v21) := by
  refine ⟨?_, ?_, ?_, ?_, ?_, ?_, ?_⟩
  · exact by (after_results_simp; exact h_main_arg0)
  · exact by (after_results_simp; exact h_main_arg1)
  · exact by (after_results_simp; exact h_main_arg2)
  · exact by (after_results_simp; exact h_main_v17)
  · exact by (after_results_simp; (try simp only [cast_eq, TRef.toBuf, TRef.ofBuf, h_main_call7_v2, h_main_call7_v4, h_main_call7_v5]); rfl)
  · exact by (after_results_simp; (try simp only [cast_eq, TRef.toBuf, TRef.ofBuf, h_main_call7_v2, h_main_call7_v4, h_main_call7_v5]); rfl)
  · exact by (after_results_simp; (try simp only [cast_eq, TRef.toBuf, TRef.ofBuf, h_main_call7_v2, h_main_call7_v4, h_main_call7_v5]); rfl)

/-- Operations 121 … 135 of the 213. -/
abbrev seg8 : List (HloOp τ sig (Elt F)) :=
  [
    StableHlo.binary main_v17 main_v21 main_v22 (cmpi .slt : (⟨S120, .i32⟩ : BufTy).Contents (Elt F) → (⟨S120, .i32⟩ : BufTy).Contents (Elt F) → (⟨S120, .i1⟩ : BufTy).Contents (Elt F)),
    StableHlo.nullary main_c_10 (constantI S_ 32 16#32),
    StableHlo.unary main_c_10 main_v23 (broadcastInDim S120 ![] bcast_S_S120 : (⟨S_, .i32⟩ : BufTy).Contents (Elt F) → (⟨S120, .i32⟩ : BufTy).Contents (Elt F)),
    StableHlo.binary main_v17 main_v23 main_v24 (addi : (⟨S120, .i32⟩ : BufTy).Contents (Elt F) → (⟨S120, .i32⟩ : BufTy).Contents (Elt F) → (⟨S120, .i32⟩ : BufTy).Contents (Elt F)),
    StableHlo.ternary main_v22 main_v24 main_v17 main_v25 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    StableHlo.unary main_v25 main_v26 (broadcastInDim S120x1 ![0] bcast_S120_S120x1_0 : (⟨S120, .i32⟩ : BufTy).Contents (Elt F) → (⟨S120x1, .i32⟩ : BufTy).Contents (Elt F)),
    StableHlo.binary main_arg0 main_v26 main_v27 ((fun x i => Host.gather gather_S16384x16_S120x1_S16384x120_0_1_n_n_1_1_163841 x i) : (⟨S16384x16, .i32⟩ : BufTy).Contents (Elt F) → (⟨S120x1, .i32⟩ : BufTy).Contents (Elt F) → (⟨S16384x120, .i32⟩ : BufTy).Contents (Elt F)),
    StableHlo.unary main_v27 main_v28 ((transpose S120x16384 [1, 0] · transposes_S16384x120_S120x16384_1_0) : (⟨S16384x120, .i32⟩ : BufTy).Contents (Elt F) → (⟨S120x16384, .i32⟩ : BufTy).Contents (Elt F)),
    StableHlo.nullary main_c_11 (constantI S_ 32 0#32),
    StableHlo.unary main_c_11 main_v29 (broadcastInDim S120x1 ![] bcast_S_S120x1 : (⟨S_, .i32⟩ : BufTy).Contents (Elt F) → (⟨S120x1, .i32⟩ : BufTy).Contents (Elt F)),
    StableHlo.binary main_v20 main_v29 main_v30 (cmpi .slt : (⟨S120x1, .i32⟩ : BufTy).Contents (Elt F) → (⟨S120x1, .i32⟩ : BufTy).Contents (Elt F) → (⟨S120x1, .i1⟩ : BufTy).Contents (Elt F)),
    StableHlo.nullary main_c_12 (constantI S_ 32 16#32),
    StableHlo.unary main_c_12 main_v31 (broadcastInDim S120x1 ![] bcast_S_S120x1 : (⟨S_, .i32⟩ : BufTy).Contents (Elt F) → (⟨S120x1, .i32⟩ : BufTy).Contents (Elt F)),
    StableHlo.binary main_v20 main_v31 main_v32 (addi : (⟨S120x1, .i32⟩ : BufTy).Contents (Elt F) → (⟨S120x1, .i32⟩ : BufTy).Contents (Elt F) → (⟨S120x1, .i32⟩ : BufTy).Contents (Elt F)),
    StableHlo.ternary main_v30 main_v32 main_v20 main_v33 (select : (⟨S120x1, .i1⟩ : BufTy).Contents (Elt F) → (⟨S120x1, .i32⟩ : BufTy).Contents (Elt F) → (⟨S120x1, .i32⟩ : BufTy).Contents (Elt F) → (⟨S120x1, .i32⟩ : BufTy).Contents (Elt F)) ]

attribute [local irreducible] Host.gather Host.scatter Host.reduceWindow concatenate transpose shapeCast in
set_option maxRecDepth 16384 in
set_option maxHeartbeats 1000000 in
/-- From a memory holding the chain's values at the buffers read from here on, these operations leave the chain's values at the buffers read after them. -/
theorem seg8_spec (W : Valuation τ sig (Elt Ideal)) (x : IVec S16384x16 32) (emb : FVec Ideal S16x300000x10 .f32) (lin : FVec Ideal S300000x1 .f32)
    (h_main_arg0 : W (main_arg0 : DevRef τ sig) = x)
    (h_main_arg1 : W (main_arg1 : DevRef τ sig) = emb)
    (h_main_arg2 : W (main_arg2 : DevRef τ sig) = lin)
    (h_main_v17 : W (main_v17 : DevRef τ sig) = Term.w_main_v17)
    (h_main_v19 : W (main_v19 : DevRef τ sig) = Term.w_main_v19)
    (h_main_v20 : W (main_v20 : DevRef τ sig) = Term.w_main_v20)
    (h_main_v21 : W (main_v21 : DevRef τ sig) = Term.w_main_v21) :
    (after (seg8 (F := Ideal)) W (main_arg0 : DevRef τ sig) = x)
    ∧ (after (seg8 (F := Ideal)) W (main_arg1 : DevRef τ sig) = emb)
    ∧ (after (seg8 (F := Ideal)) W (main_arg2 : DevRef τ sig) = lin)
    ∧ (after (seg8 (F := Ideal)) W (main_v17 : DevRef τ sig) = Term.w_main_v17)
    ∧ (after (seg8 (F := Ideal)) W (main_v19 : DevRef τ sig) = Term.w_main_v19)
    ∧ (after (seg8 (F := Ideal)) W (main_v28 : DevRef τ sig) = Term.w_main_v28 x)
    ∧ (after (seg8 (F := Ideal)) W (main_v33 : DevRef τ sig) = Term.w_main_v33) := by
  refine ⟨?_, ?_, ?_, ?_, ?_, ?_, ?_⟩
  · exact by (after_results_simp; exact h_main_arg0)
  · exact by (after_results_simp; exact h_main_arg1)
  · exact by (after_results_simp; exact h_main_arg2)
  · exact by (after_results_simp; exact h_main_v17)
  · exact by (after_results_simp; exact h_main_v19)
  · exact by (after_results_simp; (try simp only [cast_eq, TRef.toBuf, TRef.ofBuf, h_main_arg0, h_main_v17, h_main_v20, h_main_v21]); rfl)
  · exact by (after_results_simp; (try simp only [cast_eq, TRef.toBuf, TRef.ofBuf, h_main_arg0, h_main_v17, h_main_v20, h_main_v21]); rfl)

end Cert.ReferenceIdeal.RefRun

end
-- ==== Proof.RefSeg4.lean ====
/-
  The reference's operations 136 … 175 of 213, in 3 consecutive segments, and what each segment computes: from any
  memory that holds the chain's values (the term module's) at the buffers the segment and everything after it still read, the
  memory after the segment holds the chain's values at the buffers read after it. Each statement is read off the operations one
  by one (an operation leaves its function of its operands' contents at its result buffer and every other buffer as it was).
-/
import proofs.«178268_j47347719471684_2_alg».proof.Proof.RefTerm
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 136 … 145 of the 213. -/
abbrev seg9 : List (HloOp τ sig (Elt F)) :=
  [
    StableHlo.nullary main_c_13 (constantI S_ 32 0#32),
    StableHlo.unary main_c_13 main_v34 (broadcastInDim S120x16384 ![] bcast_S_S120x16384 : (⟨S_, .i32⟩ : BufTy).Contents (Elt F) → (⟨S120x16384, .i32⟩ : BufTy).Contents (Elt F)),
    StableHlo.binary main_v28 main_v34 main_v35 (cmpi .slt : (⟨S120x16384, .i32⟩ : BufTy).Contents (Elt F) → (⟨S120x16384, .i32⟩ : BufTy).Contents (Elt F) → (⟨S120x16384, .i1⟩ : BufTy).Contents (Elt F)),
    StableHlo.nullary main_c_14 (constantI S_ 32 300000#32),
    StableHlo.unary main_c_14 main_v36 (broadcastInDim S120x16384 ![] bcast_S_S120x16384 : (⟨S_, .i32⟩ : BufTy).Contents (Elt F) → (⟨S120x16384, .i32⟩ : BufTy).Contents (Elt F)),
    StableHlo.binary main_v28 main_v36 main_v37 (addi : (⟨S120x16384, .i32⟩ : BufTy).Contents (Elt F) → (⟨S120x16384, .i32⟩ : BufTy).Contents (Elt F) → (⟨S120x16384, .i32⟩ : BufTy).Contents (Elt F)),
    StableHlo.ternary main_v35 main_v37 main_v28 main_v38 (select : (⟨S120x16384, .i1⟩ : BufTy).Contents (Elt F) → (⟨S120x16384, .i32⟩ : BufTy).Contents (Elt F) → (⟨S120x16384, .i32⟩ : BufTy).Contents (Elt F) → (⟨S120x16384, .i32⟩ : BufTy).Contents (Elt F)),
    StableHlo.unary main_v33 main_v39 (broadcastInDim S120x16384 ![0, 1] bcast_S120x1_S120x16384_0_1 : (⟨S120x1, .i32⟩ : BufTy).Contents (Elt F) → (⟨S120x16384, .i32⟩ : BufTy).Contents (Elt F)),
    StableHlo.unary main_v39 main_v40 (broadcastInDim S120x16384x1 ![0, 1] bcast_S120x16384_S120x16384x1_0_1 : (⟨S120x16384, .i32⟩ : BufTy).Contents (Elt F) → (⟨S120x16384x1, .i32⟩ : BufTy).Contents (Elt F)),
    StableHlo.unary main_v38 main_v41 (broadcastInDim S120x16384x1 ![0, 1] bcast_S120x16384_S120x16384x1_0_1 : (⟨S120x16384, .i32⟩ : BufTy).Contents (Elt F) → (⟨S120x16384x1, .i32⟩ : BufTy).Contents (Elt F)) ]

attribute [local irreducible] Host.gather Host.scatter Host.reduceWindow concatenate transpose shapeCast in
set_option maxRecDepth 16384 in
set_option maxHeartbeats 1000000 in
/-- From a memory holding the chain's values at the buffers read from here on, these operations leave the chain's values at the buffers read after them. -/
theorem seg9_spec (W : Valuation τ sig (Elt Ideal)) (x : IVec S16384x16 32) (emb : FVec Ideal S16x300000x10 .f32) (lin : FVec Ideal S300000x1 .f32)
    (h_main_arg0 : W (main_arg0 : DevRef τ sig) = x)
    (h_main_arg1 : W (main_arg1 : DevRef τ sig) = emb)
    (h_main_arg2 : W (main_arg2 : DevRef τ sig) = lin)
    (h_main_v17 : W (main_v17 : DevRef τ sig) = Term.w_main_v17)
    (h_main_v19 : W (main_v19 : DevRef τ sig) = Term.w_main_v19)
    (h_main_v28 : W (main_v28 : DevRef τ sig) = Term.w_main_v28 x)
    (h_main_v33 : W (main_v33 : DevRef τ sig) = Term.w_main_v33) :
    (after (seg9 (F := Ideal)) W (main_arg0 : DevRef τ sig) = x)
    ∧ (after (seg9 (F := Ideal)) W (main_arg1 : DevRef τ sig) = emb)
    ∧ (after (seg9 (F := Ideal)) W (main_arg2 : DevRef τ sig) = lin)
    ∧ (after (seg9 (F := Ideal)) W (main_v17 : DevRef τ sig) = Term.w_main_v17)
    ∧ (after (seg9 (F := Ideal)) W (main_v19 : DevRef τ sig) = Term.w_main_v19)
    ∧ (after (seg9 (F := Ideal)) W (main_v40 : DevRef τ sig) = Term.w_main_v40)
    ∧ (after (seg9 (F := Ideal)) W (main_v41 : DevRef τ sig) = Term.w_main_v41 x) := by
  refine ⟨?_, ?_, ?_, ?_, ?_, ?_, ?_⟩
  · exact by (after_results_simp; exact h_main_arg0)
  · exact by (after_results_simp; exact h_main_arg1)
  · exact by (after_results_simp; exact h_main_arg2)
  · exact by (after_results_simp; exact h_main_v17)
  · exact by (after_results_simp; exact h_main_v19)
  · exact by (after_results_simp; (try simp only [cast_eq, TRef.toBuf, TRef.ofBuf, h_main_v28, h_main_v33]); (try rw [h_main_v28]); (try rw [h_main_v33]); first | done | rfl)
  · exact by (after_results_simp; (try simp only [cast_eq, TRef.toBuf, TRef.ofBuf, h_main_v28, h_main_v33]); (try rw [h_main_v28]); (try rw [h_main_v33]); first | done | rfl)

/-- Operations 146 … 160 of the 213. -/
abbrev seg10 : List (HloOp τ sig (Elt F)) :=
  [
    StableHlo.binary main_v40 main_v41 main_v42 ((fun a b => concatenate S120x16384x2 2 [⟨S120x16384x1, a⟩, ⟨S120x16384x1, b⟩] concatenates_S120x16384x1_S120x16384x1_S120x16384x2_d2) : (⟨S120x16384x1, .i32⟩ : BufTy).Contents (Elt F) → (⟨S120x16384x1, .i32⟩ : BufTy).Contents (Elt F) → (⟨S120x16384x2, .i32⟩ : BufTy).Contents (Elt F)),
    StableHlo.binary main_arg1 main_v42 main_v43 ((fun x i => Host.gather gather_S16x300000x10_S120x16384x2_S120x16384x10_2_01_n_n_01_2_1110 x i) : (⟨S16x300000x10, .f32⟩ : BufTy).Contents (Elt F) → (⟨S120x16384x2, .i32⟩ : BufTy).Contents (Elt F) → (⟨S120x16384x10, .f32⟩ : BufTy).Contents (Elt F)),
    StableHlo.unary main_v17 main_v44 (broadcastInDim S120x1 ![0] bcast_S120_S120x1_0 : (⟨S120, .i32⟩ : BufTy).Contents (Elt F) → (⟨S120x1, .i32⟩ : BufTy).Contents (Elt F)),
    StableHlo.nullary main_c_15 (constantI S_ 32 0#32),
    StableHlo.unary main_c_15 main_v45 (broadcastInDim S120 ![] bcast_S_S120 : (⟨S_, .i32⟩ : BufTy).Contents (Elt F) → (⟨S120, .i32⟩ : BufTy).Contents (Elt F)),
    StableHlo.binary main_v19 main_v45 main_v46 (cmpi .slt : (⟨S120, .i32⟩ : BufTy).Contents (Elt F) → (⟨S120, .i32⟩ : BufTy).Contents (Elt F) → (⟨S120, .i1⟩ : BufTy).Contents (Elt F)),
    StableHlo.nullary main_c_16 (constantI S_ 32 16#32),
    StableHlo.unary main_c_16 main_v47 (broadcastInDim S120 ![] bcast_S_S120 : (⟨S_, .i32⟩ : BufTy).Contents (Elt F) → (⟨S120, .i32⟩ : BufTy).Contents (Elt F)),
    StableHlo.binary main_v19 main_v47 main_v48 (addi : (⟨S120, .i32⟩ : BufTy).Contents (Elt F) → (⟨S120, .i32⟩ : BufTy).Contents (Elt F) → (⟨S120, .i32⟩ : BufTy).Contents (Elt F)),
    StableHlo.ternary main_v46 main_v48 main_v19 main_v49 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    StableHlo.unary main_v49 main_v50 (broadcastInDim S120x1 ![0] bcast_S120_S120x1_0 : (⟨S120, .i32⟩ : BufTy).Contents (Elt F) → (⟨S120x1, .i32⟩ : BufTy).Contents (Elt F)),
    StableHlo.binary main_arg0 main_v50 main_v51 ((fun x i => Host.gather gather_S16384x16_S120x1_S16384x120_0_1_n_n_1_1_163841 x i) : (⟨S16384x16, .i32⟩ : BufTy).Contents (Elt F) → (⟨S120x1, .i32⟩ : BufTy).Contents (Elt F) → (⟨S16384x120, .i32⟩ : BufTy).Contents (Elt F)),
    StableHlo.unary main_v51 main_v52 ((transpose S120x16384 [1, 0] · transposes_S16384x120_S120x16384_1_0) : (⟨S16384x120, .i32⟩ : BufTy).Contents (Elt F) → (⟨S120x16384, .i32⟩ : BufTy).Contents (Elt F)),
    StableHlo.nullary main_c_17 (constantI S_ 32 0#32),
    StableHlo.unary main_c_17 main_v53 (broadcastInDim S120x1 ![] bcast_S_S120x1 : (⟨S_, .i32⟩ : BufTy).Contents (Elt F) → (⟨S120x1, .i32⟩ : BufTy).Contents (Elt F)) ]

attribute [local irreducible] Host.gather Host.scatter Host.reduceWindow concatenate transpose shapeCast in
set_option maxRecDepth 16384 in
set_option maxHeartbeats 1000000 in
/-- From a memory holding the chain's values at the buffers read from here on, these operations leave the chain's values at the buffers read after them. -/
theorem seg10_spec (W : Valuation τ sig (Elt Ideal)) (x : IVec S16384x16 32) (emb : FVec Ideal S16x300000x10 .f32) (lin : FVec Ideal S300000x1 .f32)
    (h_main_arg0 : W (main_arg0 : DevRef τ sig) = x)
    (h_main_arg1 : W (main_arg1 : DevRef τ sig) = emb)
    (h_main_arg2 : W (main_arg2 : DevRef τ sig) = lin)
    (h_main_v17 : W (main_v17 : DevRef τ sig) = Term.w_main_v17)
    (h_main_v19 : W (main_v19 : DevRef τ sig) = Term.w_main_v19)
    (h_main_v40 : W (main_v40 : DevRef τ sig) = Term.w_main_v40)
    (h_main_v41 : W (main_v41 : DevRef τ sig) = Term.w_main_v41 x) :
    (after (seg10 (F := Ideal)) W (main_arg0 : DevRef τ sig) = x)
    ∧ (after (seg10 (F := Ideal)) W (main_arg1 : DevRef τ sig) = emb)
    ∧ (after (seg10 (F := Ideal)) W (main_arg2 : DevRef τ sig) = lin)
    ∧ (after (seg10 (F := Ideal)) W (main_v43 : DevRef τ sig) = Term.w_main_v43 x emb)
    ∧ (after (seg10 (F := Ideal)) W (main_v44 : DevRef τ sig) = Term.w_main_v44)
    ∧ (after (seg10 (F := Ideal)) W (main_v52 : DevRef τ sig) = Term.w_main_v52 x)
    ∧ (after (seg10 (F := Ideal)) W (main_v53 : DevRef τ sig) = Term.w_main_v53) := by
  refine ⟨?_, ?_, ?_, ?_, ?_, ?_, ?_⟩
  · exact by (after_results_simp; exact h_main_arg0)
  · exact by (after_results_simp; exact h_main_arg1)
  · exact by (after_results_simp; exact h_main_arg2)
  · exact by (after_results_simp; (try simp only [cast_eq, TRef.toBuf, TRef.ofBuf, h_main_arg0, h_main_arg1, h_main_v17, h_main_v19, h_main_v40, h_main_v41]); (try rw [h_main_arg0]); (try rw [h_main_arg1]); (try rw [h_main_v17]); (try rw [h_main_v19]); (try rw [h_main_v40]); (try rw [h_main_v41]); first | done | rfl)
  · exact by (after_results_simp; (try simp only [cast_eq, TRef.toBuf, TRef.ofBuf, h_main_arg0, h_main_arg1, h_main_v17, h_main_v19, h_main_v40, h_main_v41]); (try rw [h_main_arg0]); (try rw [h_main_arg1]); (try rw [h_main_v17]); (try rw [h_main_v19]); (try rw [h_main_v40]); (try rw [h_main_v41]); first | done | rfl)
  · exact by (after_results_simp; (try simp only [cast_eq, TRef.toBuf, TRef.ofBuf, h_main_arg0, h_main_arg1, h_main_v17, h_main_v19, h_main_v40, h_main_v41]); (try rw [h_main_arg0]); (try rw [h_main_arg1]); (try rw [h_main_v17]); (try rw [h_main_v19]); (try rw [h_main_v40]); (try rw [h_main_v41]); first | done | rfl)
  · exact by (after_results_simp; (try simp only [cast_eq, TRef.toBuf, TRef.ofBuf, h_main_arg0, h_main_arg1, h_main_v17, h_main_v19, h_main_v40, h_main_v41]); (try rw [h_main_arg0]); (try rw [h_main_arg1]); (try rw [h_main_v17]); (try rw [h_main_v19]); (try rw [h_main_v40]); (try rw [h_main_v41]); first | done | rfl)

/-- Operations 161 … 175 of the 213. -/
abbrev seg11 : List (HloOp τ sig (Elt F)) :=
  [
    StableHlo.binary main_v44 main_v53 main_v54 (cmpi .slt : (⟨S120x1, .i32⟩ : BufTy).Contents (Elt F) → (⟨S120x1, .i32⟩ : BufTy).Contents (Elt F) → (⟨S120x1, .i1⟩ : BufTy).Contents (Elt F)),
    StableHlo.nullary main_c_18 (constantI S_ 32 16#32),
    StableHlo.unary main_c_18 main_v55 (broadcastInDim S120x1 ![] bcast_S_S120x1 : (⟨S_, .i32⟩ : BufTy).Contents (Elt F) → (⟨S120x1, .i32⟩ : BufTy).Contents (Elt F)),
    StableHlo.binary main_v44 main_v55 main_v56 (addi : (⟨S120x1, .i32⟩ : BufTy).Contents (Elt F) → (⟨S120x1, .i32⟩ : BufTy).Contents (Elt F) → (⟨S120x1, .i32⟩ : BufTy).Contents (Elt F)),
    StableHlo.ternary main_v54 main_v56 main_v44 main_v57 (select : (⟨S120x1, .i1⟩ : BufTy).Contents (Elt F) → (⟨S120x1, .i32⟩ : BufTy).Contents (Elt F) → (⟨S120x1, .i32⟩ : BufTy).Contents (Elt F) → (⟨S120x1, .i32⟩ : BufTy).Contents (Elt F)),
    StableHlo.nullary main_c_19 (constantI S_ 32 0#32),
    StableHlo.unary main_c_19 main_v58 (broadcastInDim S120x16384 ![] bcast_S_S120x16384 : (⟨S_, .i32⟩ : BufTy).Contents (Elt F) → (⟨S120x16384, .i32⟩ : BufTy).Contents (Elt F)),
    StableHlo.binary main_v52 main_v58 main_v59 (cmpi .slt : (⟨S120x16384, .i32⟩ : BufTy).Contents (Elt F) → (⟨S120x16384, .i32⟩ : BufTy).Contents (Elt F) → (⟨S120x16384, .i1⟩ : BufTy).Contents (Elt F)),
    StableHlo.nullary main_c_20 (constantI S_ 32 300000#32),
    StableHlo.unary main_c_20 main_v60 (broadcastInDim S120x16384 ![] bcast_S_S120x16384 : (⟨S_, .i32⟩ : BufTy).Contents (Elt F) → (⟨S120x16384, .i32⟩ : BufTy).Contents (Elt F)),
    StableHlo.binary main_v52 main_v60 main_v61 (addi : (⟨S120x16384, .i32⟩ : BufTy).Contents (Elt F) → (⟨S120x16384, .i32⟩ : BufTy).Contents (Elt F) → (⟨S120x16384, .i32⟩ : BufTy).Contents (Elt F)),
    StableHlo.ternary main_v59 main_v61 main_v52 main_v62 (select : (⟨S120x16384, .i1⟩ : BufTy).Contents (Elt F) → (⟨S120x16384, .i32⟩ : BufTy).Contents (Elt F) → (⟨S120x16384, .i32⟩ : BufTy).Contents (Elt F) → (⟨S120x16384, .i32⟩ : BufTy).Contents (Elt F)),
    StableHlo.unary main_v57 main_v63 (broadcastInDim S120x16384 ![0, 1] bcast_S120x1_S120x16384_0_1 : (⟨S120x1, .i32⟩ : BufTy).Contents (Elt F) → (⟨S120x16384, .i32⟩ : BufTy).Contents (Elt F)),
    StableHlo.unary main_v63 main_v64 (broadcastInDim S120x16384x1 ![0, 1] bcast_S120x16384_S120x16384x1_0_1 : (⟨S120x16384, .i32⟩ : BufTy).Contents (Elt F) → (⟨S120x16384x1, .i32⟩ : BufTy).Contents (Elt F)),
    StableHlo.unary main_v62 main_v65 (broadcastInDim S120x16384x1 ![0, 1] bcast_S120x16384_S120x16384x1_0_1 : (⟨S120x16384, .i32⟩ : BufTy).Contents (Elt F) → (⟨S120x16384x1, .i32⟩ : BufTy).Contents (Elt F)) ]

attribute [local irreducible] Host.gather Host.scatter Host.reduceWindow concatenate transpose shapeCast in
set_option maxRecDepth 16384 in
set_option maxHeartbeats 1000000 in
/-- From a memory holding the chain's values at the buffers read from here on, these operations leave the chain's values at the buffers read after them. -/
theorem seg11_spec (W : Valuation τ sig (Elt Ideal)) (x : IVec S16384x16 32) (emb : FVec Ideal S16x300000x10 .f32) (lin : FVec Ideal S300000x1 .f32)
    (h_main_arg0 : W (main_arg0 : DevRef τ sig) = x)
    (h_main_arg1 : W (main_arg1 : DevRef τ sig) = emb)
    (h_main_arg2 : W (main_arg2 : DevRef τ sig) = lin)
    (h_main_v43 : W (main_v43 : DevRef τ sig) = Term.w_main_v43 x emb)
    (h_main_v44 : W (main_v44 : DevRef τ sig) = Term.w_main_v44)
    (h_main_v52 : W (main_v52 : DevRef τ sig) = Term.w_main_v52 x)
    (h_main_v53 : W (main_v53 : DevRef τ sig) = Term.w_main_v53) :
    (after (seg11 (F := Ideal)) W (main_arg0 : DevRef τ sig) = x)
    ∧ (after (seg11 (F := Ideal)) W (main_arg1 : DevRef τ sig) = emb)
    ∧ (after (seg11 (F := Ideal)) W (main_arg2 : DevRef τ sig) = lin)
    ∧ (after (seg11 (F := Ideal)) W (main_v43 : DevRef τ sig) = Term.w_main_v43 x emb)
    ∧ (after (seg11 (F := Ideal)) W (main_v64 : DevRef τ sig) = Term.w_main_v64)
    ∧ (after (seg11 (F := Ideal)) W (main_v65 : DevRef τ sig) = Term.w_main_v65 x) := by
  refine ⟨?_, ?_, ?_, ?_, ?_, ?_⟩
  · exact by (after_results_simp; exact h_main_arg0)
  · exact by (after_results_simp; exact h_main_arg1)
  · exact by (after_results_simp; exact h_main_arg2)
  · exact by (after_results_simp; exact h_main_v43)
  · exact by (after_results_simp; (try simp only [cast_eq, TRef.toBuf, TRef.ofBuf, h_main_v44, h_main_v52, h_main_v53]); (try rw [h_main_v44]); (try rw [h_main_v52]); (try rw [h_main_v53]); first | done | rfl)
  · exact by (after_results_simp; (try simp only [cast_eq, TRef.toBuf, TRef.ofBuf, h_main_v44, h_main_v52, h_main_v53]); (try rw [h_main_v44]); (try rw [h_main_v52]); (try rw [h_main_v53]); first | done | rfl)

end Cert.ReferenceIdeal.RefRun

end
-- ==== Proof.RefSeg5.lean ====
/-
  The reference's operations 176 … 213 of 213, in 4 consecutive segments, and what each segment computes: from any
  memory that holds the chain's values (the term module's) at the buffers the segment and everything after it still read, the
  memory after the segment holds the chain's values at the buffers read after it. Each statement is read off the operations one
  by one (an operation leaves its function of its operands' contents at its result buffer and every other buffer as it was).
-/
import proofs.«178268_j47347719471684_2_alg».proof.Proof.RefTerm
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 176 … 190 of the 213. -/
abbrev seg12 : List (HloOp τ sig (Elt F)) :=
  [
    StableHlo.binary main_v64 main_v65 main_v66 ((fun a b => concatenate S120x16384x2 2 [⟨S120x16384x1, a⟩, ⟨S120x16384x1, b⟩] concatenates_S120x16384x1_S120x16384x1_S120x16384x2_d2) : (⟨S120x16384x1, .i32⟩ : BufTy).Contents (Elt F) → (⟨S120x16384x1, .i32⟩ : BufTy).Contents (Elt F) → (⟨S120x16384x2, .i32⟩ : BufTy).Contents (Elt F)),
    StableHlo.binary main_arg1 main_v66 main_v67 ((fun x i => Host.gather gather_S16x300000x10_S120x16384x2_S120x16384x10_2_01_n_n_01_2_1110 x i) : (⟨S16x300000x10, .f32⟩ : BufTy).Contents (Elt F) → (⟨S120x16384x2, .i32⟩ : BufTy).Contents (Elt F) → (⟨S120x16384x10, .f32⟩ : BufTy).Contents (Elt F)),
    StableHlo.binary main_v43 main_v67 main_v68 (mulf : (⟨S120x16384x10, .f32⟩ : BufTy).Contents (Elt F) → (⟨S120x16384x10, .f32⟩ : BufTy).Contents (Elt F) → (⟨S120x16384x10, .f32⟩ : BufTy).Contents (Elt F)),
    StableHlo.unary main_v68 main_v69 ((transpose S16384x120x10 [1, 0, 2] · transposes_S120x16384x10_S16384x120x10_1_0_2) : (⟨S120x16384x10, .f32⟩ : BufTy).Contents (Elt F) → (⟨S16384x120x10, .f32⟩ : BufTy).Contents (Elt F)),
    StableHlo.reshape main_v69 main_v70 rfl shapeCasts_S16384x120x10_S16384x1200,
    StableHlo.nullary main_v71 (iotaInDim S16 32 0),
    StableHlo.unary main_v71 main_v72 (broadcastInDim S1x16 ![1] bcast_S16_S1x16_1 : (⟨S16, .i32⟩ : BufTy).Contents (Elt F) → (⟨S1x16, .i32⟩ : BufTy).Contents (Elt F)),
    StableHlo.nullary main_c_21 (constantI S_ 32 0#32),
    StableHlo.unary main_c_21 main_v73 (broadcastInDim S1x16 ![] bcast_S_S1x16 : (⟨S_, .i32⟩ : BufTy).Contents (Elt F) → (⟨S1x16, .i32⟩ : BufTy).Contents (Elt F)),
    StableHlo.binary main_v72 main_v73 main_v74 (cmpi .slt : (⟨S1x16, .i32⟩ : BufTy).Contents (Elt F) → (⟨S1x16, .i32⟩ : BufTy).Contents (Elt F) → (⟨S1x16, .i1⟩ : BufTy).Contents (Elt F)),
    StableHlo.nullary main_c_22 (constantI S_ 32 16#32),
    StableHlo.unary main_c_22 main_v75 (broadcastInDim S1x16 ![] bcast_S_S1x16 : (⟨S_, .i32⟩ : BufTy).Contents (Elt F) → (⟨S1x16, .i32⟩ : BufTy).Contents (Elt F)),
    StableHlo.binary main_v72 main_v75 main_v76 (addi : (⟨S1x16, .i32⟩ : BufTy).Contents (Elt F) → (⟨S1x16, .i32⟩ : BufTy).Contents (Elt F) → (⟨S1x16, .i32⟩ : BufTy).Contents (Elt F)),
    StableHlo.ternary main_v74 main_v76 main_v72 main_v77 (select : (⟨S1x16, .i1⟩ : BufTy).Contents (Elt F) → (⟨S1x16, .i32⟩ : BufTy).Contents (Elt F) → (⟨S1x16, .i32⟩ : BufTy).Contents (Elt F) → (⟨S1x16, .i32⟩ : BufTy).Contents (Elt F)),
    StableHlo.nullary main_c_23 (constantI S_ 32 0#32) ]

attribute [local irreducible] Host.gather Host.scatter Host.reduceWindow concatenate transpose shapeCast in
set_option maxRecDepth 16384 in
set_option maxHeartbeats 1000000 in
/-- From a memory holding the chain's values at the buffers read from here on, these operations leave the chain's values at the buffers read after them. -/
theorem seg12_spec (W : Valuation τ sig (Elt Ideal)) (x : IVec S16384x16 32) (emb : FVec Ideal S16x300000x10 .f32) (lin : FVec Ideal S300000x1 .f32)
    (h_main_arg0 : W (main_arg0 : DevRef τ sig) = x)
    (h_main_arg1 : W (main_arg1 : DevRef τ sig) = emb)
    (h_main_arg2 : W (main_arg2 : DevRef τ sig) = lin)
    (h_main_v43 : W (main_v43 : DevRef τ sig) = Term.w_main_v43 x emb)
    (h_main_v64 : W (main_v64 : DevRef τ sig) = Term.w_main_v64)
    (h_main_v65 : W (main_v65 : DevRef τ sig) = Term.w_main_v65 x) :
    (after (seg12 (F := Ideal)) W (main_arg0 : DevRef τ sig) = x)
    ∧ (after (seg12 (F := Ideal)) W (main_arg1 : DevRef τ sig) = emb)
    ∧ (after (seg12 (F := Ideal)) W (main_arg2 : DevRef τ sig) = lin)
    ∧ (after (seg12 (F := Ideal)) W (main_v70 : DevRef τ sig) = Term.w_main_v70 x emb)
    ∧ (after (seg12 (F := Ideal)) W (main_v77 : DevRef τ sig) = Term.w_main_v77)
    ∧ (after (seg12 (F := Ideal)) W (main_c_23 : DevRef τ sig) = Term.w_main_c_23) := by
  refine ⟨?_, ?_, ?_, ?_, ?_, ?_⟩
  · exact by (after_results_simp; exact h_main_arg0)
  · exact by (after_results_simp; exact h_main_arg1)
  · exact by (after_results_simp; exact h_main_arg2)
  · exact by (after_results_simp; (try simp only [cast_eq, TRef.toBuf, TRef.ofBuf, h_main_arg1, h_main_v43, h_main_v64, h_main_v65]); (try rw [h_main_arg1]); (try rw [h_main_v43]); (try rw [h_main_v64]); (try rw [h_main_v65]); first | done | rfl)
  · exact by (after_results_simp; (try simp only [cast_eq, TRef.toBuf, TRef.ofBuf, h_main_arg1, h_main_v43, h_main_v64, h_main_v65]); (try rw [h_main_arg1]); (try rw [h_main_v43]); (try rw [h_main_v64]); (try rw [h_main_v65]); first | done | rfl)
  · exact by (after_results_simp; (try simp only [cast_eq, TRef.toBuf, TRef.ofBuf, h_main_arg1, h_main_v43, h_main_v64, h_main_v65]); (try rw [h_main_arg1]); (try rw [h_main_v43]); (try rw [h_main_v64]); (try rw [h_main_v65]); first | done | rfl)

/-- Operations 191 … 199 of the 213. -/
abbrev seg13 : List (HloOp τ sig (Elt F)) :=
  [
    StableHlo.unary main_c_23 main_v78 (broadcastInDim S16384x16 ![] bcast_S_S16384x16 : (⟨S_, .i32⟩ : BufTy).Contents (Elt F) → (⟨S16384x16, .i32⟩ : BufTy).Contents (Elt F)),
    StableHlo.binary main_arg0 main_v78 main_v79 (cmpi .slt : (⟨S16384x16, .i32⟩ : BufTy).Contents (Elt F) → (⟨S16384x16, .i32⟩ : BufTy).Contents (Elt F) → (⟨S16384x16, .i1⟩ : BufTy).Contents (Elt F)),
    StableHlo.nullary main_c_24 (constantI S_ 32 300000#32),
    StableHlo.unary main_c_24 main_v80 (broadcastInDim S16384x16 ![] bcast_S_S16384x16 : (⟨S_, .i32⟩ : BufTy).Contents (Elt F) → (⟨S16384x16, .i32⟩ : BufTy).Contents (Elt F)),
    StableHlo.binary main_arg0 main_v80 main_v81 (addi : (⟨S16384x16, .i32⟩ : BufTy).Contents (Elt F) → (⟨S16384x16, .i32⟩ : BufTy).Contents (Elt F) → (⟨S16384x16, .i32⟩ : BufTy).Contents (Elt F)),
    StableHlo.ternary main_v79 main_v81 main_arg0 main_v82 (select : (⟨S16384x16, .i1⟩ : BufTy).Contents (Elt F) → (⟨S16384x16, .i32⟩ : BufTy).Contents (Elt F) → (⟨S16384x16, .i32⟩ : BufTy).Contents (Elt F) → (⟨S16384x16, .i32⟩ : BufTy).Contents (Elt F)),
    StableHlo.unary main_v77 main_v83 (broadcastInDim S16384x16 ![0, 1] bcast_S1x16_S16384x16_0_1 : (⟨S1x16, .i32⟩ : BufTy).Contents (Elt F) → (⟨S16384x16, .i32⟩ : BufTy).Contents (Elt F)),
    StableHlo.unary main_v83 main_v84 (broadcastInDim S16384x16x1 ![0, 1] bcast_S16384x16_S16384x16x1_0_1 : (⟨S16384x16, .i32⟩ : BufTy).Contents (Elt F) → (⟨S16384x16x1, .i32⟩ : BufTy).Contents (Elt F)),
    StableHlo.unary main_v82 main_v85 (broadcastInDim S16384x16x1 ![0, 1] bcast_S16384x16_S16384x16x1_0_1 : (⟨S16384x16, .i32⟩ : BufTy).Contents (Elt F) → (⟨S16384x16x1, .i32⟩ : BufTy).Contents (Elt F)) ]

attribute [local irreducible] Host.gather Host.scatter Host.reduceWindow concatenate transpose shapeCast in
set_option maxRecDepth 16384 in
set_option maxHeartbeats 1000000 in
/-- From a memory holding the chain's values at the buffers read from here on, these operations leave the chain's values at the buffers read after them. -/
theorem seg13_spec (W : Valuation τ sig (Elt Ideal)) (x : IVec S16384x16 32) (emb : FVec Ideal S16x300000x10 .f32) (lin : FVec Ideal S300000x1 .f32)
    (h_main_arg0 : W (main_arg0 : DevRef τ sig) = x)
    (h_main_arg1 : W (main_arg1 : DevRef τ sig) = emb)
    (h_main_arg2 : W (main_arg2 : DevRef τ sig) = lin)
    (h_main_v70 : W (main_v70 : DevRef τ sig) = Term.w_main_v70 x emb)
    (h_main_v77 : W (main_v77 : DevRef τ sig) = Term.w_main_v77)
    (h_main_c_23 : W (main_c_23 : DevRef τ sig) = Term.w_main_c_23) :
    (after (seg13 (F := Ideal)) W (main_arg0 : DevRef τ sig) = x)
    ∧ (after (seg13 (F := Ideal)) W (main_arg1 : DevRef τ sig) = emb)
    ∧ (after (seg13 (F := Ideal)) W (main_arg2 : DevRef τ sig) = lin)
    ∧ (after (seg13 (F := Ideal)) W (main_v70 : DevRef τ sig) = Term.w_main_v70 x emb)
    ∧ (after (seg13 (F := Ideal)) W (main_v84 : DevRef τ sig) = Term.w_main_v84)
    ∧ (after (seg13 (F := Ideal)) W (main_v85 : DevRef τ sig) = Term.w_main_v85 x) := by
  refine ⟨?_, ?_, ?_, ?_, ?_, ?_⟩
  · exact by (after_results_simp; exact h_main_arg0)
  · exact by (after_results_simp; exact h_main_arg1)
  · exact by (after_results_simp; exact h_main_arg2)
  · exact by (after_results_simp; exact h_main_v70)
  · exact by (after_results_simp; (try simp only [cast_eq, TRef.toBuf, TRef.ofBuf, h_main_arg0, h_main_v77, h_main_c_23]); (try rw [h_main_arg0]); (try rw [h_main_v77]); (try rw [h_main_c_23]); first | done | rfl)
  · exact by (after_results_simp; (try simp only [cast_eq, TRef.toBuf, TRef.ofBuf, h_main_arg0, h_main_v77, h_main_c_23]); (try rw [h_main_arg0]); (try rw [h_main_v77]); (try rw [h_main_c_23]); first | done | rfl)

/-- Operations 200 … 212 of the 213. -/
abbrev seg14 : List (HloOp τ sig (Elt F)) :=
  [
    StableHlo.binary main_v84 main_v85 main_v86 ((fun a b => concatenate S16384x16x2 2 [⟨S16384x16x1, a⟩, ⟨S16384x16x1, b⟩] concatenates_S16384x16x1_S16384x16x1_S16384x16x2_d2) : (⟨S16384x16x1, .i32⟩ : BufTy).Contents (Elt F) → (⟨S16384x16x1, .i32⟩ : BufTy).Contents (Elt F) → (⟨S16384x16x2, .i32⟩ : BufTy).Contents (Elt F)),
    StableHlo.binary main_arg1 main_v86 main_v87 ((fun x i => Host.gather gather_S16x300000x10_S16384x16x2_S16384x16x10_2_01_n_n_01_2_1110 x i) : (⟨S16x300000x10, .f32⟩ : BufTy).Contents (Elt F) → (⟨S16384x16x2, .i32⟩ : BufTy).Contents (Elt F) → (⟨S16384x16x10, .f32⟩ : BufTy).Contents (Elt F)),
    StableHlo.reshape main_v87 main_v88 rfl shapeCasts_S16384x16x10_S16384x160,
    StableHlo.nullary main_c_25 (constantI S_ 32 0#32),
    StableHlo.unary main_c_25 main_v89 (broadcastInDim S16384x16 ![] bcast_S_S16384x16 : (⟨S_, .i32⟩ : BufTy).Contents (Elt F) → (⟨S16384x16, .i32⟩ : BufTy).Contents (Elt F)),
    StableHlo.binary main_arg0 main_v89 main_v90 (cmpi .slt : (⟨S16384x16, .i32⟩ : BufTy).Contents (Elt F) → (⟨S16384x16, .i32⟩ : BufTy).Contents (Elt F) → (⟨S16384x16, .i1⟩ : BufTy).Contents (Elt F)),
    StableHlo.nullary main_c_26 (constantI S_ 32 300000#32),
    StableHlo.unary main_c_26 main_v91 (broadcastInDim S16384x16 ![] bcast_S_S16384x16 : (⟨S_, .i32⟩ : BufTy).Contents (Elt F) → (⟨S16384x16, .i32⟩ : BufTy).Contents (Elt F)),
    StableHlo.binary main_arg0 main_v91 main_v92 (addi : (⟨S16384x16, .i32⟩ : BufTy).Contents (Elt F) → (⟨S16384x16, .i32⟩ : BufTy).Contents (Elt F) → (⟨S16384x16, .i32⟩ : BufTy).Contents (Elt F)),
    StableHlo.ternary main_v90 main_v92 main_arg0 main_v93 (select : (⟨S16384x16, .i1⟩ : BufTy).Contents (Elt F) → (⟨S16384x16, .i32⟩ : BufTy).Contents (Elt F) → (⟨S16384x16, .i32⟩ : BufTy).Contents (Elt F) → (⟨S16384x16, .i32⟩ : BufTy).Contents (Elt F)),
    StableHlo.unary main_v93 main_v94 (broadcastInDim S16384x16x1 ![0, 1] bcast_S16384x16_S16384x16x1_0_1 : (⟨S16384x16, .i32⟩ : BufTy).Contents (Elt F) → (⟨S16384x16x1, .i32⟩ : BufTy).Contents (Elt F)),
    StableHlo.binary main_arg2 main_v94 main_v95 ((fun x i => Host.gather gather_S300000x1_S16384x16x1_S16384x16x1_2_0_n_n_0_2_11 x i) : (⟨S300000x1, .f32⟩ : BufTy).Contents (Elt F) → (⟨S16384x16x1, .i32⟩ : BufTy).Contents (Elt F) → (⟨S16384x16x1, .f32⟩ : BufTy).Contents (Elt F)),
    StableHlo.reshape main_v95 main_v96 rfl shapeCasts_S16384x16x1_S16384x16 ]

attribute [local irreducible] Host.gather Host.scatter Host.reduceWindow concatenate transpose shapeCast in
set_option maxRecDepth 16384 in
set_option maxHeartbeats 1000000 in
/-- From a memory holding the chain's values at the buffers read from here on, these operations leave the chain's values at the buffers read after them. -/
theorem seg14_spec (W : Valuation τ sig (Elt Ideal)) (x : IVec S16384x16 32) (emb : FVec Ideal S16x300000x10 .f32) (lin : FVec Ideal S300000x1 .f32)
    (h_main_arg0 : W (main_arg0 : DevRef τ sig) = x)
    (h_main_arg1 : W (main_arg1 : DevRef τ sig) = emb)
    (h_main_arg2 : W (main_arg2 : DevRef τ sig) = lin)
    (h_main_v70 : W (main_v70 : DevRef τ sig) = Term.w_main_v70 x emb)
    (h_main_v84 : W (main_v84 : DevRef τ sig) = Term.w_main_v84)
    (h_main_v85 : W (main_v85 : DevRef τ sig) = Term.w_main_v85 x) :
    (after (seg14 (F := Ideal)) W (main_arg0 : DevRef τ sig) = x)
    ∧ (after (seg14 (F := Ideal)) W (main_arg1 : DevRef τ sig) = emb)
    ∧ (after (seg14 (F := Ideal)) W (main_arg2 : DevRef τ sig) = lin)
    ∧ (after (seg14 (F := Ideal)) W (main_v70 : DevRef τ sig) = Term.w_main_v70 x emb)
    ∧ (after (seg14 (F := Ideal)) W (main_v88 : DevRef τ sig) = Term.w_main_v88 x emb)
    ∧ (after (seg14 (F := Ideal)) W (main_v96 : DevRef τ sig) = Term.w_main_v96 x lin) := by
  refine ⟨?_, ?_, ?_, ?_, ?_, ?_⟩
  · exact by (after_results_simp; exact h_main_arg0)
  · exact by (after_results_simp; exact h_main_arg1)
  · exact by (after_results_simp; exact h_main_arg2)
  · exact by (after_results_simp; exact h_main_v70)
  · exact by (after_results_simp; (try simp only [cast_eq, TRef.toBuf, TRef.ofBuf, h_main_arg0, h_main_arg1, h_main_arg2, h_main_v84, h_main_v85]); (try rw [h_main_arg0]); (try rw [h_main_arg1]); (try rw [h_main_arg2]); (try rw [h_main_v84]); (try rw [h_main_v85]); first | done | rfl)
  · exact by (after_results_simp; (try simp only [cast_eq, TRef.toBuf, TRef.ofBuf, h_main_arg0, h_main_arg1, h_main_arg2, h_main_v84, h_main_v85]); (try rw [h_main_arg0]); (try rw [h_main_arg1]); (try rw [h_main_arg2]); (try rw [h_main_v84]); (try rw [h_main_v85]); first | done | rfl)

/-- Operation 213 of the 213. -/
abbrev seg15 : List (HloOp τ sig (Elt F)) :=
  [
    StableHlo.nary ![main_v70, main_v88, main_v96] main_v97 (fun u => concatenate S16384x1376 1 [⟨S16384x1200, u 0⟩, ⟨S16384x160, u 1⟩, ⟨S16384x16, u 2⟩] concatenates_S16384x1200_S16384x160_S16384x16_S16384x1376_d1) ]

attribute [local irreducible] Host.gather Host.scatter Host.reduceWindow concatenate transpose shapeCast in
set_option maxRecDepth 16384 in
set_option maxHeartbeats 1000000 in
/-- From a memory holding the chain's values at the buffers read from here on, these operations leave the chain's values at the buffers read after them. -/
theorem seg15_spec (W : Valuation τ sig (Elt Ideal)) (x : IVec S16384x16 32) (emb : FVec Ideal S16x300000x10 .f32) (lin : FVec Ideal S300000x1 .f32)
    (h_main_arg0 : W (main_arg0 : DevRef τ sig) = x)
    (h_main_arg1 : W (main_arg1 : DevRef τ sig) = emb)
    (h_main_arg2 : W (main_arg2 : DevRef τ sig) = lin)
    (h_main_v70 : W (main_v70 : DevRef τ sig) = Term.w_main_v70 x emb)
    (h_main_v88 : W (main_v88 : DevRef τ sig) = Term.w_main_v88 x emb)
    (h_main_v96 : W (main_v96 : DevRef τ sig) = Term.w_main_v96 x lin) :
    (after (seg15 (F := Ideal)) W (main_arg0 : DevRef τ sig) = x)
    ∧ (after (seg15 (F := Ideal)) W (main_arg1 : DevRef τ sig) = emb)
    ∧ (after (seg15 (F := Ideal)) W (main_arg2 : DevRef τ sig) = lin)
    ∧ (after (seg15 (F := Ideal)) W (main_v97 : DevRef τ sig) = Term.w_main_v97 x emb lin) := by
  refine ⟨?_, ?_, ?_, ?_⟩
  · exact by (after_results_simp; exact h_main_arg0)
  · exact by (after_results_simp; exact h_main_arg1)
  · exact by (after_results_simp; exact h_main_arg2)
  · exact by (after_results_simp; rw [Term.w_main_v97, ← h_main_v70, ← h_main_v88, ← h_main_v96]; first | done | rfl)

end Cert.ReferenceIdeal.RefRun

end
-- ==== Proof.RefRun.lean ====
/-
  The reference's run: its program is one straight line of 213 operations (the functions it calls written out where
  they are called), so every execution ends with each buffer at the fold of those operations over the launch contents.
  The line is cut into 16 consecutive segments; each hands the next the chain's values (the term module's) at the buffers
  still read, so the fold read at the result buffer is the chain's last value, and the arguments are never written.
-/
import proofs.«178268_j47347719471684_2_alg».proof.Proof.RefSeg1
import proofs.«178268_j47347719471684_2_alg».proof.Proof.RefSeg2
import proofs.«178268_j47347719471684_2_alg».proof.Proof.RefSeg3
import proofs.«178268_j47347719471684_2_alg».proof.Proof.RefSeg4
import proofs.«178268_j47347719471684_2_alg».proof.Proof.RefSeg5
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [
    StableHlo.nullary main_cst (constant S_ .f32 0x3F800000#32),
    StableHlo.unary main_cst main_v0 (broadcastInDim S16x16 ![] bcast_S_S16x16 : (⟨S_, .f32⟩ : BufTy).Contents (Elt F) → (⟨S16x16, .f32⟩ : BufTy).Contents (Elt F)),
    StableHlo.TRef.nullary main_call0.v0 (iotaInDim S16x16 32 0),
    StableHlo.TRef.nullary main_call0.c (constantI S_ 32 0#32),
    StableHlo.TRef.unary main_call0.c main_call0.v1 (broadcastInDim S16x16 ![] bcast_S_S16x16),
    StableHlo.TRef.binary main_call0.v0 main_call0.v1 main_call0.v2 addi,
    StableHlo.TRef.nullary main_call0.v3 (iotaInDim S16x16 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S16x16 ![] bcast_S_S16x16),
    StableHlo.TRef.ternary main_call0.v4 main_call0.v5 (.of main_v0) main_call0.v6 select,
    StableHlo.nullary main_cst_0 (constant S_ .f32 0x00000000#32),
    StableHlo.unary main_cst_0 main_v2 (broadcastInDim S16x16 ![] bcast_S_S16x16 : (⟨S_, .f32⟩ : BufTy).Contents (Elt F) → (⟨S16x16, .f32⟩ : BufTy).Contents (Elt F)),
    StableHlo.binary main_v1 main_v2 main_v3 (cmpf .une : (⟨S16x16, .f32⟩ : BufTy).Contents (Elt F) → (⟨S16x16, .f32⟩ : BufTy).Contents (Elt F) → (⟨S16x16, .i1⟩ : BufTy).Contents (Elt F)),
    StableHlo.TRef.reshape (.of main_v3 : StableHlo.TRef sig ⟨S16x16, .i1⟩) main_call1.v0 rfl shapeCasts_S16x16_S256,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![256] ![1] ![255] ![0] x v reduceWindows_S256_S256_w256s1p255_0 h_S_),
    StableHlo.nullary main_c (constantI S_ 32 0#32),
    StableHlo.unary main_c main_v5 (broadcastInDim S120 ![] bcast_S_S120 : (⟨S_, .i32⟩ : BufTy).Contents (Elt F) → (⟨S120, .i32⟩ : BufTy).Contents (Elt F)),
    StableHlo.nullary main_c_1 (constantI S_ 32 0#32),
    StableHlo.TRef.unary (.of main_c_1) main_call2.v0 id,
    StableHlo.TRef.unary main_call2.v0 main_call2.v1 (broadcastInDim S256 ![] bcast_S_S256),
    StableHlo.TRef.binary main_call2.v1 (.of main_v4) main_call2.v2 maxsi,
    StableHlo.nullary main_c_2 (constantI S_ 32 0#32),
    StableHlo.unary main_c_2 main_v7 (broadcastInDim S256 ![] bcast_S_S256 : (⟨S_, .i32⟩ : BufTy).Contents (Elt F) → (⟨S256, .i32⟩ : BufTy).Contents (Elt F)),
    StableHlo.binary main_v6 main_v7 main_v8 (cmpi .slt : (⟨S256, .i32⟩ : BufTy).Contents (Elt F) → (⟨S256, .i32⟩ : BufTy).Contents (Elt F) → (⟨S256, .i1⟩ : BufTy).Contents (Elt F)),
    StableHlo.nullary main_c_3 (constantI S_ 32 120#32),
    StableHlo.unary main_c_3 main_v9 (broadcastInDim S256 ![] bcast_S_S256 : (⟨S_, .i32⟩ : BufTy).Contents (Elt F) → (⟨S256, .i32⟩ : BufTy).Contents (Elt F)),
    StableHlo.binary main_v6 main_v9 main_v10 (addi : (⟨S256, .i32⟩ : BufTy).Contents (Elt F) → (⟨S256, .i32⟩ : BufTy).Contents (Elt F) → (⟨S256, .i32⟩ : BufTy).Contents (Elt F)),
    StableHlo.ternary main_v8 main_v10 main_v6 main_v11 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v11 main_v12 (broadcastInDim S256x1 ![0] bcast_S256_S256x1_0 : (⟨S256, .i32⟩ : BufTy).Contents (Elt F) → (⟨S256x1, .i32⟩ : BufTy).Contents (Elt F)),
    StableHlo.nullary main_c_4 (constantI S_ 32 1#32),
    StableHlo.unary main_c_4 main_v13 (broadcastInDim S256 ![] bcast_S_S256 : (⟨S_, .i32⟩ : BufTy).Contents (Elt F) → (⟨S256, .i32⟩ : BufTy).Contents (Elt F)),
    StableHlo.ternary main_v5 main_v12 main_v13 main_v14 ((fun x i u => Host.scatter scatter_S120_S256x1_S256_n_0_0_1 IntOp.addi x i u) : (⟨S120, .i32⟩ : BufTy).Contents (Elt F) → (⟨S256x1, .i32⟩ : BufTy).Contents (Elt F) → (⟨S256, .i32⟩ : BufTy).Contents (Elt F) → (⟨S120, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v14) main_call3.call0.v0 main_call3.call0.v1 (fun x v => Host.reduceWindow IntOp.addi ![120] ![1] ![119] ![0] x v reduceWindows_S120_S120_w120s1p119_0 h_S_),
    StableHlo.nullary main_c_5 (constantI S_ 32 16#32),
    StableHlo.TRef.unary (.of main_c_5 : StableHlo.TRef sig ⟨S_, .i32⟩) main_call4.v0 (broadcastInDim S120 ![] bcast_S_S120),
    StableHlo.TRef.binary (.of main_v15) main_call4.v0 main_call4.v1 Host.divsi,
    StableHlo.TRef.unary (.of main_v15) main_call4.v2 signi,
    StableHlo.TRef.unary (.of main_c_5) main_call4.v3 signi,
    StableHlo.TRef.unary main_call4.v3 main_call4.v4 (broadcastInDim S120 ![] bcast_S_S120),
    StableHlo.TRef.binary main_call4.v2 main_call4.v4 main_call4.v5 (cmpi .ne),
    StableHlo.TRef.unary (.of main_c_5 : StableHlo.TRef sig ⟨S_, .i32⟩) main_call4.v6 (broadcastInDim S120 ![] bcast_S_S120),
    StableHlo.TRef.binary (.of main_v15) main_call4.v6 main_call4.v7 Host.remsi,
    StableHlo.TRef.nullary main_call4.c (constantI S_ 32 0#32),
    StableHlo.TRef.unary main_call4.c main_call4.v8 (broadcastInDim S120 ![] bcast_S_S120),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S120 ![] bcast_S_S120),
    StableHlo.TRef.binary main_call4.v1 main_call4.v11 main_call4.v12 subi,
    StableHlo.TRef.ternary main_call4.v10 main_call4.v12 main_call4.v1 main_call4.call0.v0 select,
    StableHlo.nullary main_c_6 (constantI S_ 32 16#32),
    StableHlo.TRef.unary (.of main_c_6) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S120 ![] bcast_S_S120),
    StableHlo.TRef.binary (.of main_v16) main_call5.v3 main_call5.v4 Host.remsi,
    StableHlo.TRef.nullary main_call5.c_1 (constantI S_ 32 0#32),
    StableHlo.TRef.unary main_call5.c_1 main_call5.v5 (broadcastInDim S120 ![] bcast_S_S120),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S120 ![] bcast_S_S120),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S120 ![] bcast_S_S120),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S120 ![] bcast_S_S120),
    StableHlo.TRef.binary main_call5.v4 main_call5.v13 main_call5.v14 addi,
    StableHlo.TRef.ternary main_call5.v12 main_call5.v14 main_call5.v4 main_call5.v15 select,
    StableHlo.nullary main_c_7 (constantI S_ 32 1#32),
    StableHlo.TRef.unary (.of main_c_7 : StableHlo.TRef sig ⟨S_, .i32⟩) main_call6.v0 (broadcastInDim S120 ![] bcast_S_S120),
    StableHlo.TRef.binary (.of main_v15) main_call6.v0 main_call6.v1 Host.divsi,
    StableHlo.TRef.unary (.of main_v15) main_call6.v2 signi,
    StableHlo.TRef.unary (.of main_c_7) main_call6.v3 signi,
    StableHlo.TRef.unary main_call6.v3 main_call6.v4 (broadcastInDim S120 ![] bcast_S_S120),
    StableHlo.TRef.binary main_call6.v2 main_call6.v4 main_call6.v5 (cmpi .ne),
    StableHlo.TRef.unary (.of main_c_7 : StableHlo.TRef sig ⟨S_, .i32⟩) main_call6.v6 (broadcastInDim S120 ![] bcast_S_S120),
    StableHlo.TRef.binary (.of main_v15) main_call6.v6 main_call6.v7 Host.remsi,
    StableHlo.TRef.nullary main_call6.c (constantI S_ 32 0#32),
    StableHlo.TRef.unary main_call6.c main_call6.v8 (broadcastInDim S120 ![] bcast_S_S120),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S120 ![] bcast_S_S120),
    StableHlo.TRef.binary main_call6.v1 main_call6.v11 main_call6.v12 subi,
    StableHlo.TRef.ternary main_call6.v10 main_call6.v12 main_call6.v1 main_call6.call0.v0 select,
    StableHlo.nullary main_c_8 (constantI S_ 32 16#32),
    StableHlo.TRef.unary (.of main_c_8) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S120 ![] bcast_S_S120),
    StableHlo.TRef.binary (.of main_v18) main_call7.v3 main_call7.v4 Host.remsi,
    StableHlo.TRef.nullary main_call7.c_1 (constantI S_ 32 0#32),
    StableHlo.TRef.unary main_call7.c_1 main_call7.v5 (broadcastInDim S120 ![] bcast_S_S120),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S120 ![] bcast_S_S120),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S120 ![] bcast_S_S120),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S120 ![] bcast_S_S120),
    StableHlo.TRef.binary main_call7.v4 main_call7.v13 main_call7.v14 addi,
    StableHlo.TRef.ternary main_call7.v12 main_call7.v14 main_call7.v4 main_call7.v15 select,
    StableHlo.unary main_v19 main_v20 (broadcastInDim S120x1 ![0] bcast_S120_S120x1_0 : (⟨S120, .i32⟩ : BufTy).Contents (Elt F) → (⟨S120x1, .i32⟩ : BufTy).Contents (Elt F)),
    StableHlo.nullary main_c_9 (constantI S_ 32 0#32),
    StableHlo.unary main_c_9 main_v21 (broadcastInDim S120 ![] bcast_S_S120 : (⟨S_, .i32⟩ : BufTy).Contents (Elt F) → (⟨S120, .i32⟩ : BufTy).Contents (Elt F)),
    StableHlo.binary main_v17 main_v21 main_v22 (cmpi .slt : (⟨S120, .i32⟩ : BufTy).Contents (Elt F) → (⟨S120, .i32⟩ : BufTy).Contents (Elt F) → (⟨S120, .i1⟩ : BufTy).Contents (Elt F)),
    StableHlo.nullary main_c_10 (constantI S_ 32 16#32),
    StableHlo.unary main_c_10 main_v23 (broadcastInDim S120 ![] bcast_S_S120 : (⟨S_, .i32⟩ : BufTy).Contents (Elt F) → (⟨S120, .i32⟩ : BufTy).Contents (Elt F)),
    StableHlo.binary main_v17 main_v23 main_v24 (addi : (⟨S120, .i32⟩ : BufTy).Contents (Elt F) → (⟨S120, .i32⟩ : BufTy).Contents (Elt F) → (⟨S120, .i32⟩ : BufTy).Contents (Elt F)),
    StableHlo.ternary main_v22 main_v24 main_v17 main_v25 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    StableHlo.unary main_v25 main_v26 (broadcastInDim S120x1 ![0] bcast_S120_S120x1_0 : (⟨S120, .i32⟩ : BufTy).Contents (Elt F) → (⟨S120x1, .i32⟩ : BufTy).Contents (Elt F)),
    StableHlo.binary main_arg0 main_v26 main_v27 ((fun x i => Host.gather gather_S16384x16_S120x1_S16384x120_0_1_n_n_1_1_163841 x i) : (⟨S16384x16, .i32⟩ : BufTy).Contents (Elt F) → (⟨S120x1, .i32⟩ : BufTy).Contents (Elt F) → (⟨S16384x120, .i32⟩ : BufTy).Contents (Elt F)),
    StableHlo.unary main_v27 main_v28 ((transpose S120x16384 [1, 0] · transposes_S16384x120_S120x16384_1_0) : (⟨S16384x120, .i32⟩ : BufTy).Contents (Elt F) → (⟨S120x16384, .i32⟩ : BufTy).Contents (Elt F)),
    StableHlo.nullary main_c_11 (constantI S_ 32 0#32),
    StableHlo.unary main_c_11 main_v29 (broadcastInDim S120x1 ![] bcast_S_S120x1 : (⟨S_, .i32⟩ : BufTy).Contents (Elt F) → (⟨S120x1, .i32⟩ : BufTy).Contents (Elt F)),
    StableHlo.binary main_v20 main_v29 main_v30 (cmpi .slt : (⟨S120x1, .i32⟩ : BufTy).Contents (Elt F) → (⟨S120x1, .i32⟩ : BufTy).Contents (Elt F) → (⟨S120x1, .i1⟩ : BufTy).Contents (Elt F)),
    StableHlo.nullary main_c_12 (constantI S_ 32 16#32),
    StableHlo.unary main_c_12 main_v31 (broadcastInDim S120x1 ![] bcast_S_S120x1 : (⟨S_, .i32⟩ : BufTy).Contents (Elt F) → (⟨S120x1, .i32⟩ : BufTy).Contents (Elt F)),
    StableHlo.binary main_v20 main_v31 main_v32 (addi : (⟨S120x1, .i32⟩ : BufTy).Contents (Elt F) → (⟨S120x1, .i32⟩ : BufTy).Contents (Elt F) → (⟨S120x1, .i32⟩ : BufTy).Contents (Elt F)),
    StableHlo.ternary main_v30 main_v32 main_v20 main_v33 (select : (⟨S120x1, .i1⟩ : BufTy).Contents (Elt F) → (⟨S120x1, .i32⟩ : BufTy).Contents (Elt F) → (⟨S120x1, .i32⟩ : BufTy).Contents (Elt F) → (⟨S120x1, .i32⟩ : BufTy).Contents (Elt F)),
    StableHlo.nullary main_c_13 (constantI S_ 32 0#32),
    StableHlo.unary main_c_13 main_v34 (broadcastInDim S120x16384 ![] bcast_S_S120x16384 : (⟨S_, .i32⟩ : BufTy).Contents (Elt F) → (⟨S120x16384, .i32⟩ : BufTy).Contents (Elt F)),
    StableHlo.binary main_v28 main_v34 main_v35 (cmpi .slt : (⟨S120x16384, .i32⟩ : BufTy).Contents (Elt F) → (⟨S120x16384, .i32⟩ : BufTy).Contents (Elt F) → (⟨S120x16384, .i1⟩ : BufTy).Contents (Elt F)),
    StableHlo.nullary main_c_14 (constantI S_ 32 300000#32),
    StableHlo.unary main_c_14 main_v36 (broadcastInDim S120x16384 ![] bcast_S_S120x16384 : (⟨S_, .i32⟩ : BufTy).Contents (Elt F) → (⟨S120x16384, .i32⟩ : BufTy).Contents (Elt F)),
    StableHlo.binary main_v28 main_v36 main_v37 (addi : (⟨S120x16384, .i32⟩ : BufTy).Contents (Elt F) → (⟨S120x16384, .i32⟩ : BufTy).Contents (Elt F) → (⟨S120x16384, .i32⟩ : BufTy).Contents (Elt F)),
    StableHlo.ternary main_v35 main_v37 main_v28 main_v38 (select : (⟨S120x16384, .i1⟩ : BufTy).Contents (Elt F) → (⟨S120x16384, .i32⟩ : BufTy).Contents (Elt F) → (⟨S120x16384, .i32⟩ : BufTy).Contents (Elt F) → (⟨S120x16384, .i32⟩ : BufTy).Contents (Elt F)),
    StableHlo.unary main_v33 main_v39 (broadcastInDim S120x16384 ![0, 1] bcast_S120x1_S120x16384_0_1 : (⟨S120x1, .i32⟩ : BufTy).Contents (Elt F) → (⟨S120x16384, .i32⟩ : BufTy).Contents (Elt F)),
    StableHlo.unary main_v39 main_v40 (broadcastInDim S120x16384x1 ![0, 1] bcast_S120x16384_S120x16384x1_0_1 : (⟨S120x16384, .i32⟩ : BufTy).Contents (Elt F) → (⟨S120x16384x1, .i32⟩ : BufTy).Contents (Elt F)),
    StableHlo.unary main_v38 main_v41 (broadcastInDim S120x16384x1 ![0, 1] bcast_S120x16384_S120x16384x1_0_1 : (⟨S120x16384, .i32⟩ : BufTy).Contents (Elt F) → (⟨S120x16384x1, .i32⟩ : BufTy).Contents (Elt F)),
    StableHlo.binary main_v40 main_v41 main_v42 ((fun a b => concatenate S120x16384x2 2 [⟨S120x16384x1, a⟩, ⟨S120x16384x1, b⟩] concatenates_S120x16384x1_S120x16384x1_S120x16384x2_d2) : (⟨S120x16384x1, .i32⟩ : BufTy).Contents (Elt F) → (⟨S120x16384x1, .i32⟩ : BufTy).Contents (Elt F) → (⟨S120x16384x2, .i32⟩ : BufTy).Contents (Elt F)),
    StableHlo.binary main_arg1 main_v42 main_v43 ((fun x i => Host.gather gather_S16x300000x10_S120x16384x2_S120x16384x10_2_01_n_n_01_2_1110 x i) : (⟨S16x300000x10, .f32⟩ : BufTy).Contents (Elt F) → (⟨S120x16384x2, .i32⟩ : BufTy).Contents (Elt F) → (⟨S120x16384x10, .f32⟩ : BufTy).Contents (Elt F)),
    StableHlo.unary main_v17 main_v44 (broadcastInDim S120x1 ![0] bcast_S120_S120x1_0 : (⟨S120, .i32⟩ : BufTy).Contents (Elt F) → (⟨S120x1, .i32⟩ : BufTy).Contents (Elt F)),
    StableHlo.nullary main_c_15 (constantI S_ 32 0#32),
    StableHlo.unary main_c_15 main_v45 (broadcastInDim S120 ![] bcast_S_S120 : (⟨S_, .i32⟩ : BufTy).Contents (Elt F) → (⟨S120, .i32⟩ : BufTy).Contents (Elt F)),
    StableHlo.binary main_v19 main_v45 main_v46 (cmpi .slt : (⟨S120, .i32⟩ : BufTy).Contents (Elt F) → (⟨S120, .i32⟩ : BufTy).Contents (Elt F) → (⟨S120, .i1⟩ : BufTy).Contents (Elt F)),
    StableHlo.nullary main_c_16 (constantI S_ 32 16#32),
    StableHlo.unary main_c_16 main_v47 (broadcastInDim S120 ![] bcast_S_S120 : (⟨S_, .i32⟩ : BufTy).Contents (Elt F) → (⟨S120, .i32⟩ : BufTy).Contents (Elt F)),
    StableHlo.binary main_v19 main_v47 main_v48 (addi : (⟨S120, .i32⟩ : BufTy).Contents (Elt F) → (⟨S120, .i32⟩ : BufTy).Contents (Elt F) → (⟨S120, .i32⟩ : BufTy).Contents (Elt F)),
    StableHlo.ternary main_v46 main_v48 main_v19 main_v49 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    StableHlo.unary main_v49 main_v50 (broadcastInDim S120x1 ![0] bcast_S120_S120x1_0 : (⟨S120, .i32⟩ : BufTy).Contents (Elt F) → (⟨S120x1, .i32⟩ : BufTy).Contents (Elt F)),
    StableHlo.binary main_arg0 main_v50 main_v51 ((fun x i => Host.gather gather_S16384x16_S120x1_S16384x120_0_1_n_n_1_1_163841 x i) : (⟨S16384x16, .i32⟩ : BufTy).Contents (Elt F) → (⟨S120x1, .i32⟩ : BufTy).Contents (Elt F) → (⟨S16384x120, .i32⟩ : BufTy).Contents (Elt F)),
    StableHlo.unary main_v51 main_v52 ((transpose S120x16384 [1, 0] · transposes_S16384x120_S120x16384_1_0) : (⟨S16384x120, .i32⟩ : BufTy).Contents (Elt F) → (⟨S120x16384, .i32⟩ : BufTy).Contents (Elt F)),
    StableHlo.nullary main_c_17 (constantI S_ 32 0#32),
    StableHlo.unary main_c_17 main_v53 (broadcastInDim S120x1 ![] bcast_S_S120x1 : (⟨S_, .i32⟩ : BufTy).Contents (Elt F) → (⟨S120x1, .i32⟩ : BufTy).Contents (Elt F)),
    StableHlo.binary main_v44 main_v53 main_v54 (cmpi .slt : (⟨S120x1, .i32⟩ : BufTy).Contents (Elt F) → (⟨S120x1, .i32⟩ : BufTy).Contents (Elt F) → (⟨S120x1, .i1⟩ : BufTy).Contents (Elt F)),
    StableHlo.nullary main_c_18 (constantI S_ 32 16#32),
    StableHlo.unary main_c_18 main_v55 (broadcastInDim S120x1 ![] bcast_S_S120x1 : (⟨S_, .i32⟩ : BufTy).Contents (Elt F) → (⟨S120x1, .i32⟩ : BufTy).Contents (Elt F)),
    StableHlo.binary main_v44 main_v55 main_v56 (addi : (⟨S120x1, .i32⟩ : BufTy).Contents (Elt F) → (⟨S120x1, .i32⟩ : BufTy).Contents (Elt F) → (⟨S120x1, .i32⟩ : BufTy).Contents (Elt F)),
    StableHlo.ternary main_v54 main_v56 main_v44 main_v57 (select : (⟨S120x1, .i1⟩ : BufTy).Contents (Elt F) → (⟨S120x1, .i32⟩ : BufTy).Contents (Elt F) → (⟨S120x1, .i32⟩ : BufTy).Contents (Elt F) → (⟨S120x1, .i32⟩ : BufTy).Contents (Elt F)),
    StableHlo.nullary main_c_19 (constantI S_ 32 0#32),
    StableHlo.unary main_c_19 main_v58 (broadcastInDim S120x16384 ![] bcast_S_S120x16384 : (⟨S_, .i32⟩ : BufTy).Contents (Elt F) → (⟨S120x16384, .i32⟩ : BufTy).Contents (Elt F)),
    StableHlo.binary main_v52 main_v58 main_v59 (cmpi .slt : (⟨S120x16384, .i32⟩ : BufTy).Contents (Elt F) → (⟨S120x16384, .i32⟩ : BufTy).Contents (Elt F) → (⟨S120x16384, .i1⟩ : BufTy).Contents (Elt F)),
    StableHlo.nullary main_c_20 (constantI S_ 32 300000#32),
    StableHlo.unary main_c_20 main_v60 (broadcastInDim S120x16384 ![] bcast_S_S120x16384 : (⟨S_, .i32⟩ : BufTy).Contents (Elt F) → (⟨S120x16384, .i32⟩ : BufTy).Contents (Elt F)),
    StableHlo.binary main_v52 main_v60 main_v61 (addi : (⟨S120x16384, .i32⟩ : BufTy).Contents (Elt F) → (⟨S120x16384, .i32⟩ : BufTy).Contents (Elt F) → (⟨S120x16384, .i32⟩ : BufTy).Contents (Elt F)),
    StableHlo.ternary main_v59 main_v61 main_v52 main_v62 (select : (⟨S120x16384, .i1⟩ : BufTy).Contents (Elt F) → (⟨S120x16384, .i32⟩ : BufTy).Contents (Elt F) → (⟨S120x16384, .i32⟩ : BufTy).Contents (Elt F) → (⟨S120x16384, .i32⟩ : BufTy).Contents (Elt F)),
    StableHlo.unary main_v57 main_v63 (broadcastInDim S120x16384 ![0, 1] bcast_S120x1_S120x16384_0_1 : (⟨S120x1, .i32⟩ : BufTy).Contents (Elt F) → (⟨S120x16384, .i32⟩ : BufTy).Contents (Elt F)),
    StableHlo.unary main_v63 main_v64 (broadcastInDim S120x16384x1 ![0, 1] bcast_S120x16384_S120x16384x1_0_1 : (⟨S120x16384, .i32⟩ : BufTy).Contents (Elt F) → (⟨S120x16384x1, .i32⟩ : BufTy).Contents (Elt F)),
    StableHlo.unary main_v62 main_v65 (broadcastInDim S120x16384x1 ![0, 1] bcast_S120x16384_S120x16384x1_0_1 : (⟨S120x16384, .i32⟩ : BufTy).Contents (Elt F) → (⟨S120x16384x1, .i32⟩ : BufTy).Contents (Elt F)),
    StableHlo.binary main_v64 main_v65 main_v66 ((fun a b => concatenate S120x16384x2 2 [⟨S120x16384x1, a⟩, ⟨S120x16384x1, b⟩] concatenates_S120x16384x1_S120x16384x1_S120x16384x2_d2) : (⟨S120x16384x1, .i32⟩ : BufTy).Contents (Elt F) → (⟨S120x16384x1, .i32⟩ : BufTy).Contents (Elt F) → (⟨S120x16384x2, .i32⟩ : BufTy).Contents (Elt F)),
    StableHlo.binary main_arg1 main_v66 main_v67 ((fun x i => Host.gather gather_S16x300000x10_S120x16384x2_S120x16384x10_2_01_n_n_01_2_1110 x i) : (⟨S16x300000x10, .f32⟩ : BufTy).Contents (Elt F) → (⟨S120x16384x2, .i32⟩ : BufTy).Contents (Elt F) → (⟨S120x16384x10, .f32⟩ : BufTy).Contents (Elt F)),
    StableHlo.binary main_v43 main_v67 main_v68 (mulf : (⟨S120x16384x10, .f32⟩ : BufTy).Contents (Elt F) → (⟨S120x16384x10, .f32⟩ : BufTy).Contents (Elt F) → (⟨S120x16384x10, .f32⟩ : BufTy).Contents (Elt F)),
    StableHlo.unary main_v68 main_v69 ((transpose S16384x120x10 [1, 0, 2] · transposes_S120x16384x10_S16384x120x10_1_0_2) : (⟨S120x16384x10, .f32⟩ : BufTy).Contents (Elt F) → (⟨S16384x120x10, .f32⟩ : BufTy).Contents (Elt F)),
    StableHlo.reshape main_v69 main_v70 rfl shapeCasts_S16384x120x10_S16384x1200,
    StableHlo.nullary main_v71 (iotaInDim S16 32 0),
    StableHlo.unary main_v71 main_v72 (broadcastInDim S1x16 ![1] bcast_S16_S1x16_1 : (⟨S16, .i32⟩ : BufTy).Contents (Elt F) → (⟨S1x16, .i32⟩ : BufTy).Contents (Elt F)),
    StableHlo.nullary main_c_21 (constantI S_ 32 0#32),
    StableHlo.unary main_c_21 main_v73 (broadcastInDim S1x16 ![] bcast_S_S1x16 : (⟨S_, .i32⟩ : BufTy).Contents (Elt F) → (⟨S1x16, .i32⟩ : BufTy).Contents (Elt F)),
    StableHlo.binary main_v72 main_v73 main_v74 (cmpi .slt : (⟨S1x16, .i32⟩ : BufTy).Contents (Elt F) → (⟨S1x16, .i32⟩ : BufTy).Contents (Elt F) → (⟨S1x16, .i1⟩ : BufTy).Contents (Elt F)),
    StableHlo.nullary main_c_22 (constantI S_ 32 16#32),
    StableHlo.unary main_c_22 main_v75 (broadcastInDim S1x16 ![] bcast_S_S1x16 : (⟨S_, .i32⟩ : BufTy).Contents (Elt F) → (⟨S1x16, .i32⟩ : BufTy).Contents (Elt F)),
    StableHlo.binary main_v72 main_v75 main_v76 (addi : (⟨S1x16, .i32⟩ : BufTy).Contents (Elt F) → (⟨S1x16, .i32⟩ : BufTy).Contents (Elt F) → (⟨S1x16, .i32⟩ : BufTy).Contents (Elt F)),
    StableHlo.ternary main_v74 main_v76 main_v72 main_v77 (select : (⟨S1x16, .i1⟩ : BufTy).Contents (Elt F) → (⟨S1x16, .i32⟩ : BufTy).Contents (Elt F) → (⟨S1x16, .i32⟩ : BufTy).Contents (Elt F) → (⟨S1x16, .i32⟩ : BufTy).Contents (Elt F)),
    StableHlo.nullary main_c_23 (constantI S_ 32 0#32),
    StableHlo.unary main_c_23 main_v78 (broadcastInDim S16384x16 ![] bcast_S_S16384x16 : (⟨S_, .i32⟩ : BufTy).Contents (Elt F) → (⟨S16384x16, .i32⟩ : BufTy).Contents (Elt F)),
    StableHlo.binary main_arg0 main_v78 main_v79 (cmpi .slt : (⟨S16384x16, .i32⟩ : BufTy).Contents (Elt F) → (⟨S16384x16, .i32⟩ : BufTy).Contents (Elt F) → (⟨S16384x16, .i1⟩ : BufTy).Contents (Elt F)),
    StableHlo.nullary main_c_24 (constantI S_ 32 300000#32),
    StableHlo.unary main_c_24 main_v80 (broadcastInDim S16384x16 ![] bcast_S_S16384x16 : (⟨S_, .i32⟩ : BufTy).Contents (Elt F) → (⟨S16384x16, .i32⟩ : BufTy).Contents (Elt F)),
    StableHlo.binary main_arg0 main_v80 main_v81 (addi : (⟨S16384x16, .i32⟩ : BufTy).Contents (Elt F) → (⟨S16384x16, .i32⟩ : BufTy).Contents (Elt F) → (⟨S16384x16, .i32⟩ : BufTy).Contents (Elt F)),
    StableHlo.ternary main_v79 main_v81 main_arg0 main_v82 (select : (⟨S16384x16, .i1⟩ : BufTy).Contents (Elt F) → (⟨S16384x16, .i32⟩ : BufTy).Contents (Elt F) → (⟨S16384x16, .i32⟩ : BufTy).Contents (Elt F) → (⟨S16384x16, .i32⟩ : BufTy).Contents (Elt F)),
    StableHlo.unary main_v77 main_v83 (broadcastInDim S16384x16 ![0, 1] bcast_S1x16_S16384x16_0_1 : (⟨S1x16, .i32⟩ : BufTy).Contents (Elt F) → (⟨S16384x16, .i32⟩ : BufTy).Contents (Elt F)),
    StableHlo.unary main_v83 main_v84 (broadcastInDim S16384x16x1 ![0, 1] bcast_S16384x16_S16384x16x1_0_1 : (⟨S16384x16, .i32⟩ : BufTy).Contents (Elt F) → (⟨S16384x16x1, .i32⟩ : BufTy).Contents (Elt F)),
    StableHlo.unary main_v82 main_v85 (broadcastInDim S16384x16x1 ![0, 1] bcast_S16384x16_S16384x16x1_0_1 : (⟨S16384x16, .i32⟩ : BufTy).Contents (Elt F) → (⟨S16384x16x1, .i32⟩ : BufTy).Contents (Elt F)),
    StableHlo.binary main_v84 main_v85 main_v86 ((fun a b => concatenate S16384x16x2 2 [⟨S16384x16x1, a⟩, ⟨S16384x16x1, b⟩] concatenates_S16384x16x1_S16384x16x1_S16384x16x2_d2) : (⟨S16384x16x1, .i32⟩ : BufTy).Contents (Elt F) → (⟨S16384x16x1, .i32⟩ : BufTy).Contents (Elt F) → (⟨S16384x16x2, .i32⟩ : BufTy).Contents (Elt F)),
    StableHlo.binary main_arg1 main_v86 main_v87 ((fun x i => Host.gather gather_S16x300000x10_S16384x16x2_S16384x16x10_2_01_n_n_01_2_1110 x i) : (⟨S16x300000x10, .f32⟩ : BufTy).Contents (Elt F) → (⟨S16384x16x2, .i32⟩ : BufTy).Contents (Elt F) → (⟨S16384x16x10, .f32⟩ : BufTy).Contents (Elt F)),
    StableHlo.reshape main_v87 main_v88 rfl shapeCasts_S16384x16x10_S16384x160,
    StableHlo.nullary main_c_25 (constantI S_ 32 0#32),
    StableHlo.unary main_c_25 main_v89 (broadcastInDim S16384x16 ![] bcast_S_S16384x16 : (⟨S_, .i32⟩ : BufTy).Contents (Elt F) → (⟨S16384x16, .i32⟩ : BufTy).Contents (Elt F)),
    StableHlo.binary main_arg0 main_v89 main_v90 (cmpi .slt : (⟨S16384x16, .i32⟩ : BufTy).Contents (Elt F) → (⟨S16384x16, .i32⟩ : BufTy).Contents (Elt F) → (⟨S16384x16, .i1⟩ : BufTy).Contents (Elt F)),
    StableHlo.nullary main_c_26 (constantI S_ 32 300000#32),
    StableHlo.unary main_c_26 main_v91 (broadcastInDim S16384x16 ![] bcast_S_S16384x16 : (⟨S_, .i32⟩ : BufTy).Contents (Elt F) → (⟨S16384x16, .i32⟩ : BufTy).Contents (Elt F)),
    StableHlo.binary main_arg0 main_v91 main_v92 (addi : (⟨S16384x16, .i32⟩ : BufTy).Contents (Elt F) → (⟨S16384x16, .i32⟩ : BufTy).Contents (Elt F) → (⟨S16384x16, .i32⟩ : BufTy).Contents (Elt F)),
    StableHlo.ternary main_v90 main_v92 main_arg0 main_v93 (select : (⟨S16384x16, .i1⟩ : BufTy).Contents (Elt F) → (⟨S16384x16, .i32⟩ : BufTy).Contents (Elt F) → (⟨S16384x16, .i32⟩ : BufTy).Contents (Elt F) → (⟨S16384x16, .i32⟩ : BufTy).Contents (Elt F)),
    StableHlo.unary main_v93 main_v94 (broadcastInDim S16384x16x1 ![0, 1] bcast_S16384x16_S16384x16x1_0_1 : (⟨S16384x16, .i32⟩ : BufTy).Contents (Elt F) → (⟨S16384x16x1, .i32⟩ : BufTy).Contents (Elt F)),
    StableHlo.binary main_arg2 main_v94 main_v95 ((fun x i => Host.gather gather_S300000x1_S16384x16x1_S16384x16x1_2_0_n_n_0_2_11 x i) : (⟨S300000x1, .f32⟩ : BufTy).Contents (Elt F) → (⟨S16384x16x1, .i32⟩ : BufTy).Contents (Elt F) → (⟨S16384x16x1, .f32⟩ : BufTy).Contents (Elt F)),
    StableHlo.reshape main_v95 main_v96 rfl shapeCasts_S16384x16x1_S16384x16,
    StableHlo.nary ![main_v70, main_v88, main_v96] main_v97 (fun u => concatenate S16384x1376 1 [⟨S16384x1200, u 0⟩, ⟨S16384x160, u 1⟩, ⟨S16384x16, u 2⟩] concatenates_S16384x1200_S16384x160_S16384x16_S16384x1376_d1) ]

set_option maxRecDepth 65536 in
set_option maxHeartbeats 4000000 in
/-- The program is that straight line: the called functions unfolded at their calls, sequencing reassociated. -/
theorem main_eq (c : Dev nD) : main (F := F) c = seq ops := by
  simp only [main, main_part0, main_part1, main_part2, fn_triu.body, fn_cumsum_0.body, fn_cumsum.body, fn_clip.body, fn_cumsum_2.body, fn_cumsum_1.body, fn_where.body, fn_floor_divide.body, fn_where_3.body, fn_remainder.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨
    StableHlo.nullary_bufs_sub .., StableHlo.unary_bufs_sub .., StableHlo.nullary_bufs_sub .., StableHlo.nullary_bufs_sub .., StableHlo.unary_bufs_sub .., StableHlo.binary_bufs_sub ..,
    StableHlo.nullary_bufs_sub .., StableHlo.binary_bufs_sub .., StableHlo.nullary_bufs_sub .., StableHlo.unary_bufs_sub .., StableHlo.ternary_bufs_sub .., StableHlo.nullary_bufs_sub ..,
    StableHlo.unary_bufs_sub .., StableHlo.binary_bufs_sub .., StableHlo.reshape_bufs_sub .., StableHlo.unary_bufs_sub .., StableHlo.nullary_bufs_sub .., StableHlo.unary_bufs_sub ..,
    StableHlo.binary_bufs_sub .., StableHlo.nullary_bufs_sub .., StableHlo.unary_bufs_sub .., StableHlo.nullary_bufs_sub .., StableHlo.unary_bufs_sub .., StableHlo.unary_bufs_sub ..,
    StableHlo.binary_bufs_sub .., StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.nullary_bufs_sub .., StableHlo.unary_bufs_sub .., StableHlo.ternary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.unary_bufs_sub .., StableHlo.unary_bufs_sub .., StableHlo.unary_bufs_sub .., StableHlo.binary_bufs_sub .., StableHlo.unary_bufs_sub .., StableHlo.binary_bufs_sub ..,
    StableHlo.nullary_bufs_sub .., StableHlo.unary_bufs_sub .., StableHlo.binary_bufs_sub .., StableHlo.binary_bufs_sub .., StableHlo.nullary_bufs_sub .., StableHlo.unary_bufs_sub ..,
    StableHlo.binary_bufs_sub .., StableHlo.ternary_bufs_sub .., StableHlo.nullary_bufs_sub .., StableHlo.unary_bufs_sub .., StableHlo.nullary_bufs_sub .., StableHlo.binary_bufs_sub ..,
    StableHlo.nullary_bufs_sub .., StableHlo.ternary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.nullary_bufs_sub .., StableHlo.binary_bufs_sub ..,
    StableHlo.unary_bufs_sub .., StableHlo.binary_bufs_sub .., StableHlo.binary_bufs_sub .., StableHlo.unary_bufs_sub .., StableHlo.binary_bufs_sub .., StableHlo.ternary_bufs_sub ..,
    StableHlo.nullary_bufs_sub .., StableHlo.unary_bufs_sub .., StableHlo.binary_bufs_sub .., StableHlo.unary_bufs_sub .., StableHlo.unary_bufs_sub .., StableHlo.unary_bufs_sub ..,
    StableHlo.binary_bufs_sub .., StableHlo.unary_bufs_sub .., StableHlo.binary_bufs_sub .., StableHlo.nullary_bufs_sub .., StableHlo.unary_bufs_sub .., StableHlo.binary_bufs_sub ..,
    StableHlo.binary_bufs_sub .., StableHlo.nullary_bufs_sub .., StableHlo.unary_bufs_sub .., StableHlo.binary_bufs_sub .., StableHlo.ternary_bufs_sub .., StableHlo.nullary_bufs_sub ..,
    StableHlo.unary_bufs_sub .., StableHlo.nullary_bufs_sub .., StableHlo.binary_bufs_sub .., StableHlo.nullary_bufs_sub .., StableHlo.ternary_bufs_sub .., StableHlo.unary_bufs_sub ..,
    StableHlo.binary_bufs_sub .., StableHlo.nullary_bufs_sub .., StableHlo.unary_bufs_sub .., StableHlo.binary_bufs_sub .., StableHlo.nullary_bufs_sub .., StableHlo.unary_bufs_sub ..,
    StableHlo.binary_bufs_sub .., StableHlo.nullary_bufs_sub .., StableHlo.binary_bufs_sub .., StableHlo.unary_bufs_sub .., StableHlo.binary_bufs_sub .., StableHlo.binary_bufs_sub ..,
    StableHlo.unary_bufs_sub .., StableHlo.binary_bufs_sub .., StableHlo.ternary_bufs_sub .., StableHlo.unary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.unary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.unary_bufs_sub ..,
    StableHlo.unary_bufs_sub .., StableHlo.binary_bufs_sub .., StableHlo.binary_bufs_sub .., StableHlo.unary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.unary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.unary_bufs_sub ..,
    StableHlo.unary_bufs_sub .., StableHlo.binary_bufs_sub .., StableHlo.binary_bufs_sub .., StableHlo.binary_bufs_sub .., StableHlo.unary_bufs_sub .., StableHlo.reshape_bufs_sub ..,
    StableHlo.nullary_bufs_sub .., StableHlo.unary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.unary_bufs_sub ..,
    StableHlo.unary_bufs_sub .., StableHlo.binary_bufs_sub .., StableHlo.binary_bufs_sub .., StableHlo.reshape_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.reshape_bufs_sub .., StableHlo.nary_bufs_sub ..⟩

/-- Every execution terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold over a concatenation is the fold over the second part, from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The program's operations are the segments one after the other. -/
theorem ops_eq : (ops : List (HloOp τ sig (Elt F))) = seg0 ++ (seg1 ++ (seg2 ++ (seg3 ++ (seg4 ++ (seg5 ++ (seg6 ++ (seg7 ++ (seg8 ++ (seg9 ++ (seg10 ++ (seg11 ++ (seg12 ++ (seg13 ++ (seg14 ++ (seg15))))))))))))))) := rfl

set_option maxRecDepth 16384 in
/-- The fold of the whole program, read at the result buffer, is the last value of the chain at the arguments' launch contents;
    read at an argument's buffer it is what was there: segment by segment, each handing the next the values it reads. -/
theorem fold_eq (V : Valuation τ sig (Elt Ideal)) :
    after (ops (F := Ideal)) V (main_v97 : DevRef τ sig)
        = Term.w_main_v97 (V (main_arg0 : DevRef τ sig)) (V (main_arg1 : DevRef τ sig)) (V (main_arg2 : DevRef τ sig))
      ∧ after (ops (F := Ideal)) V (main_arg0 : DevRef τ sig) = V (main_arg0 : DevRef τ sig)
      ∧ after (ops (F := Ideal)) V (main_arg1 : DevRef τ sig) = V (main_arg1 : DevRef τ sig)
      ∧ after (ops (F := Ideal)) V (main_arg2 : DevRef τ sig) = V (main_arg2 : DevRef τ sig) := by
  have e : after (ops (F := Ideal)) V = after seg15 (after seg14 (after seg13 (after seg12 (after seg11 (after seg10 (after seg9 (after seg8 (after seg7 (after seg6 (after seg5 (after seg4 (after seg3 (after seg2 (after seg1 (after seg0 (V)))))))))))))))) := by
    rw [ops_eq]; simp only [after_append]
  rw [e]
  obtain ⟨a0_main_arg0, a0_main_arg1, a0_main_arg2, a0_main_call1_v0⟩ := seg0_spec V (V (main_arg0 : DevRef τ sig)) (V (main_arg1 : DevRef τ sig)) (V (main_arg2 : DevRef τ sig)) rfl rfl rfl
  obtain ⟨a1_main_arg0, a1_main_arg1, a1_main_arg2, a1_main_v5, a1_main_v6, a1_main_v8, a1_main_v9⟩ := seg1_spec _ (V (main_arg0 : DevRef τ sig)) (V (main_arg1 : DevRef τ sig)) (V (main_arg2 : DevRef τ sig)) a0_main_arg0 a0_main_arg1 a0_main_arg2 a0_main_call1_v0
  obtain ⟨a2_main_arg0, a2_main_arg1, a2_main_arg2, a2_main_v15, a2_main_c_5, a2_main_call4_v1, a2_main_call4_v2, a2_main_call4_v4⟩ := seg2_spec _ (V (main_arg0 : DevRef τ sig)) (V (main_arg1 : DevRef τ sig)) (V (main_arg2 : DevRef τ sig)) a1_main_arg0 a1_main_arg1 a1_main_arg2 a1_main_v5 a1_main_v6 a1_main_v8 a1_main_v9
  obtain ⟨a3_main_arg0, a3_main_arg1, a3_main_arg2, a3_main_v15, a3_main_v16, a3_main_call5_v0, a3_main_call5_v1⟩ := seg3_spec _ (V (main_arg0 : DevRef τ sig)) (V (main_arg1 : DevRef τ sig)) (V (main_arg2 : DevRef τ sig)) a2_main_arg0 a2_main_arg1 a2_main_arg2 a2_main_v15 a2_main_c_5 a2_main_call4_v1 a2_main_call4_v2 a2_main_call4_v4
  obtain ⟨a4_main_arg0, a4_main_arg1, a4_main_arg2, a4_main_v15, a4_main_call5_v2, a4_main_call5_v4, a4_main_call5_v12⟩ := seg4_spec _ (V (main_arg0 : DevRef τ sig)) (V (main_arg1 : DevRef τ sig)) (V (main_arg2 : DevRef τ sig)) a3_main_arg0 a3_main_arg1 a3_main_arg2 a3_main_v15 a3_main_v16 a3_main_call5_v0 a3_main_call5_v1
  obtain ⟨a5_main_arg0, a5_main_arg1, a5_main_arg2, a5_main_v17, a5_main_call6_v1, a5_main_call6_v5, a5_main_call6_v9⟩ := seg5_spec _ (V (main_arg0 : DevRef τ sig)) (V (main_arg1 : DevRef τ sig)) (V (main_arg2 : DevRef τ sig)) a4_main_arg0 a4_main_arg1 a4_main_arg2 a4_main_v15 a4_main_call5_v2 a4_main_call5_v4 a4_main_call5_v12
  obtain ⟨a6_main_arg0, a6_main_arg1, a6_main_arg2, a6_main_v17, a6_main_call7_v2, a6_main_call7_v4, a6_main_call7_v5⟩ := seg6_spec _ (V (main_arg0 : DevRef τ sig)) (V (main_arg1 : DevRef τ sig)) (V (main_arg2 : DevRef τ sig)) a5_main_arg0 a5_main_arg1 a5_main_arg2 a5_main_v17 a5_main_call6_v1 a5_main_call6_v5 a5_main_call6_v9
  obtain ⟨a7_main_arg0, a7_main_arg1, a7_main_arg2, a7_main_v17, a7_main_v19, a7_main_v20, a7_main_v21⟩ := seg7_spec _ (V (main_arg0 : DevRef τ sig)) (V (main_arg1 : DevRef τ sig)) (V (main_arg2 : DevRef τ sig)) a6_main_arg0 a6_main_arg1 a6_main_arg2 a6_main_v17 a6_main_call7_v2 a6_main_call7_v4 a6_main_call7_v5
  obtain ⟨a8_main_arg0, a8_main_arg1, a8_main_arg2, a8_main_v17, a8_main_v19, a8_main_v28, a8_main_v33⟩ := seg8_spec _ (V (main_arg0 : DevRef τ sig)) (V (main_arg1 : DevRef τ sig)) (V (main_arg2 : DevRef τ sig)) a7_main_arg0 a7_main_arg1 a7_main_arg2 a7_main_v17 a7_main_v19 a7_main_v20 a7_main_v21
  obtain ⟨a9_main_arg0, a9_main_arg1, a9_main_arg2, a9_main_v17, a9_main_v19, a9_main_v40, a9_main_v41⟩ := seg9_spec _ (V (main_arg0 : DevRef τ sig)) (V (main_arg1 : DevRef τ sig)) (V (main_arg2 : DevRef τ sig)) a8_main_arg0 a8_main_arg1 a8_main_arg2 a8_main_v17 a8_main_v19 a8_main_v28 a8_main_v33
  obtain ⟨a10_main_arg0, a10_main_arg1, a10_main_arg2, a10_main_v43, a10_main_v44, a10_main_v52, a10_main_v53⟩ := seg10_spec _ (V (main_arg0 : DevRef τ sig)) (V (main_arg1 : DevRef τ sig)) (V (main_arg2 : DevRef τ sig)) a9_main_arg0 a9_main_arg1 a9_main_arg2 a9_main_v17 a9_main_v19 a9_main_v40 a9_main_v41
  obtain ⟨a11_main_arg0, a11_main_arg1, a11_main_arg2, a11_main_v43, a11_main_v64, a11_main_v65⟩ := seg11_spec _ (V (main_arg0 : DevRef τ sig)) (V (main_arg1 : DevRef τ sig)) (V (main_arg2 : DevRef τ sig)) a10_main_arg0 a10_main_arg1 a10_main_arg2 a10_main_v43 a10_main_v44 a10_main_v52 a10_main_v53
  obtain ⟨a12_main_arg0, a12_main_arg1, a12_main_arg2, a12_main_v70, a12_main_v77, a12_main_c_23⟩ := seg12_spec _ (V (main_arg0 : DevRef τ sig)) (V (main_arg1 : DevRef τ sig)) (V (main_arg2 : DevRef τ sig)) a11_main_arg0 a11_main_arg1 a11_main_arg2 a11_main_v43 a11_main_v64 a11_main_v65
  obtain ⟨a13_main_arg0, a13_main_arg1, a13_main_arg2, a13_main_v70, a13_main_v84, a13_main_v85⟩ := seg13_spec _ (V (main_arg0 : DevRef τ sig)) (V (main_arg1 : DevRef τ sig)) (V (main_arg2 : DevRef τ sig)) a12_main_arg0 a12_main_arg1 a12_main_arg2 a12_main_v70 a12_main_v77 a12_main_c_23
  obtain ⟨a14_main_arg0, a14_main_arg1, a14_main_arg2, a14_main_v70, a14_main_v88, a14_main_v96⟩ := seg14_spec _ (V (main_arg0 : DevRef τ sig)) (V (main_arg1 : DevRef τ sig)) (V (main_arg2 : DevRef τ sig)) a13_main_arg0 a13_main_arg1 a13_main_arg2 a13_main_v70 a13_main_v84 a13_main_v85
  obtain ⟨a15_main_arg0, a15_main_arg1, a15_main_arg2, a15_main_v97⟩ := seg15_spec _ (V (main_arg0 : DevRef τ sig)) (V (main_arg1 : DevRef τ sig)) (V (main_arg2 : DevRef τ sig)) a14_main_arg0 a14_main_arg1 a14_main_arg2 a14_main_v70 a14_main_v88 a14_main_v96
  exact ⟨a15_main_v97, a15_main_arg0, a15_main_arg1, a15_main_arg2⟩

/-- On every device, from any memory with zero counters: every execution of the reference terminates with the result buffer
    at the chain's last value of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v97) = Term.w_main_v97 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ h c =>
      ⟨(h c main_v97).trans (fold_eq (launchContents m c)).1,
       (h c main_arg0).trans (fold_eq (launchContents m c)).2.1,
       (h c main_arg1).trans (fold_eq (launchContents m c)).2.2.1,
       (h c main_arg2).trans (fold_eq (launchContents m c)).2.2.2⟩)
    (run_main m ρ)

end Cert.ReferenceIdeal.RefRun

end
-- ==== Proof.PairFields.lean ====
/-
  The list of the 120 field pairs, evaluated.

  The reference takes no input to build it. It forms the 16 × 16 square whose entry (r, c) is one when r < c and zero
  otherwise, reads the square row by row as 256 words, and finds the positions of its 120 ones in order:
    * the running count  cum k = number of ones at positions 0 … k;
    * the tally  bin m = number of positions k with cum k = m, for m < 120 (a position whose count is 120 lies past
      the last one and is not tallied);
    * the running sum of the tally,  pos m = number of positions whose count is at most m, which is the position of
      the (m + 1)-th one, because the count first exceeds m exactly there.
  Position 16 · i + j is the pair (i, j), so the quotient by 16 is the pair's smaller field and the remainder its
  larger one. Each step below states the vector a step computes as an explicit function of the position and checks
  it position by position; the one step on floating-point values (is the entry different from 0.0?) is the
  comparison of the reals 1 and 0 with 0.
-/
import proofs.«178268_j47347719471684_2_alg».proof.Proof.RefTerm
import proofs.«178268_j47347719471684_2_alg».proof.Proof.Spec
import Idealize.ShloMosaic.Lib.IdealHost

noncomputable section

namespace Cert.ReferenceIdeal.PairFields

open Idealize.ShloMosaic Idealize.ShloMosaic.ValueIdx Cert.ReferenceIdeal Cert.ReferenceIdeal.Gen Cert.ReferenceIdeal.Term

set_option Elab.async false

/-- On a 16 × 16 square, "row at least column" as a word comparison is the negation of "row before column". -/
theorem sge_cell : ∀ a b : Fin 16, IntOp.cmpi .sge (IntOp.addi (BitVec.ofNat 32 a.val) 0#32) (BitVec.ofNat 32 b.val)
    = if a.val < b.val then 0#1 else 1#1 := by decide

/-- The mask: the entry is 0.0 where the row is at least the column and 1.0 elsewhere, and it differs from 0.0 exactly
    where the row is before the column. -/
theorem mask_eq : w_main_v3 = fun i => if (i 0).val < (i 1).val then 1#1 else 0#1 := by
  funext i
  show FloatOps.cmpf .une (Scalar.select (IntOp.cmpi .sge (IntOp.addi (BitVec.ofNat 32 (i 0).val) 0#32) (BitVec.ofNat 32 (i 1).val)) (Ideal.ofBits .f32 0x00000000#32) (Ideal.ofBits .f32 0x3F800000#32)) (Ideal.ofBits .f32 0x00000000#32) = _
  rw [sge_cell (i 0) (i 1), Ideal.ofBits_zero_f32, Ideal.ofBits_one_f32]
  by_cases h : (i 0).val < (i 1).val
  · rw [if_pos h, if_pos h, select_zero]
    show Ideal.cmp .une (1 : EReal) 0 = 1#1
    simp [Ideal.cmp]
  · rw [if_neg h, if_neg h, select_one]
    show Ideal.cmp .une (0 : EReal) 0 = 0#1
    simp [Ideal.cmp]

/-- The mask as a flat vector of 256 words: position k is row k / 16, column k % 16. -/
def maskW : IVec S256 32 := fun k => if (k 0).val / 16 < (k 0).val % 16 then 1#32 else 0#32

theorem maskW_eq : w_main_call1_v1 = maskW := by
  unfold w_main_call1_v1 w_main_call1_v0
  rw [mask_eq]
  funext k
  rw [eq_ix1 k]
  generalize k 0 = n
  revert n
  decide +kernel

/-- The number of ones of the mask at flat positions 0 … k: the whole rows before row k / 16 (row r has 15 - r ones),
    then the ones of that row up to column k % 16. -/
def cumN (k : Nat) : Nat := (k / 16) * 15 - (k / 16) * (k / 16 - 1) / 2 + (k % 16 - k / 16)

def cumW : IVec S256 32 := fun k => BitVec.ofNat 32 (cumN (k 0).val)

/-- The running sum of the mask is the count `cumN`, at the 32 positions from `lo` on. -/
def CumAt (lo : Nat) : Prop := ∀ n : Fin 256, lo ≤ n.val → n.val < lo + 32 →
  Host.reduceWindow IntOp.addi ![256] ![1] ![255] ![0] maskW w_main_call1_call0_v0 reduceWindows_S256_S256_w256s1p255_0 h_S_ (ix1 n)
    = BitVec.ofNat 32 (cumN n.val)

theorem cumAt_0 : CumAt 0 := by unfold CumAt; decide +kernel
theorem cumAt_1 : CumAt 32 := by unfold CumAt; decide +kernel
theorem cumAt_2 : CumAt 64 := by unfold CumAt; decide +kernel
theorem cumAt_3 : CumAt 96 := by unfold CumAt; decide +kernel
theorem cumAt_4 : CumAt 128 := by unfold CumAt; decide +kernel
theorem cumAt_5 : CumAt 160 := by unfold CumAt; decide +kernel
theorem cumAt_6 : CumAt 192 := by unfold CumAt; decide +kernel
theorem cumAt_7 : CumAt 224 := by unfold CumAt; decide +kernel

/-- The running sum of the mask is the count `cumN`. -/
theorem cumW_eq : w_main_v4 = cumW := by
  unfold w_main_v4
  rw [maskW_eq]
  funext k
  rw [eq_ix1 k]
  generalize k 0 = n
  show _ = BitVec.ofNat 32 (cumN n.val)
  have hn : n.val < 256 := n.isLt
  by_cases h0 : n.val < 32
  · exact cumAt_0 n (by omega) (by omega)
  by_cases h1 : n.val < 64
  · exact cumAt_1 n (by omega) (by omega)
  by_cases h2 : n.val < 96
  · exact cumAt_2 n (by omega) (by omega)
  by_cases h3 : n.val < 128
  · exact cumAt_3 n (by omega) (by omega)
  by_cases h4 : n.val < 160
  · exact cumAt_4 n (by omega) (by omega)
  by_cases h5 : n.val < 192
  · exact cumAt_5 n (by omega) (by omega)
  by_cases h6 : n.val < 224
  · exact cumAt_6 n (by omega) (by omega)
  exact cumAt_7 n (by omega) (by omega)

/-- The running count is never negative and stays below 120 + 1: the clip at zero and the wrap of a negative position
    leave it as it is. -/
theorem idx_eq : w_main_v11 = cumW := by
  unfold w_main_v11 w_main_v10 w_main_v9 w_main_c_3 w_main_v8 w_main_v7 w_main_c_2 w_main_v6 w_main_call2_v1 w_main_call2_v0 w_main_c_1
  rw [cumW_eq]
  funext k
  rw [eq_ix1 k]
  generalize k 0 = n
  revert n
  decide +kernel

/-- The flat position 16 · i + j of pair m = (i, j) in the 16 × 16 square. -/
def posN (m : Nat) : Nat := 16 * (Spec.pairIs.getD m 0).val + (Spec.pairJs.getD m 0).val

/-- How many flat positions have exactly m ones at or before them: position 0 alone for m = 0, then the positions from
    the m-th one up to just before the next. -/
def binN (m : Nat) : Nat := if m = 0 then 1 else posN m - posN (m - 1)

def binW : IVec S120 32 := fun m => BitVec.ofNat 32 (binN (m 0).val)

/-- Adding a one at each position's count, counts of 120 falling outside, gives the tally `binN`, at the 30 entries
    from `lo` on. -/
def BinAt (lo : Nat) : Prop := ∀ n : Fin 120, lo ≤ n.val → n.val < lo + 30 →
  Host.scatter scatter_S120_S256x1_S256_n_0_0_1 IntOp.addi ((broadcastInDim S120 ![] bcast_S_S120) (constantI S_ 32 0#32))
      ((broadcastInDim S256x1 ![0] bcast_S256_S256x1_0) cumW) ((broadcastInDim S256 ![] bcast_S_S256) (constantI S_ 32 1#32)) (ix1 n)
    = BitVec.ofNat 32 (binN n.val)

theorem binAt_0 : BinAt 0 := by unfold BinAt; decide +kernel
theorem binAt_1 : BinAt 30 := by unfold BinAt; decide +kernel
theorem binAt_2 : BinAt 60 := by unfold BinAt; decide +kernel
theorem binAt_3 : BinAt 90 := by unfold BinAt; decide +kernel

theorem binW_eq : w_main_v14 = binW := by
  unfold w_main_v14 w_main_v12 w_main_v13 w_main_c_4 w_main_v5 w_main_c
  rw [idx_eq]
  funext m
  rw [eq_ix1 m]
  generalize m 0 = n
  show _ = BitVec.ofNat 32 (binN n.val)
  have hn : n.val < 120 := n.isLt
  by_cases h0 : n.val < 30
  · exact binAt_0 n (by omega) (by omega)
  by_cases h1 : n.val < 60
  · exact binAt_1 n (by omega) (by omega)
  by_cases h2 : n.val < 90
  · exact binAt_2 n (by omega) (by omega)
  exact binAt_3 n (by omega) (by omega)

/-- The flat positions of the ones, in order. -/
def posW : IVec S120 32 := fun m => BitVec.ofNat 32 (posN (m 0).val)

/-- The running sum of the tally is the position of each one, at the 30 entries from `lo` on. -/
def PosAt (lo : Nat) : Prop := ∀ n : Fin 120, lo ≤ n.val → n.val < lo + 30 →
  Host.reduceWindow IntOp.addi ![120] ![1] ![119] ![0] binW w_main_call3_call0_v0 reduceWindows_S120_S120_w120s1p119_0 h_S_ (ix1 n)
    = BitVec.ofNat 32 (posN n.val)

theorem posAt_0 : PosAt 0 := by unfold PosAt; decide +kernel
theorem posAt_1 : PosAt 30 := by unfold PosAt; decide +kernel
theorem posAt_2 : PosAt 60 := by unfold PosAt; decide +kernel
theorem posAt_3 : PosAt 90 := by unfold PosAt; decide +kernel

theorem posW_eq : w_main_v15 = posW := by
  unfold w_main_v15
  rw [binW_eq]
  funext m
  rw [eq_ix1 m]
  generalize m 0 = n
  show _ = BitVec.ofNat 32 (posN n.val)
  have hn : n.val < 120 := n.isLt
  by_cases h0 : n.val < 30
  · exact posAt_0 n (by omega) (by omega)
  by_cases h1 : n.val < 60
  · exact posAt_1 n (by omega) (by omega)
  by_cases h2 : n.val < 90
  · exact posAt_2 n (by omega) (by omega)
  exact posAt_3 n (by omega) (by omega)

/-- The smaller field of each pair: its flat position divided by 16, rounded down (and reduced modulo 16, which
    changes nothing below 16). -/
theorem rows_eq : w_main_v17 = fun i => BitVec.ofNat 32 (Spec.pairI (i 0)).val := by
  unfold w_main_v17 w_main_call5_v14 w_main_call5_v13 w_main_call5_v12 w_main_call5_v11 w_main_call5_v10 w_main_call5_v9 w_main_call5_c_3 w_main_call5_v8 w_main_call5_v7 w_main_call5_c_2 w_main_call5_v6 w_main_call5_v5 w_main_call5_c_1 w_main_call5_v4 w_main_call5_v3 w_main_call5_v2 w_main_call5_c_0 w_main_call5_v1 w_main_call5_c w_main_call5_v0 w_main_c_6 w_main_v16 w_main_call4_v12 w_main_call4_v11 w_main_call4_c_0 w_main_call4_v10 w_main_call4_v9 w_main_call4_v8 w_main_call4_c w_main_call4_v7 w_main_call4_v6 w_main_call4_v5 w_main_call4_v4 w_main_call4_v3 w_main_call4_v2 w_main_call4_v1 w_main_call4_v0 w_main_c_5
  rw [posW_eq]
  funext m
  rw [eq_ix1 m]
  generalize m 0 = n
  revert n
  decide +kernel

/-- The larger field of each pair: its flat position modulo 16. -/
theorem cols_eq : w_main_v19 = fun i => BitVec.ofNat 32 (Spec.pairJ (i 0)).val := by
  unfold w_main_v19 w_main_call7_v14 w_main_call7_v13 w_main_call7_v12 w_main_call7_v11 w_main_call7_v10 w_main_call7_v9 w_main_call7_c_3 w_main_call7_v8 w_main_call7_v7 w_main_call7_c_2 w_main_call7_v6 w_main_call7_v5 w_main_call7_c_1 w_main_call7_v4 w_main_call7_v3 w_main_call7_v2 w_main_call7_c_0 w_main_call7_v1 w_main_call7_c w_main_call7_v0 w_main_c_8 w_main_v18 w_main_call6_v12 w_main_call6_v11 w_main_call6_c_0 w_main_call6_v10 w_main_call6_v9 w_main_call6_v8 w_main_call6_c w_main_call6_v7 w_main_call6_v6 w_main_call6_v5 w_main_call6_v4 w_main_call6_v3 w_main_call6_v2 w_main_call6_v1 w_main_call6_v0 w_main_c_7
  rw [posW_eq]
  funext m
  rw [eq_ix1 m]
  generalize m 0 = n
  revert n
  decide +kernel

end Cert.ReferenceIdeal.PairFields

end
-- ==== Proof.RefGather.lean ====
/-
  The reference's four gathers read at an index. A gather's result entry is the operand at a position built axis by
  axis: on an axis named by the start-index map, the start index's component for that axis — a word of the index array
  read signed and clamped so that the slice fits —, and on a kept axis the result's own coordinate. Here:
    * columns of the row-number array: `x[:, idx]`, result `(b, p)` reads `x[b, idx[p]]`;
    * table entries at a pair of indices: result `(a, b, d)` reads `emb[idx[a,b,0], idx[a,b,1], d]` (two shapes of index array);
    * the linear terms: result `(b, f, 0)` reads `lin[idx[b,f,0], 0]`.
-/
import proofs.«178268_j47347719471684_2_alg».proof.Proof.Gen.ReferenceIdeal
import Idealize.ShloMosaic.Lib.ValueIdx

noncomputable section

namespace Cert.ReferenceIdeal.Read

open Idealize.ShloMosaic Idealize.ShloMosaic.ValueIdx Cert.ReferenceIdeal Cert.ReferenceIdeal.Gen

variable {α : Type}

local notation "dCol" => gather_S16384x16_S120x1_S16384x120_0_1_n_n_1_1_163841

/-- Columns of `x`: entry `(b, p)` is `x[b, c]`, `c` the word `idx[p, 0]` read signed and clamped into `[0, 15]`. -/
theorem gather_cols_apply (x : S16384x16.Idx → α) (idx : IVec S120x1 32) (b : Fin 16384) (p : Fin 120) :
    Host.gather dCol x idx (ix2 b p) = x (ix2 b ⟨min (idx (ix2 p (0 : Fin 1))).toInt.toNat 15, by omega⟩) := by
  have hsi : GatherDims.siIdx dCol (ix2 b p) ⟨0, by decide⟩ = ix2 p (0 : Fin 1) := by
    funext a; refine Fin.ext ?_
    match a with
    | ⟨0, _⟩ => rfl
    | ⟨1, _⟩ => rfl
  unfold Host.gather
  refine congrArg x (funext fun a => Fin.ext ?_)
  match a with
  | ⟨0, _⟩ =>
    show GatherDims.start dCol (ix2 b p) idx 0 + GatherDims.batchCoord dCol (ix2 b p) 0 + GatherDims.offCoord dCol (ix2 b p) 0 = b.val
    rw [GatherDims.batchCoord_eq_zero _ _ _ (by decide)]
    unfold GatherDims.start GatherDims.offCoord
    rw [dif_neg (by decide), dif_pos (by decide)]
    show 0 + 0 + b.val = b.val
    omega
  | ⟨1, _⟩ =>
    show min (idx (GatherDims.siIdx dCol (ix2 b p) ⟨0, _⟩)).toInt.toNat (16 - 1) + 0 + 0 = _
    rw [hsi]
    rfl

local notation "dPair" => gather_S16x300000x10_S120x16384x2_S120x16384x10_2_01_n_n_01_2_1110

/-- Table entries at pairs of indices: entry `(a, b, d)` is `emb[q, r, d]`, `q` the word `idx[a, b, 0]` read signed and
    clamped into `[0, 15]`, `r` the word `idx[a, b, 1]` read signed and clamped into `[0, 299999]`. -/
theorem gather_dPair_apply (e : S16x300000x10.Idx → α) (idx : IVec S120x16384x2 32) (a : Fin 120) (b : Fin 16384) (d : Fin 10) :
    Host.gather dPair e idx (ix3 a b d)
      = e (ix3 (⟨min (idx (ix3 a b (0 : Fin 2))).toInt.toNat 15, by omega⟩ : Fin 16)
            (⟨min (idx (ix3 a b (1 : Fin 2))).toInt.toNat 299999, by omega⟩ : Fin 300000) d) := by
  have hsi0 : GatherDims.siIdx dPair (ix3 a b d) ⟨0, by decide⟩ = ix3 a b (0 : Fin 2) := by
    funext k; refine Fin.ext ?_
    match k with
    | ⟨0, _⟩ => rfl
    | ⟨1, _⟩ => rfl
    | ⟨2, _⟩ => rfl
  have hsi1 : GatherDims.siIdx dPair (ix3 a b d) ⟨1, by decide⟩ = ix3 a b (1 : Fin 2) := by
    funext k; refine Fin.ext ?_
    match k with
    | ⟨0, _⟩ => rfl
    | ⟨1, _⟩ => rfl
    | ⟨2, _⟩ => rfl
  unfold Host.gather
  refine congrArg e (funext fun k => Fin.ext ?_)
  match k with
  | ⟨0, _⟩ =>
    show min (idx (GatherDims.siIdx dPair (ix3 a b d) ⟨0, _⟩)).toInt.toNat (16 - 1) + 0 + 0 = _
    rw [hsi0]
    rfl
  | ⟨1, _⟩ =>
    show min (idx (GatherDims.siIdx dPair (ix3 a b d) ⟨1, _⟩)).toInt.toNat (300000 - 1) + 0 + 0 = _
    rw [hsi1]
    rfl
  | ⟨2, _⟩ =>
    show GatherDims.start dPair (ix3 a b d) idx 2 + GatherDims.batchCoord dPair (ix3 a b d) 2 + GatherDims.offCoord dPair (ix3 a b d) 2 = d.val
    rw [GatherDims.batchCoord_eq_zero _ _ _ (by decide)]
    unfold GatherDims.start GatherDims.offCoord
    rw [dif_neg (by decide), dif_pos (by decide)]
    show 0 + 0 + d.val = d.val
    omega

local notation "dSelf" => gather_S16x300000x10_S16384x16x2_S16384x16x10_2_01_n_n_01_2_1110

/-- Table entries at pairs of indices: entry `(a, b, d)` is `emb[q, r, d]`, `q` the word `idx[a, b, 0]` read signed and
    clamped into `[0, 15]`, `r` the word `idx[a, b, 1]` read signed and clamped into `[0, 299999]`. -/
theorem gather_dSelf_apply (e : S16x300000x10.Idx → α) (idx : IVec S16384x16x2 32) (a : Fin 16384) (b : Fin 16) (d : Fin 10) :
    Host.gather dSelf e idx (ix3 a b d)
      = e (ix3 (⟨min (idx (ix3 a b (0 : Fin 2))).toInt.toNat 15, by omega⟩ : Fin 16)
            (⟨min (idx (ix3 a b (1 : Fin 2))).toInt.toNat 299999, by omega⟩ : Fin 300000) d) := by
  have hsi0 : GatherDims.siIdx dSelf (ix3 a b d) ⟨0, by decide⟩ = ix3 a b (0 : Fin 2) := by
    funext k; refine Fin.ext ?_
    match k with
    | ⟨0, _⟩ => rfl
    | ⟨1, _⟩ => rfl
    | ⟨2, _⟩ => rfl
  have hsi1 : GatherDims.siIdx dSelf (ix3 a b d) ⟨1, by decide⟩ = ix3 a b (1 : Fin 2) := by
    funext k; refine Fin.ext ?_
    match k with
    | ⟨0, _⟩ => rfl
    | ⟨1, _⟩ => rfl
    | ⟨2, _⟩ => rfl
  unfold Host.gather
  refine congrArg e (funext fun k => Fin.ext ?_)
  match k with
  | ⟨0, _⟩ =>
    show min (idx (GatherDims.siIdx dSelf (ix3 a b d) ⟨0, _⟩)).toInt.toNat (16 - 1) + 0 + 0 = _
    rw [hsi0]
    rfl
  | ⟨1, _⟩ =>
    show min (idx (GatherDims.siIdx dSelf (ix3 a b d) ⟨1, _⟩)).toInt.toNat (300000 - 1) + 0 + 0 = _
    rw [hsi1]
    rfl
  | ⟨2, _⟩ =>
    show GatherDims.start dSelf (ix3 a b d) idx 2 + GatherDims.batchCoord dSelf (ix3 a b d) 2 + GatherDims.offCoord dSelf (ix3 a b d) 2 = d.val
    rw [GatherDims.batchCoord_eq_zero _ _ _ (by decide)]
    unfold GatherDims.start GatherDims.offCoord
    rw [dif_neg (by decide), dif_pos (by decide)]
    show 0 + 0 + d.val = d.val
    omega

local notation "dLin" => gather_S300000x1_S16384x16x1_S16384x16x1_2_0_n_n_0_2_11

/-- The linear terms: entry `(b, f, 0)` is `lin[r, 0]`, `r` the word `idx[b, f, 0]` read signed and clamped into `[0, 299999]`. -/
theorem gather_lin_apply (l : S300000x1.Idx → α) (idx : IVec S16384x16x1 32) (b : Fin 16384) (f : Fin 16) (u : Fin 1) :
    Host.gather dLin l idx (ix3 b f u)
      = l (ix2 (⟨min (idx (ix3 b f (0 : Fin 1))).toInt.toNat 299999, by omega⟩ : Fin 300000) (0 : Fin 1)) := by
  have hsi0 : GatherDims.siIdx dLin (ix3 b f u) ⟨0, by decide⟩ = ix3 b f (0 : Fin 1) := by
    funext k; refine Fin.ext ?_
    match k with
    | ⟨0, _⟩ => rfl
    | ⟨1, _⟩ => rfl
    | ⟨2, _⟩ => rfl
  unfold Host.gather
  refine congrArg l (funext fun k => Fin.ext ?_)
  match k with
  | ⟨0, _⟩ =>
    show min (idx (GatherDims.siIdx dLin (ix3 b f u) ⟨0, _⟩)).toInt.toNat (300000 - 1) + 0 + 0 = _
    rw [hsi0]
    rfl
  | ⟨1, _⟩ =>
    show GatherDims.start dLin (ix3 b f u) idx 1 + GatherDims.batchCoord dLin (ix3 b f u) 1 + GatherDims.offCoord dLin (ix3 b f u) 1 = 0
    rw [GatherDims.batchCoord_eq_zero _ _ _ (by decide)]
    unfold GatherDims.start GatherDims.offCoord
    rw [dif_neg (by decide), dif_pos (by decide)]
    show 0 + 0 + u.val = 0
    omega

end Cert.ReferenceIdeal.Read

end
-- ==== Proof.RefLayout.lean ====
/-
  The reference's re-layouts read at an index: a scalar spread over a shape, a vector made a column, a column repeated
  along rows, a trailing unit axis added, two unit-width index columns joined, a transpose, and a flattening of the two
  trailing axes (entry `(b, 10 p + d)` of the flat array is entry `(b, p, d)`); and the three-piece join along the columns.
-/
import proofs.«178268_j47347719471684_2_alg».proof.Proof.Gen.ReferenceIdeal
import Idealize.ShloMosaic.Lib.ValueIdx
import Idealize.ShloMosaic.Lib.Pipeline.Value

noncomputable section

namespace Cert.ReferenceIdeal.Read

open Idealize.ShloMosaic Idealize.ShloMosaic.ValueIdx Cert.ReferenceIdeal Cert.ReferenceIdeal.Gen

variable {α : Type}

/-- A scalar spread over any shape reads the scalar everywhere. -/
theorem bcast_scalar_apply {t : Shape} (h : S_.BroadcastsInDim t (![] : Fin 0 → Fin t.rank)) (v : S_.Idx → α) (j : t.Idx) :
    broadcastInDim t ![] h v j = v ix0 :=
  broadcastInDim_apply _ h v j ix0 (fun a => a.elim0)

/-- A vector of 120 made a column. -/
theorem bcast_120_col (v : S120.Idx → α) (p : Fin 120) (u : Fin 1) :
    broadcastInDim S120x1 ![0] bcast_S120_S120x1_0 v (ix2 p u) = v (ix1 p) :=
  broadcastInDim_apply _ _ v _ (ix1 p) (fun a => match a with | ⟨0, _⟩ => rfl)

/-- A column of 120 repeated along 16384 rows. -/
theorem bcast_col_rows (v : S120x1.Idx → α) (p : Fin 120) (b : Fin 16384) :
    broadcastInDim S120x16384 ![0, 1] bcast_S120x1_S120x16384_0_1 v (ix2 p b) = v (ix2 p (0 : Fin 1)) :=
  broadcastInDim_apply _ _ v _ (ix2 p (0 : Fin 1)) (fun a => match a with | ⟨0, _⟩ => rfl | ⟨1, _⟩ => rfl)

/-- A trailing unit axis added to a 120 × 16384 array. -/
theorem bcast_unit_pair (v : S120x16384.Idx → α) (p : Fin 120) (b : Fin 16384) (u : Fin 1) :
    broadcastInDim S120x16384x1 ![0, 1] bcast_S120x16384_S120x16384x1_0_1 v (ix3 p b u) = v (ix2 p b) :=
  broadcastInDim_apply _ _ v _ (ix2 p b) (fun a => match a with | ⟨0, _⟩ => rfl | ⟨1, _⟩ => rfl)

/-- A vector of 16 made a row. -/
theorem bcast_16_row (v : S16.Idx → α) (u : Fin 1) (i : Fin 16) :
    broadcastInDim S1x16 ![1] bcast_S16_S1x16_1 v (ix2 u i) = v (ix1 i) :=
  broadcastInDim_apply _ _ v _ (ix1 i) (fun a => match a with | ⟨0, _⟩ => rfl)

/-- A row of 16 repeated down 16384 rows. -/
theorem bcast_row_down (v : S1x16.Idx → α) (b : Fin 16384) (i : Fin 16) :
    broadcastInDim S16384x16 ![0, 1] bcast_S1x16_S16384x16_0_1 v (ix2 b i) = v (ix2 (0 : Fin 1) i) :=
  broadcastInDim_apply _ _ v _ (ix2 (0 : Fin 1) i) (fun a => match a with | ⟨0, _⟩ => rfl | ⟨1, _⟩ => rfl)

/-- A trailing unit axis added to a 16384 × 16 array. -/
theorem bcast_unit_self (v : S16384x16.Idx → α) (b : Fin 16384) (f : Fin 16) (u : Fin 1) :
    broadcastInDim S16384x16x1 ![0, 1] bcast_S16384x16_S16384x16x1_0_1 v (ix3 b f u) = v (ix2 b f) :=
  broadcastInDim_apply _ _ v _ (ix2 b f) (fun a => match a with | ⟨0, _⟩ => rfl | ⟨1, _⟩ => rfl)

/-- The transpose of a 16384 × 120 array. -/
theorem transpose_pair_apply (v : S16384x120.Idx → α) (p : Fin 120) (b : Fin 16384) :
    transpose S120x16384 [1, 0] v transposes_S16384x120_S120x16384_1_0 (ix2 p b) = v (ix2 b p) :=
  transpose_apply _ v _ _ (ix2 b p) (fun a => match a with | ⟨0, _⟩ => rfl | ⟨1, _⟩ => rfl)

/-- The two leading axes of a 120 × 16384 × 10 array exchanged. -/
theorem transpose_prod_apply (v : S120x16384x10.Idx → α) (b : Fin 16384) (p : Fin 120) (d : Fin 10) :
    transpose S16384x120x10 [1, 0, 2] v transposes_S120x16384x10_S16384x120x10_1_0_2 (ix3 b p d) = v (ix3 p b d) :=
  transpose_apply _ v _ _ (ix3 p b d) (fun a => match a with | ⟨0, _⟩ => rfl | ⟨1, _⟩ => rfl | ⟨2, _⟩ => rfl)

/-- The two trailing axes of a 16384 × 120 × 10 array flattened: column `10 p + d` is entry `(p, d)`. -/
theorem flatten_prod_apply (v : S16384x120x10.Idx → α) (b : Fin 16384) (p : Fin 120) (d : Fin 10) (c : Fin 1200)
    (hc : c.val = 10 * p.val + d.val) :
    shapeCast S16384x1200 v shapeCasts_S16384x120x10_S16384x1200 (ix2 b c) = v (ix3 b p d) := by
  refine shapeCast_apply v _ _ (ix3 b p d) ?_
  rw [Shape.rowMajor_val_three, Shape.rowMajor_val_two]
  show (b.val * 120 + p.val) * 10 + d.val = b.val * 1200 + c.val
  omega

/-- The two trailing axes of a 16384 × 16 × 10 array flattened: column `10 i + d` is entry `(i, d)`. -/
theorem flatten_self_apply (v : S16384x16x10.Idx → α) (b : Fin 16384) (i : Fin 16) (d : Fin 10) (c : Fin 160)
    (hc : c.val = 10 * i.val + d.val) :
    shapeCast S16384x160 v shapeCasts_S16384x16x10_S16384x160 (ix2 b c) = v (ix3 b i d) := by
  refine shapeCast_apply v _ _ (ix3 b i d) ?_
  rw [Shape.rowMajor_val_three, Shape.rowMajor_val_two]
  show (b.val * 16 + i.val) * 10 + d.val = b.val * 160 + c.val
  omega

/-- A trailing unit axis dropped. -/
theorem drop_unit_apply (v : S16384x16x1.Idx → α) (b : Fin 16384) (f : Fin 16) :
    shapeCast S16384x16 v shapeCasts_S16384x16x1_S16384x16 (ix2 b f) = v (ix3 b f (0 : Fin 1)) := by
  refine shapeCast_apply v _ _ (ix3 b f (0 : Fin 1)) ?_
  rw [Shape.rowMajor_val_three, Shape.rowMajor_val_two]
  show (b.val * 16 + f.val) * 1 + 0 = b.val * 16 + f.val
  omega

/-- Two unit-width index columns joined along the last axis: component 0 is the first column … -/
theorem join_pair_left (v₁ v₂ : S120x16384x1.Idx → α) (p : Fin 120) (b : Fin 16384) :
    concatenate S120x16384x2 2 [⟨S120x16384x1, v₁⟩, ⟨S120x16384x1, v₂⟩] concatenates_S120x16384x1_S120x16384x1_S120x16384x2_d2
      (ix3 p b (0 : Fin 2)) = v₁ (ix3 p b (0 : Fin 1)) := by
  refine concatenate_pair_apply_left (t := S120x16384x2) (s₁ := S120x16384x1) (s₂ := S120x16384x1) (2 : Fin 3) v₁ v₂
    concatenates_S120x16384x1_S120x16384x1_S120x16384x2_d2 (ix3 p b (0 : Fin 2)) rfl (ix3 p b (0 : Fin 1)) ?_
  intro k
  match k with
  | ⟨0, _⟩ => rfl
  | ⟨1, _⟩ => rfl
  | ⟨2, _⟩ => rfl

/-- … and component 1 the second. -/
theorem join_pair_right (v₁ v₂ : S120x16384x1.Idx → α) (p : Fin 120) (b : Fin 16384) :
    concatenate S120x16384x2 2 [⟨S120x16384x1, v₁⟩, ⟨S120x16384x1, v₂⟩] concatenates_S120x16384x1_S120x16384x1_S120x16384x2_d2
      (ix3 p b (1 : Fin 2)) = v₂ (ix3 p b (0 : Fin 1)) := by
  refine concatenate_pair_apply_right (t := S120x16384x2) (s₁ := S120x16384x1) (s₂ := S120x16384x1) (2 : Fin 3) v₁ v₂
    concatenates_S120x16384x1_S120x16384x1_S120x16384x2_d2 (ix3 p b (1 : Fin 2)) rfl rfl (ix3 p b (0 : Fin 1)) ?_ rfl
  intro k
  match k with
  | ⟨0, _⟩ => exact fun _ => rfl
  | ⟨1, _⟩ => exact fun _ => rfl
  | ⟨2, _⟩ => exact fun h => absurd rfl h

/-- Two unit-width index columns joined along the last axis: component 0 is the first column … -/
theorem join_self_left (v₁ v₂ : S16384x16x1.Idx → α) (b : Fin 16384) (i : Fin 16) :
    concatenate S16384x16x2 2 [⟨S16384x16x1, v₁⟩, ⟨S16384x16x1, v₂⟩] concatenates_S16384x16x1_S16384x16x1_S16384x16x2_d2
      (ix3 b i (0 : Fin 2)) = v₁ (ix3 b i (0 : Fin 1)) := by
  refine concatenate_pair_apply_left (t := S16384x16x2) (s₁ := S16384x16x1) (s₂ := S16384x16x1) (2 : Fin 3) v₁ v₂
    concatenates_S16384x16x1_S16384x16x1_S16384x16x2_d2 (ix3 b i (0 : Fin 2)) rfl (ix3 b i (0 : Fin 1)) ?_
  intro k
  match k with
  | ⟨0, _⟩ => rfl
  | ⟨1, _⟩ => rfl
  | ⟨2, _⟩ => rfl

/-- … and component 1 the second. -/
theorem join_self_right (v₁ v₂ : S16384x16x1.Idx → α) (b : Fin 16384) (i : Fin 16) :
    concatenate S16384x16x2 2 [⟨S16384x16x1, v₁⟩, ⟨S16384x16x1, v₂⟩] concatenates_S16384x16x1_S16384x16x1_S16384x16x2_d2
      (ix3 b i (1 : Fin 2)) = v₂ (ix3 b i (0 : Fin 1)) := by
  refine concatenate_pair_apply_right (t := S16384x16x2) (s₁ := S16384x16x1) (s₂ := S16384x16x1) (2 : Fin 3) v₁ v₂
    concatenates_S16384x16x1_S16384x16x1_S16384x16x2_d2 (ix3 b i (1 : Fin 2)) rfl rfl (ix3 b i (0 : Fin 1)) ?_ rfl
  intro k
  match k with
  | ⟨0, _⟩ => exact fun _ => rfl
  | ⟨1, _⟩ => exact fun _ => rfl
  | ⟨2, _⟩ => exact fun h => absurd rfl h

/-- The three blocks joined along the columns: columns `0 … 1199` are the first block's … -/
theorem join3_first (v₁ : S16384x1200.Idx → α) (v₂ : S16384x160.Idx → α) (v₃ : S16384x16.Idx → α) (b : Fin 16384)
    (c : Fin 1376) (c' : Fin 1200) (hc : c.val = 0 + c'.val) :
    concatenate S16384x1376 1 [⟨S16384x1200, v₁⟩, ⟨S16384x160, v₂⟩, ⟨S16384x16, v₃⟩]
      concatenates_S16384x1200_S16384x160_S16384x16_S16384x1376_d1 (ix2 b c) = v₁ (ix2 b c') := by
  refine concatenate_apply_piece (t := S16384x1376) (1 : Fin 2) [⟨S16384x1200, v₁⟩, ⟨S16384x160, v₂⟩, ⟨S16384x16, v₃⟩]
    concatenates_S16384x1200_S16384x160_S16384x16_S16384x1376_d1 (ix2 b c) 0 (show 0 < 3 by decide) S16384x1200 v₁ rfl rfl 0 rfl (ix2 b c') ?_ ?_
  · intro k
    match k with
    | ⟨0, _⟩ => exact fun _ => rfl
    | ⟨1, _⟩ => exact fun h => absurd rfl h
  · show 0 + c'.val = c.val
    omega

/-- … columns `1200 … 1359` the second's … -/
theorem join3_second (v₁ : S16384x1200.Idx → α) (v₂ : S16384x160.Idx → α) (v₃ : S16384x16.Idx → α) (b : Fin 16384)
    (c : Fin 1376) (c' : Fin 160) (hc : c.val = 1200 + c'.val) :
    concatenate S16384x1376 1 [⟨S16384x1200, v₁⟩, ⟨S16384x160, v₂⟩, ⟨S16384x16, v₃⟩]
      concatenates_S16384x1200_S16384x160_S16384x16_S16384x1376_d1 (ix2 b c) = v₂ (ix2 b c') := by
  refine concatenate_apply_piece (t := S16384x1376) (1 : Fin 2) [⟨S16384x1200, v₁⟩, ⟨S16384x160, v₂⟩, ⟨S16384x16, v₃⟩]
    concatenates_S16384x1200_S16384x160_S16384x16_S16384x1376_d1 (ix2 b c) 1 (show 1 < 3 by decide) S16384x160 v₂ rfl rfl 1200 rfl (ix2 b c') ?_ ?_
  · intro k
    match k with
    | ⟨0, _⟩ => exact fun _ => rfl
    | ⟨1, _⟩ => exact fun h => absurd rfl h
  · show 1200 + c'.val = c.val
    omega

/-- … and columns `1360 … 1375` the third's. -/
theorem join3_third (v₁ : S16384x1200.Idx → α) (v₂ : S16384x160.Idx → α) (v₃ : S16384x16.Idx → α) (b : Fin 16384)
    (c : Fin 1376) (c' : Fin 16) (hc : c.val = 1360 + c'.val) :
    concatenate S16384x1376 1 [⟨S16384x1200, v₁⟩, ⟨S16384x160, v₂⟩, ⟨S16384x16, v₃⟩]
      concatenates_S16384x1200_S16384x160_S16384x16_S16384x1376_d1 (ix2 b c) = v₃ (ix2 b c') := by
  refine concatenate_apply_piece (t := S16384x1376) (1 : Fin 2) [⟨S16384x1200, v₁⟩, ⟨S16384x160, v₂⟩, ⟨S16384x16, v₃⟩]
    concatenates_S16384x1200_S16384x160_S16384x16_S16384x1376_d1 (ix2 b c) 2 (show 2 < 3 by decide) S16384x16 v₃ rfl rfl 1360 rfl (ix2 b c') ?_ ?_
  · intro k
    match k with
    | ⟨0, _⟩ => exact fun _ => rfl
    | ⟨1, _⟩ => exact fun h => absurd rfl h
  · show 1360 + c'.val = c.val
    omega

end Cert.ReferenceIdeal.Read

end
-- ==== Proof.RefBridge.lean ====
/-
  The reference's result is the specification `G`, index by index. Given the list of pairs (the two vectors of
  fields the reference computes from no input: hypotheses `hI`, `hJ`), each stage of the second half of the reference
  is read at an index:
    * a field number `k < 16` used as an index survives the negative-index wrap and the clamp unchanged;
    * a column of `x` picked by a pair's field, transposed, wrapped: the word `wrapW (x[b, f])`;
    * the two index columns joined and the table gathered at them: `emb[q, row(x[b, f]), d] = val b f q d`;
    * the product of the two gathers, the axes exchanged and flattened: column `10 p + d` is `pairEntry b p d`;
    * likewise the fields' own rows (`selfEntry`) and the linear terms (`linEntry`);
    * the three blocks joined along the columns: `G`.
-/
import proofs.«178268_j47347719471684_2_alg».proof.Proof.RefTerm
import proofs.«178268_j47347719471684_2_alg».proof.Proof.RefGather
import proofs.«178268_j47347719471684_2_alg».proof.Proof.RefLayout
import proofs.«178268_j47347719471684_2_alg».proof.Proof.Spec

noncomputable section

namespace Cert.ReferenceIdeal.Bridge

open Idealize.ShloMosaic Idealize.ShloMosaic.ValueIdx Cert.ReferenceIdeal Cert.ReferenceIdeal.Gen Cert.ReferenceIdeal.Read
open Cert.ReferenceIdeal.Term

/-- The negative-index wrap for an axis of extent 16. -/
def wrap16 (v : BitVec 32) : BitVec 32 := Scalar.select (IntOp.cmpi .slt v 0#32) (IntOp.addi v 16#32) v

/-- A field number below 16, wrapped, read signed and clamped into `[0, 15]`, is itself. -/
theorem field_of_word : ∀ k : Fin 16, min (wrap16 (BitVec.ofNat 32 k.val)).toInt.toNat 15 = k.val := by decide

/-- The wrap `select (v < 0) (v + n) v` of a whole array, read at an index. -/
theorem wrap_apply {t : Shape} (h : S_.BroadcastsInDim t (![] : Fin 0 → Fin t.rank)) (n : BitVec 32) (v : IVec t 32) (j : t.Idx) :
    select (cmpi .slt v (broadcastInDim t ![] h (constantI S_ 32 0#32))) (addi v (broadcastInDim t ![] h (constantI S_ 32 n))) v j
      = Scalar.select (IntOp.cmpi .slt (v j) 0#32) (IntOp.addi (v j) n) (v j) := by
  show Scalar.select (IntOp.cmpi .slt (v j) (broadcastInDim t ![] h (constantI S_ 32 0#32) j))
      (IntOp.addi (v j) (broadcastInDim t ![] h (constantI S_ 32 n) j)) (v j) = _
  rw [bcast_scalar_apply, bcast_scalar_apply]
  rfl

/-- A table entry addressed by a wrapped field word and a wrapped row word. -/
theorem emb_at (emb : S16x300000x10.Idx → EReal) (w0 w1 : BitVec 32) (q : Fin 16) (v : BitVec 32) (d : Fin 10)
    (h0 : w0 = wrap16 (BitVec.ofNat 32 q.val)) (h1 : w1 = Spec.wrapW v) :
    emb (ix3 (⟨min w0.toInt.toNat 15, by omega⟩ : Fin 16) (⟨min w1.toInt.toNat 299999, by omega⟩ : Fin 300000) d)
      = emb (ix3 q (Spec.rowOf v) d) := by
  subst h0 h1
  have e : (⟨min (wrap16 (BitVec.ofNat 32 q.val)).toInt.toNat 15, by omega⟩ : Fin 16) = q := Fin.ext (field_of_word q)
  rw [e]
  rfl

/-- A linear term addressed by a wrapped row word. -/
theorem lin_at (lin : S300000x1.Idx → EReal) (w v : BitVec 32) (h : w = Spec.wrapW v) :
    lin (ix2 (⟨min w.toInt.toNat 299999, by omega⟩ : Fin 300000) (0 : Fin 1)) = lin (ix2 (Spec.rowOf v) (0 : Fin 1)) := by
  subst h
  rfl

/-- A column of `x` addressed by a wrapped field word. -/
theorem x_at (x : S16384x16.Idx → BitVec 32) (w : BitVec 32) (k : Fin 16) (b : Fin 16384)
    (hw : w = wrap16 (BitVec.ofNat 32 k.val)) :
    x (ix2 b (⟨min w.toInt.toNat 15, by omega⟩ : Fin 16)) = x (ix2 b k) := by
  subst hw
  have e : (⟨min (wrap16 (BitVec.ofNat 32 k.val)).toInt.toNat 15, by omega⟩ : Fin 16) = k := Fin.ext (field_of_word k)
  rw [e]

section Pairs

variable (hI : w_main_v17 = fun i => BitVec.ofNat 32 (Spec.pairI (i 0)).val)
  (hJ : w_main_v19 = fun i => BitVec.ofNat 32 (Spec.pairJ (i 0)).val)
variable (x : IVec S16384x16 32) (emb : FVec Ideal S16x300000x10 .f32) (lin : FVec Ideal S300000x1 .f32)

include hI in
/-- The first fields as an index column: the wrapped word of pair `p`'s smaller field. -/
theorem v26_apply (p : Fin 120) (u : Fin 1) : w_main_v26 (ix2 p u) = wrap16 (BitVec.ofNat 32 (Spec.pairI p).val) := by
  refine (bcast_120_col _ p u).trans ?_
  refine (wrap_apply bcast_S_S120 16#32 w_main_v17 (ix1 p)).trans ?_
  rw [hI]
  rfl

include hJ in
/-- The second fields as an index column. -/
theorem v50_apply (p : Fin 120) (u : Fin 1) : w_main_v50 (ix2 p u) = wrap16 (BitVec.ofNat 32 (Spec.pairJ p).val) := by
  refine (bcast_120_col _ p u).trans ?_
  refine (wrap_apply bcast_S_S120 16#32 w_main_v19 (ix1 p)).trans ?_
  rw [hJ]
  rfl

include hI in
/-- The row words of the pairs' smaller fields, wrapped: `wrapW (x[b, i_p])`. -/
theorem v38_apply (p : Fin 120) (b : Fin 16384) : w_main_v38 x (ix2 p b) = Spec.wrapW (x (ix2 b (Spec.pairI p))) := by
  refine (wrap_apply bcast_S_S120x16384 300000#32 (w_main_v28 x) (ix2 p b)).trans ?_
  have e : w_main_v28 x (ix2 p b) = x (ix2 b (Spec.pairI p)) := by
    refine (transpose_pair_apply _ p b).trans ?_
    refine (gather_cols_apply x _ b p).trans ?_
    exact x_at x _ (Spec.pairI p) b (v26_apply hI p 0)
  rw [e]
  rfl

include hJ in
/-- The row words of the pairs' larger fields, wrapped: `wrapW (x[b, j_p])`. -/
theorem v62_apply (p : Fin 120) (b : Fin 16384) : w_main_v62 x (ix2 p b) = Spec.wrapW (x (ix2 b (Spec.pairJ p))) := by
  refine (wrap_apply bcast_S_S120x16384 300000#32 (w_main_v52 x) (ix2 p b)).trans ?_
  have e : w_main_v52 x (ix2 p b) = x (ix2 b (Spec.pairJ p)) := by
    refine (transpose_pair_apply _ p b).trans ?_
    refine (gather_cols_apply x _ b p).trans ?_
    exact x_at x _ (Spec.pairJ p) b (v50_apply hJ p 0)
  rw [e]
  rfl

include hJ in
/-- The table index of the first gather: the pairs' larger fields, wrapped. -/
theorem v40_apply (p : Fin 120) (b : Fin 16384) (u : Fin 1) :
    w_main_v40 (ix3 p b u) = wrap16 (BitVec.ofNat 32 (Spec.pairJ p).val) := by
  refine (bcast_unit_pair _ p b u).trans ?_
  refine (bcast_col_rows _ p b).trans ?_
  refine (wrap_apply bcast_S_S120x1 16#32 w_main_v20 (ix2 p (0 : Fin 1))).trans ?_
  have e : w_main_v20 (ix2 p (0 : Fin 1)) = BitVec.ofNat 32 (Spec.pairJ p).val := by
    refine (bcast_120_col _ p 0).trans ?_
    rw [hJ]
  rw [e]
  rfl

include hI in
/-- The table index of the second gather: the pairs' smaller fields, wrapped. -/
theorem v64_apply (p : Fin 120) (b : Fin 16384) (u : Fin 1) :
    w_main_v64 (ix3 p b u) = wrap16 (BitVec.ofNat 32 (Spec.pairI p).val) := by
  refine (bcast_unit_pair _ p b u).trans ?_
  refine (bcast_col_rows _ p b).trans ?_
  refine (wrap_apply bcast_S_S120x1 16#32 w_main_v44 (ix2 p (0 : Fin 1))).trans ?_
  have e : w_main_v44 (ix2 p (0 : Fin 1)) = BitVec.ofNat 32 (Spec.pairI p).val := by
    refine (bcast_120_col _ p 0).trans ?_
    rw [hI]
  rw [e]
  rfl

include hI hJ in
/-- The first gather: `emb[j_p, row(x[b, i_p]), d]`. -/
theorem v43_apply (p : Fin 120) (b : Fin 16384) (d : Fin 10) :
    w_main_v43 x emb (ix3 p b d) = Spec.val x emb b (Spec.pairI p) (Spec.pairJ p) d := by
  refine (gather_dPair_apply emb (w_main_v42 x) p b d).trans ?_
  refine emb_at emb _ _ (Spec.pairJ p) (x (ix2 b (Spec.pairI p))) d ?_ ?_
  · exact (join_pair_left _ _ p b).trans (v40_apply hJ p b 0)
  · refine (join_pair_right _ _ p b).trans ?_
    exact (bcast_unit_pair _ p b 0).trans (v38_apply hI x p b)

include hI hJ in
/-- The second gather: `emb[i_p, row(x[b, j_p]), d]`. -/
theorem v67_apply (p : Fin 120) (b : Fin 16384) (d : Fin 10) :
    w_main_v67 x emb (ix3 p b d) = Spec.val x emb b (Spec.pairJ p) (Spec.pairI p) d := by
  refine (gather_dPair_apply emb (w_main_v66 x) p b d).trans ?_
  refine emb_at emb _ _ (Spec.pairI p) (x (ix2 b (Spec.pairJ p))) d ?_ ?_
  · exact (join_pair_left _ _ p b).trans (v64_apply hI p b 0)
  · refine (join_pair_right _ _ p b).trans ?_
    exact (bcast_unit_pair _ p b 0).trans (v62_apply hJ x p b)

include hI hJ in
/-- The pair block: column `10 p + d` of sample `b` is the product of pair `p`'s two entries. -/
theorem v70_apply (b : Fin 16384) (p : Fin 120) (d : Fin 10) (c : Fin 1200) (hc : c.val = 10 * p.val + d.val) :
    w_main_v70 x emb (ix2 b c) = Spec.pairEntry x emb b p d := by
  refine (flatten_prod_apply _ b p d c hc).trans ?_
  refine (transpose_prod_apply _ b p d).trans ?_
  show w_main_v43 x emb (ix3 p b d) * w_main_v67 x emb (ix3 p b d) = _
  rw [v43_apply hI hJ, v67_apply hI hJ]
  rfl

/-- The fields' own block: column `10 i + d` of sample `b` is `emb[i, row(x[b, i]), d]`. -/
theorem v88_apply (b : Fin 16384) (i : Fin 16) (d : Fin 10) (c : Fin 160) (hc : c.val = 10 * i.val + d.val) :
    w_main_v88 x emb (ix2 b c) = Spec.selfEntry x emb b i d := by
  refine (flatten_self_apply _ b i d c hc).trans ?_
  refine (gather_dSelf_apply emb (w_main_v86 x) b i d).trans ?_
  refine emb_at emb _ _ i (x (ix2 b i)) d ?_ ?_
  · refine (join_self_left _ _ b i).trans ?_
    refine (bcast_unit_self _ b i 0).trans ?_
    refine (bcast_row_down _ b i).trans ?_
    refine (wrap_apply bcast_S_S1x16 16#32 w_main_v72 (ix2 (0 : Fin 1) i)).trans ?_
    have e : w_main_v72 (ix2 (0 : Fin 1) i) = BitVec.ofNat 32 i.val := bcast_16_row _ 0 i
    rw [e]
    rfl
  · refine (join_self_right _ _ b i).trans ?_
    refine (bcast_unit_self _ b i 0).trans ?_
    exact wrap_apply bcast_S_S16384x16 300000#32 x (ix2 b i)

/-- The linear block: column `f` of sample `b` is `lin[row(x[b, f]), 0]`. -/
theorem v96_apply (b : Fin 16384) (f : Fin 16) : w_main_v96 x lin (ix2 b f) = Spec.linEntry x lin b f := by
  refine (drop_unit_apply _ b f).trans ?_
  refine (gather_lin_apply lin (w_main_v94 x) b f 0).trans ?_
  have e : w_main_v94 x (ix3 b f (0 : Fin 1)) = Spec.wrapW (x (ix2 b f)) :=
    (bcast_unit_self _ b f 0).trans (wrap_apply bcast_S_S16384x16 300000#32 x (ix2 b f))
  exact lin_at lin _ (x (ix2 b f)) e

include hI hJ in
/-- The reference's result is `G`. -/
theorem result_eq : w_main_v97 x emb lin = Spec.G x emb lin := by
  funext j
  obtain ⟨b, c, rfl⟩ : ∃ (b : Fin 16384) (c : Fin 1376), j = ix2 b c := ⟨j 0, j 1, eq_ix2 j⟩
  rcases Spec.col_cases c with ⟨p, d, hc⟩ | ⟨i, d, hc⟩ | ⟨f, hc⟩
  · obtain rfl : c = ⟨10 * p.val + d.val, Spec.pair_col_lt p d⟩ := Fin.ext hc
    rw [Spec.G_pair]
    refine (join3_first _ _ _ b _ ⟨10 * p.val + d.val, by omega⟩ (by show 10 * p.val + d.val = 0 + (10 * p.val + d.val); omega)).trans ?_
    exact v70_apply hI hJ x emb b p d _ rfl
  · obtain rfl : c = ⟨1200 + 10 * i.val + d.val, Spec.self_col_lt i d⟩ := Fin.ext hc
    rw [Spec.G_self]
    refine (join3_second _ _ _ b _ ⟨10 * i.val + d.val, by omega⟩ (by show 1200 + 10 * i.val + d.val = 1200 + (10 * i.val + d.val); omega)).trans ?_
    exact v88_apply x emb b i d _ rfl
  · obtain rfl : c = ⟨1360 + f.val, Spec.lin_col_lt f⟩ := Fin.ext hc
    rw [Spec.G_lin]
    refine (join3_third _ _ _ b _ f rfl).trans ?_
    exact v96_apply x lin b f

end Pairs

end Cert.ReferenceIdeal.Bridge

end
-- ==== Proof.lean ====
/-
  Every sample of a batch carries one row number per field; for each ordered pair of fields `(f, q)` the number
  selects a row of ten entries in field `q`'s table, `val b f q d = emb[q, row(x[b, f]), d]`. The result row of a
  sample holds, for the 120 pairs `i < j`, the ten products `val b i j d · val b j i d`, then each field's own row
  `val b i i d`, then the sixteen linear terms `lin[row(x[b, f]), 0]` (`Spec.G`).

  The kernel gathers all 256 rows of a sample into one flat row of 2560 numbers on the host, and a grid of 32 blocks of
  512 samples then cuts the flat row into ten-column slices, multiplies them pairwise and joins 137 pieces; read at an
  index, a block's row is `Spec.rowG` of the flat row, and the flat row's entries are the `val`s, so the whole array
  is `G` (`KRun.run`). The reference builds the list of pairs from a triangular mask by running sums and a scatter —
  no input is involved, and the list it ends with is the list of pairs in order (`PairFields`) —, gathers the rows
  pair by pair, multiplies, exchanges two axes and flattens; read at an index, that is `G` too (`Bridge.result_eq`).
  The only arithmetic is one product per entry, formed from the same two extended reals in the same order on both
  sides, so no law of the extended reals is used and the inputs' finiteness is never opened. A row number is an
  arbitrary 32-bit word on both sides: both programs wrap a negative one by the table's height and both gathers clamp.
-/
import proofs.«178268_j47347719471684_2_alg».proof.Defs
import proofs.«178268_j47347719471684_2_alg».proof.Proof.Gen.Kernel
import proofs.«178268_j47347719471684_2_alg».proof.Proof.Gen.Kernel.Skeleton
import proofs.«178268_j47347719471684_2_alg».proof.Proof.Gen.Kernel.Launch
import proofs.«178268_j47347719471684_2_alg».proof.Proof.Gen.Kernel.Points
import proofs.«178268_j47347719471684_2_alg».proof.Proof.FrameKernel
import proofs.«178268_j47347719471684_2_alg».proof.Proof.Gen.KernelIdeal
import proofs.«178268_j47347719471684_2_alg».proof.Proof.Gen.KernelIdeal.Skeleton
import proofs.«178268_j47347719471684_2_alg».proof.Proof.Gen.KernelIdeal.Launch
import proofs.«178268_j47347719471684_2_alg».proof.Proof.Gen.KernelIdeal.Points
import proofs.«178268_j47347719471684_2_alg».proof.Proof.FrameKernelIdeal
import proofs.«178268_j47347719471684_2_alg».proof.Proof.ValueKernelIdeal
import proofs.«178268_j47347719471684_2_alg».proof.Proof.Gen.ReferenceIdeal
import proofs.«178268_j47347719471684_2_alg».proof.Proof.Gen.Pre_finite_inputs
import proofs.«178268_j47347719471684_2_alg».proof.Proof.Spec
import proofs.«178268_j47347719471684_2_alg».proof.Proof.Body
import proofs.«178268_j47347719471684_2_alg».proof.Proof.KRun
import proofs.«178268_j47347719471684_2_alg».proof.Proof.RefRun
import proofs.«178268_j47347719471684_2_alg».proof.Proof.PairFields
import proofs.«178268_j47347719471684_2_alg».proof.Proof.RefBridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.GenP.frame m ρ

/-- So does the kernel read over the extended reals. -/
theorem frame_kernelIdeal : Cert.frame_KernelIdeal := fun m ρ _ => Cert.KernelIdeal.GenP.frame m ρ

/-- The reference is a straight line of host operations, none of which writes an argument. -/
theorem frame_referenceIdeal : Cert.frame_ReferenceIdeal := fun m ρ _ =>
  (θ_run Cert.ReferenceIdeal.defs _ _).mono (fun _ h c => (h c).2) (Cert.ReferenceIdeal.RefRun.run m ρ)

/-- The idealization rewrote nothing. -/
theorem preserves : Cert.preserves_Kernel_KernelIdeal := trivial

/-- Both programs end with the array `G` of their (equal) arguments. -/
theorem algebraic : Cert.algebraic_KernelIdeal_ReferenceIdeal := by
  intro m ρ m' ρ' _ hagree
  refine ⟨_, Cert.KernelIdeal.KRun.run Cert.KernelIdeal.Body.out_apply m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2]
  exact Cert.ReferenceIdeal.Bridge.result_eq Cert.ReferenceIdeal.PairFields.rows_eq Cert.ReferenceIdeal.PairFields.cols_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
